-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.sign_bit.Statement Cert.KernelIdeal.S16x224x224 .f32
  ∧ IdealRules.sign_bit.Statement Cert.KernelIdeal.S16x112x112 .f32
  ∧ IdealRules.sign_bit.Statement Cert.KernelIdeal.S16x56x56 .f32
  ∧ IdealRules.sign_bit.Statement Cert.KernelIdeal.S16x32x32 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x224x224 : Shape := ⟨4, ![32, 64, 224, 224]⟩
abbrev S_ : Shape := ⟨0, ![]⟩

class Facts : Prop where
  bcast_S_S32x64x224x224 : S_.BroadcastsInDim S32x64x224x224 (![] : Fin 0 → Fin S32x64x224x224.rank)
  reducesTo_S32x64x224x224_S_d0_1_2_3 : S32x64x224x224.ReducesTo [0, 1, 2, 3] S_
  h_S_ : 0 < S_.numel

variable [Facts]

def fn {F : FTy → Type} [FloatOps F] (main_arg0 : FVec F S32x64x224x224 .f32) : IVec S_ 1 :=
  let main_v0 : FVec F S32x64x224x224 .f32 := Host.absf main_arg0
  let main_cst : FVec F S_ .f32 := constant S_ .f32 0x7F800000#32
  let main_v1 : FVec F S32x64x224x224 .f32 := broadcastInDim S32x64x224x224 ![] bcast_S_S32x64x224x224 main_cst
  let main_v2 : IVec S32x64x224x224 1 := cmpf .olt main_v0 main_v1
  let main_c : IVec S_ 1 := constantI S_ 1 1#1
  let main_v3 : IVec S_ 1 := (fun x v => Host.reduce IntOp.andi x v reducesTo_S32x64x224x224_S_d0_1_2_3 h_S_) main_v2 main_c
  main_v3
-- ==== Kernel.lean ====
abbrev S32x64x224x224 : Shape := ⟨4, ![32, 64, 224, 224]⟩
abbrev S1x16x224x224 : Shape := ⟨4, ![1, 16, 224, 224]⟩
abbrev S16x224x224 : Shape := ⟨3, ![16, 224, 224]⟩
abbrev S16x112x2x224 : Shape := ⟨4, ![16, 112, 2, 224]⟩
abbrev S16x112x224 : Shape := ⟨3, ![16, 112, 224]⟩
abbrev S16x224x112 : Shape := ⟨3, ![16, 224, 112]⟩
abbrev S16x112x2x112 : Shape := ⟨4, ![16, 112, 2, 112]⟩
abbrev S16x112x112 : Shape := ⟨3, ![16, 112, 112]⟩
abbrev S16x112x1x112 : Shape := ⟨4, ![16, 112, 1, 112]⟩
abbrev S16x112x1x224 : Shape := ⟨4, ![16, 112, 1, 224]⟩
abbrev S16x56x4x224 : Shape := ⟨4, ![16, 56, 4, 224]⟩
abbrev S16x56x224 : Shape := ⟨3, ![16, 56, 224]⟩
abbrev S16x224x56 : Shape := ⟨3, ![16, 224, 56]⟩
abbrev S16x56x4x56 : Shape := ⟨4, ![16, 56, 4, 56]⟩
abbrev S16x56x56 : Shape := ⟨3, ![16, 56, 56]⟩
abbrev S16x56x1x56 : Shape := ⟨4, ![16, 56, 1, 56]⟩
abbrev S16x56x1x224 : Shape := ⟨4, ![16, 56, 1, 224]⟩
abbrev S16x32x7x224 : Shape := ⟨4, ![16, 32, 7, 224]⟩
abbrev S16x32x224 : Shape := ⟨3, ![16, 32, 224]⟩
abbrev S16x224x32 : Shape := ⟨3, ![16, 224, 32]⟩
abbrev S16x32x7x32 : Shape := ⟨4, ![16, 32, 7, 32]⟩
abbrev S16x32x32 : Shape := ⟨3, ![16, 32, 32]⟩
abbrev S16x32x1x32 : Shape := ⟨4, ![16, 32, 1, 32]⟩
abbrev S16x32x1x224 : Shape := ⟨4, ![16, 32, 1, 224]⟩

abbrev nBuf : Space → Nat
  | .hbm => 2
  | .vmem => 4
  | .smem => 0
  | _ => 0

abbrev bufTy : (tb : Table) → Fin (tcTables nBuf tb) → BufTy
  | .hbm, ⟨0, _⟩ => ⟨S32x64x224x224, .f32⟩
  | .hbm, ⟨1, _⟩ => ⟨S32x64x224x224, .f32⟩
  | .local _ .vmem, ⟨0, _⟩ => ⟨S1x16x224x224, .f32⟩
  | .local _ .vmem, ⟨1, _⟩ => ⟨S1x16x224x224, .f32⟩
  | .local _ .vmem, ⟨2, _⟩ => ⟨S1x16x224x224, .f32⟩
  | .local _ .vmem, ⟨3, _⟩ => ⟨S1x16x224x224, .f32⟩
  | _, _ => ⟨S32x64x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨2, ![4, 32], ![false, false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_3 : BitVec 32 := 0#32
  let v4 : BitVec 1 := Scalar.cmpi .ne v3 c0_i32_3
  v4

def k0_cond2 (i : grid0.Coords) : BitVec 1 :=
  let arg0 : BitVec 32 := BitVec.ofNat 32 (i 0).val
  let c1_i32 : BitVec 32 := 1#32
  let v5 : BitVec 1 := Scalar.cmpi .eq arg0 c1_i32
  let v6 : BitVec 32 := Scalar.extui v5
  let c0_i32_4 : BitVec 32 := 0#32
  let v7 : BitVec 1 := Scalar.cmpi .ne v6 c0_i32_4
  v7

def k0_cond3 (i : grid0.Coords) : BitVec 1 :=
  let arg0 : BitVec 32 := BitVec.ofNat 32 (i 0).val
  let c2_i32 : BitVec 32 := 2#32
  let v8 : BitVec 1 := Scalar.cmpi .eq arg0 c2_i32
  let v9 : BitVec 32 := Scalar.extui v8
  let c0_i32_5 : BitVec 32 := 0#32
  let v10 : BitVec 1 := Scalar.cmpi .ne v9 c0_i32_5
  v10

def k0_cond4 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_6 : BitVec 32 := 0#32
  let v13 : BitVec 1 := Scalar.cmpi .ne v12 c0_i32_6
  v13

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x16x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x16x224x224_S1x16x224x224_0_0_0_0 : ∀ a, (![0, 0, 0, 0] : Fin 4 → Nat) a + S1x16x224x224.size a ≤ S1x16x224x224.size a
  h_S1x16x224x224 : 0 < S1x16x224x224.numel
  shapeCasts_S1x16x224x224_S16x224x224 : S1x16x224x224.ShapeCasts S16x224x224
  shapeCasts_S16x224x224_S1x16x224x224 : S16x224x224.ShapeCasts S1x16x224x224
  shapeCasts_S16x224x224_S16x112x2x224 : S16x224x224.ShapeCasts S16x112x2x224
  reduces_S16x112x2x224_S16x112x224 : S16x112x2x224.Reduces [2] S16x112x224
  transposes_S16x112x224_p0_2_1_S16x224x112 : S16x112x224.Transposes [0, 2, 1] S16x224x112
  shapeCasts_S16x224x112_S16x112x2x112 : S16x224x112.ShapeCasts S16x112x2x112
  reduces_S16x112x2x112_S16x112x112 : S16x112x2x112.Reduces [2] S16x112x112
  shapeCasts_S16x112x112_S16x112x1x112 : S16x112x112.ShapeCasts S16x112x1x112
  shapeCasts_S16x112x1x112_S16x112x1x112 : S16x112x1x112.ShapeCasts S16x112x1x112
  broadcasts_S16x112x1x112_S16x112x2x112 : S16x112x1x112.Broadcasts S16x112x2x112
  shapeCasts_S16x112x2x112_S16x224x112 : S16x112x2x112.ShapeCasts S16x224x112
  transposes_S16x224x112_p0_2_1_S16x112x224 : S16x224x112.Transposes [0, 2, 1] S16x112x224
  shapeCasts_S16x112x224_S16x112x1x224 : S16x112x224.ShapeCasts S16x112x1x224
  shapeCasts_S16x112x1x224_S16x112x1x224 : S16x112x1x224.ShapeCasts S16x112x1x224
  broadcasts_S16x112x1x224_S16x112x2x224 : S16x112x1x224.Broadcasts S16x112x2x224
  shapeCasts_S16x112x2x224_S16x224x224 : S16x112x2x224.ShapeCasts S16x224x224
  shapeCasts_S16x224x224_S16x56x4x224 : S16x224x224.ShapeCasts S16x56x4x224
  reduces_S16x56x4x224_S16x56x224 : S16x56x4x224.Reduces [2] S16x56x224
  transposes_S16x56x224_p0_2_1_S16x224x56 : S16x56x224.Transposes [0, 2, 1] S16x224x56
  shapeCasts_S16x224x56_S16x56x4x56 : S16x224x56.ShapeCasts S16x56x4x56
  reduces_S16x56x4x56_S16x56x56 : S16x56x4x56.Reduces [2] S16x56x56
  shapeCasts_S16x56x56_S16x56x1x56 : S16x56x56.ShapeCasts S16x56x1x56
  shapeCasts_S16x56x1x56_S16x56x1x56 : S16x56x1x56.ShapeCasts S16x56x1x56
  broadcasts_S16x56x1x56_S16x56x4x56 : S16x56x1x56.Broadcasts S16x56x4x56
  shapeCasts_S16x56x4x56_S16x224x56 : S16x56x4x56.ShapeCasts S16x224x56
  transposes_S16x224x56_p0_2_1_S16x56x224 : S16x224x56.Transposes [0, 2, 1] S16x56x224
  shapeCasts_S16x56x224_S16x56x1x224 : S16x56x224.ShapeCasts S16x56x1x224
  shapeCasts_S16x56x1x224_S16x56x1x224 : S16x56x1x224.ShapeCasts S16x56x1x224
  broadcasts_S16x56x1x224_S16x56x4x224 : S16x56x1x224.Broadcasts S16x56x4x224
  shapeCasts_S16x56x4x224_S16x224x224 : S16x56x4x224.ShapeCasts S16x224x224
  shapeCasts_S16x224x224_S16x32x7x224 : S16x224x224.ShapeCasts S16x32x7x224
  reduces_S16x32x7x224_S16x32x224 : S16x32x7x224.Reduces [2] S16x32x224
  transposes_S16x32x224_p0_2_1_S16x224x32 : S16x32x224.Transposes [0, 2, 1] S16x224x32
  shapeCasts_S16x224x32_S16x32x7x32 : S16x224x32.ShapeCasts S16x32x7x32
  reduces_S16x32x7x32_S16x32x32 : S16x32x7x32.Reduces [2] S16x32x32
  shapeCasts_S16x32x32_S16x32x1x32 : S16x32x32.ShapeCasts S16x32x1x32
  shapeCasts_S16x32x1x32_S16x32x1x32 : S16x32x1x32.ShapeCasts S16x32x1x32
  broadcasts_S16x32x1x32_S16x32x7x32 : S16x32x1x32.Broadcasts S16x32x7x32
  shapeCasts_S16x32x7x32_S16x224x32 : S16x32x7x32.ShapeCasts S16x224x32
  transposes_S16x224x32_p0_2_1_S16x32x224 : S16x224x32.Transposes [0, 2, 1] S16x32x224
  shapeCasts_S16x32x224_S16x32x1x224 : S16x32x224.ShapeCasts S16x32x1x224
  shapeCasts_S16x32x1x224_S16x32x1x224 : S16x32x1x224.ShapeCasts S16x32x1x224
  broadcasts_S16x32x1x224_S16x32x7x224 : S16x32x1x224.Broadcasts S16x32x7x224
  shapeCasts_S16x32x7x224_S16x224x224 : S16x32x7x224.ShapeCasts S16x224x224
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x224x224.size a ≤ S32x64x224x224.size a
  hwx0_0 : ∀ i : grid0.Coords, EltTy.bits .f32 = 32 ∨ (Rect.block (s := S32x64x224x224) S1x16x224x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x224x224.size a ≤ S32x64x224x224.size a
  hwx0_1 : ∀ i : grid0.Coords, EltTy.bits .f32 = 32 ∨ (Rect.block (s := S32x64x224x224) S1x16x224x224.size (cc0_transform_1 i) (hinb0_1 i)).WholeWords (EltTy.packing .f32)

variable [Facts₀]

abbrev win0_0 : Pipeline.Window sig grid0 :=
  Pipeline.Window.ofSpec (Memref.whole main_arg0) S1x16x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16x224x224.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) && !(k0_cond3 i == 1#1) && !(k0_cond4 i == 1#1) | ⟨_ + 2, h⟩ => absurd h (Nat.not_lt.2 (Nat.le_add_left _ _))

class Facts : Prop extends Facts₀ where

variable [Facts]
-- ==== ReferenceIdeal.lean ====
abbrev S32x64x224x224 : Shape := ⟨4, ![32, 64, 224, 224]⟩
abbrev S16 : Shape := ⟨1, ![16]⟩
abbrev S_ : Shape := ⟨0, ![]⟩
abbrev S16x1 : Shape := ⟨2, ![16, 1]⟩
abbrev S32x16x224x224 : Shape := ⟨4, ![32, 16, 224, 224]⟩
abbrev S32x16x112x2x112x2 : Shape := ⟨6, ![32, 16, 112, 2, 112, 2]⟩
abbrev S32x16x112x112 : Shape := ⟨4, ![32, 16, 112, 112]⟩
abbrev S32x16x112x2x112 : Shape := ⟨5, ![32, 16, 112, 2, 112]⟩
abbrev S32x16x224x112 : Shape := ⟨4, ![32, 16, 224, 112]⟩
abbrev S32x16x224x112x2 : Shape := ⟨5, ![32, 16, 224, 112, 2]⟩
abbrev S32x16x56x4x56x4 : Shape := ⟨6, ![32, 16, 56, 4, 56, 4]⟩
abbrev S32x16x56x56 : Shape := ⟨4, ![32, 16, 56, 56]⟩
abbrev S32x16x56x4x56 : Shape := ⟨5, ![32, 16, 56, 4, 56]⟩
abbrev S32x16x224x56 : Shape := ⟨4, ![32, 16, 224, 56]⟩
abbrev S32x16x224x56x4 : Shape := ⟨5, ![32, 16, 224, 56, 4]⟩
abbrev S32x16x32x7x32x7 : Shape := ⟨6, ![32, 16, 32, 7, 32, 7]⟩
abbrev S32x16x32x32 : Shape := ⟨4, ![32, 16, 32, 32]⟩
abbrev S32x16x32x7x32 : Shape := ⟨5, ![32, 16, 32, 7, 32]⟩
abbrev S32x16x224x32 : Shape := ⟨4, ![32, 16, 224, 32]⟩
abbrev S32x16x224x32x7 : Shape := ⟨5, ![32, 16, 224, 32, 7]⟩

abbrev nBuf : Space → Nat
  | .hbm => 122
  | .vmem => 0
  | .smem => 0
  | _ => 0

abbrev bufTy : (tb : Table) → Fin (tcTables nBuf tb) → BufTy
  | .hbm, ⟨0, _⟩ => ⟨S32x64x224x224, .f32⟩
  | .hbm, ⟨1, _⟩ => ⟨S16, .i32⟩
  | .hbm, ⟨2, _⟩ => ⟨S16, .i1⟩
  | .hbm, ⟨3, _⟩ => ⟨S16, .i1⟩
  | .hbm, ⟨4, _⟩ => ⟨S16, .i32⟩
  | .hbm, ⟨5, _⟩ => ⟨S16, .i1⟩
  | .hbm, ⟨6, _⟩ => ⟨S16, .i1⟩
  | .hbm, ⟨7, _⟩ => ⟨S16, .i32⟩
  | .hbm, ⟨8, _⟩ => ⟨S16, .i1⟩
  | .hbm, ⟨9, _⟩ => ⟨S16, .i1⟩
  | .hbm, ⟨10, _⟩ => ⟨S16, .i32⟩
  | .hbm, ⟨11, _⟩ => ⟨S16, .i1⟩
  | .hbm, ⟨12, _⟩ => ⟨S16, .i1⟩
  | .hbm, ⟨13, _⟩ => ⟨S_, .f32⟩
  | .hbm, ⟨14, _⟩ => ⟨S32x64x224x224, .f32⟩
  | .hbm, ⟨15, _⟩ => ⟨S_, .i32⟩
  | .hbm, ⟨16, _⟩ => ⟨S16, .i32⟩
  | .hbm, ⟨17, _⟩ => ⟨S16, .i32⟩
  | .hbm, ⟨18, _⟩ => ⟨S16, .i32⟩
  | .hbm, ⟨19, _⟩ => ⟨S16x1, .i32⟩
  | .hbm, ⟨20, _⟩ => ⟨S32x16x224x224, .f32⟩
  | .hbm, ⟨21, _⟩ => ⟨S32x16x224x224, .f32⟩
  | .hbm, ⟨22, _⟩ => ⟨S_, .f32⟩
  | .hbm, ⟨23, _⟩ => ⟨S32x16x224x224, .f32⟩
  | .hbm, ⟨24, _⟩ => ⟨S32x16x224x224, .f32⟩
  | .hbm, ⟨25, _⟩ => ⟨S_, .f32⟩
  | .hbm, ⟨26, _⟩ => ⟨S32x16x224x224, .f32⟩
  | .hbm, ⟨27, _⟩ => ⟨S32x16x224x224, .f32⟩
  | .hbm, ⟨28, _⟩ => ⟨S_, .i32⟩
  | .hbm, ⟨29, _⟩ => ⟨S16, .i32⟩
  | .hbm, ⟨30, _⟩ => ⟨S16, .i32⟩
  | .hbm, ⟨31, _⟩ => ⟨S16, .i32⟩
  | .hbm, ⟨32, _⟩ => ⟨S16x1, .i32⟩
  | .hbm, ⟨33, _⟩ => ⟨S32x64x224x224, .f32⟩
  | .hbm, ⟨34, _⟩ => ⟨S_, .i32⟩
  | .hbm, ⟨35, _⟩ => ⟨S16, .i32⟩
  | .hbm, ⟨36, _⟩ => ⟨S16, .i32⟩
  | .hbm, ⟨37, _⟩ => ⟨S16, .i32⟩
  | .hbm, ⟨38, _⟩ => ⟨S16x1, .i32⟩
  | .hbm, ⟨39, _⟩ => ⟨S32x16x224x224, .f32⟩
  | .hbm, ⟨40, _⟩ => ⟨S32x16x112x2x112x2, .f32⟩
  | .hbm, ⟨41, _⟩ => ⟨S_, .f32⟩
  | .hbm, ⟨42, _⟩ => ⟨S32x16x112x112, .f32⟩
  | .hbm, ⟨43, _⟩ => ⟨S_, .f32⟩
  | .hbm, ⟨44, _⟩ => ⟨S32x16x112x112, .f32⟩
  | .hbm, ⟨45, _⟩ => ⟨S32x16x112x112, .f32⟩
  | .hbm, ⟨46, _⟩ => ⟨S32x16x112x112, .f32⟩
  | .hbm, ⟨47, _⟩ => ⟨S_, .f32⟩
  | .hbm, ⟨48, _⟩ => ⟨S32x16x112x112, .f32⟩
  | .hbm, ⟨49, _⟩ => ⟨S32x16x112x112, .f32⟩
  | .hbm, ⟨50, _⟩ => ⟨S_, .f32⟩
  | .hbm, ⟨51, _⟩ => ⟨S32x16x112x112, .f32⟩
  | .hbm, ⟨52, _⟩ => ⟨S32x16x112x112, .f32⟩
  | .hbm, ⟨53, _⟩ => ⟨S32x16x112x2x112, .f32⟩
  | .hbm, ⟨54, _⟩ => ⟨S32x16x224x112, .f32⟩
  | .hbm, ⟨55, _⟩ => ⟨S32x16x224x112x2, .f32⟩
  | .hbm, ⟨56, _⟩ => ⟨S32x16x224x224, .f32⟩
  | .hbm, ⟨57, _⟩ => ⟨S_, .i32⟩
  | .hbm, ⟨58, _⟩ => ⟨S16, .i32⟩
  | .hbm, ⟨59, _⟩ => ⟨S16, .i32⟩
  | .hbm, ⟨60, _⟩ => ⟨S16, .i32⟩
  | .hbm, ⟨61, _⟩ => ⟨S16x1, .i32⟩
  | .hbm, ⟨62, _⟩ => ⟨S32x64x224x224, .f32⟩
  | .hbm, ⟨63, _⟩ => ⟨S_, .i32⟩
  | .hbm, ⟨64, _⟩ => ⟨S16, .i32⟩
  | .hbm, ⟨65, _⟩ => ⟨S16, .i32⟩
  | .hbm, ⟨66, _⟩ => ⟨S16, .i32⟩
  | .hbm, ⟨67, _⟩ => ⟨S16x1, .i32⟩
  | .hbm, ⟨68, _⟩ => ⟨S32x16x224x224, .f32⟩
  | .hbm, ⟨69, _⟩ => ⟨S32x16x56x4x56x4, .f32⟩
  | .hbm, ⟨70, _⟩ => ⟨S_, .f32⟩
  | .hbm, ⟨71, _⟩ => ⟨S32x16x56x56, .f32⟩
  | .hbm, ⟨72, _⟩ => ⟨S_, .f32⟩
  | .hbm, ⟨73, _⟩ => ⟨S32x16x56x56, .f32⟩
  | .hbm, ⟨74, _⟩ => ⟨S32x16x56x56, .f32⟩
  | .hbm, ⟨75, _⟩ => ⟨S32x16x56x56, .f32⟩
  | .hbm, ⟨76, _⟩ => ⟨S_, .f32⟩
  | .hbm, ⟨77, _⟩ => ⟨S32x16x56x56, .f32⟩
  | .hbm, ⟨78, _⟩ => ⟨S32x16x56x56, .f32⟩
  | .hbm, ⟨79, _⟩ => ⟨S_, .f32⟩
  | .hbm, ⟨80, _⟩ => ⟨S32x16x56x56, .f32⟩
  | .hbm, ⟨81, _⟩ => ⟨S32x16x56x56, .f32⟩
  | .hbm, ⟨82, _⟩ => ⟨S32x16x56x4x56, .f32⟩
  | .hbm, ⟨83, _⟩ => ⟨S32x16x224x56, .f32⟩
  | .hbm, ⟨84, _⟩ => ⟨S32x16x224x56x4, .f32⟩
  | .hbm, ⟨85, _⟩ => ⟨S32x16x224x224, .f32⟩
  | .hbm, ⟨86, _⟩ => ⟨S_, .i32⟩
  | .hbm, ⟨87, _⟩ => ⟨S16, .i32⟩
  | .hbm, ⟨88, _⟩ => ⟨S16, .i32⟩
  | .hbm, ⟨89, _⟩ => ⟨S16, .i32⟩
  | .hbm, ⟨90, _⟩ => ⟨S16x1, .i32⟩
  | .hbm, ⟨91, _⟩ => ⟨S32x64x224x224, .f32⟩
  | .hbm, ⟨92, _⟩ => ⟨S_, .i32⟩
  | .hbm, ⟨93, _⟩ => ⟨S16, .i32⟩
  | .hbm, ⟨94, _⟩ => ⟨S16, .i32⟩
  | .hbm, ⟨95, _⟩ => ⟨S16, .i32⟩
  | .hbm, ⟨96, _⟩ => ⟨S16x1, .i32⟩
  | .hbm, ⟨97, _⟩ => ⟨S32x16x224x224, .f32⟩
  | .hbm, ⟨98, _⟩ => ⟨S32x16x32x7x32x7, .f32⟩
  | .hbm, ⟨99, _⟩ => ⟨S_, .f32⟩
  | .hbm, ⟨100, _⟩ => ⟨S32x16x32x32, .f32⟩
  | .hbm, ⟨101, _⟩ => ⟨S_, .f32⟩
  | .hbm, ⟨102, _⟩ => ⟨S32x16x32x32, .f32⟩
  | .hbm, ⟨103, _⟩ => ⟨S32x16x32x32, .f32⟩
  | .hbm, ⟨104, _⟩ => ⟨S32x16x32x32, .f32⟩
  | .hbm, ⟨105, _⟩ => ⟨S_, .f32⟩
  | .hbm, ⟨106, _⟩ => ⟨S32x16x32x32, .f32⟩
  | .hbm, ⟨107, _⟩ => ⟨S32x16x32x32, .f32⟩
  | .hbm, ⟨108, _⟩ => ⟨S_, .f32⟩
  | .hbm, ⟨109, _⟩ => ⟨S32x16x32x32, .f32⟩
  | .hbm, ⟨110, _⟩ => ⟨S32x16x32x32, .f32⟩
  | .hbm, ⟨111, _⟩ => ⟨S32x16x32x7x32, .f32⟩
  | .hbm, ⟨112, _⟩ => ⟨S32x16x224x32, .f32⟩
  | .hbm, ⟨113, _⟩ => ⟨S32x16x224x32x7, .f32⟩
  | .hbm, ⟨114, _⟩ => ⟨S32x16x224x224, .f32⟩
  | .hbm, ⟨115, _⟩ => ⟨S_, .i32⟩
  | .hbm, ⟨116, _⟩ => ⟨S16, .i32⟩
  | .hbm, ⟨117, _⟩ => ⟨S16, .i32⟩
  | .hbm, ⟨118, _⟩ => ⟨S16, .i32⟩
  | .hbm, ⟨119, _⟩ => ⟨S16x1, .i32⟩
  | .hbm, ⟨120, _⟩ => ⟨S32x64x224x224, .f32⟩
  | .hbm, ⟨121, _⟩ => ⟨S32x64x224x224, .f32⟩
  | _, _ => ⟨S32x64x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_c_4 : Ref sig .tc := ⟨.hbm, 6, rfl⟩
abbrev main_c_5 : Ref sig .tc := ⟨.hbm, 7, rfl⟩
abbrev main_c_6 : Ref sig .tc := ⟨.hbm, 8, rfl⟩
abbrev main_c_7 : Ref sig .tc := ⟨.hbm, 9, rfl⟩
abbrev main_c_8 : Ref sig .tc := ⟨.hbm, 10, rfl⟩
abbrev main_c_9 : Ref sig .tc := ⟨.hbm, 11, rfl⟩
abbrev main_c_10 : Ref sig .tc := ⟨.hbm, 12, rfl⟩
abbrev main_cst : Ref sig .tc := ⟨.hbm, 13, rfl⟩
abbrev main_v0 : Ref sig .tc := ⟨.hbm, 14, rfl⟩
abbrev main_c_11 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_12 : Ref sig .tc := ⟨.hbm, 22, rfl⟩
abbrev main_v7 : Ref sig .tc := ⟨.hbm, 23, rfl⟩
abbrev main_v8 : Ref sig .tc := ⟨.hbm, 24, rfl⟩
abbrev main_cst_13 : Ref sig .tc := ⟨.hbm, 25, rfl⟩
abbrev main_v9 : Ref sig .tc := ⟨.hbm, 26, rfl⟩
abbrev main_v10 : Ref sig .tc := ⟨.hbm, 27, rfl⟩
abbrev main_c_14 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_16 : Ref sig .tc := ⟨.hbm, 41, rfl⟩
abbrev main_v22 : Ref sig .tc := ⟨.hbm, 42, rfl⟩
abbrev main_cst_17 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_18 : Ref sig .tc := ⟨.hbm, 47, rfl⟩
abbrev main_v26 : Ref sig .tc := ⟨.hbm, 48, rfl⟩
abbrev main_v27 : Ref sig .tc := ⟨.hbm, 49, rfl⟩
abbrev main_cst_19 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_20 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_21 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_22 : Ref sig .tc := ⟨.hbm, 70, rfl⟩
abbrev main_v45 : Ref sig .tc := ⟨.hbm, 71, rfl⟩
abbrev main_cst_23 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_24 : Ref sig .tc := ⟨.hbm, 76, rfl⟩
abbrev main_v49 : Ref sig .tc := ⟨.hbm, 77, rfl⟩
abbrev main_v50 : Ref sig .tc := ⟨.hbm, 78, rfl⟩
abbrev main_cst_25 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_26 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_27 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_28 : Ref sig .tc := ⟨.hbm, 99, rfl⟩
abbrev main_v68 : Ref sig .tc := ⟨.hbm, 100, rfl⟩
abbrev main_cst_29 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_30 : Ref sig .tc := ⟨.hbm, 105, rfl⟩
abbrev main_v72 : Ref sig .tc := ⟨.hbm, 106, rfl⟩
abbrev main_v73 : Ref sig .tc := ⟨.hbm, 107, rfl⟩
abbrev main_cst_31 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_32 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩

abbrev nD : Nat := 1
abbrev τ : Topo := Topo.v7x

variable {F : FTy → Type} [FloatOps F]

class Facts₀ : Prop where
  bcast_S_S32x64x224x224 : S_.BroadcastsInDim S32x64x224x224 (![] : Fin 0 → Fin S32x64x224x224.rank)
  bcast_S_S16 : S_.BroadcastsInDim S16 (![] : Fin 0 → Fin S16.rank)
  bcast_S16_S16x1_0 : S16.BroadcastsInDim S16x1 (![0] : Fin 1 → Fin S16x1.rank)
  bcast_S_S32x16x224x224 : S_.BroadcastsInDim S32x16x224x224 (![] : Fin 0 → Fin S32x16x224x224.rank)
  shapeCasts_S32x16x224x224_S32x16x112x2x112x2 : S32x16x224x224.ShapeCasts S32x16x112x2x112x2
  reducesTo_S32x16x112x2x112x2_S32x16x112x112_d3_5 : S32x16x112x2x112x2.ReducesTo [3, 5] S32x16x112x112
  h_S_ : 0 < S_.numel
  bcast_S_S32x16x112x112 : S_.BroadcastsInDim S32x16x112x112 (![] : Fin 0 → Fin S32x16x112x112.rank)
  bcast_S32x16x112x112_S32x16x112x2x112_0_1_2_4 : S32x16x112x112.BroadcastsInDim S32x16x112x2x112 (![0, 1, 2, 4] : Fin 4 → Fin S32x16x112x2x112.rank)
  shapeCasts_S32x16x112x2x112_S32x16x224x112 : S32x16x112x2x112.ShapeCasts S32x16x224x112
  bcast_S32x16x224x112_S32x16x224x112x2_0_1_2_3 : S32x16x224x112.BroadcastsInDim S32x16x224x112x2 (![0, 1, 2, 3] : Fin 4 → Fin S32x16x224x112x2.rank)
  shapeCasts_S32x16x224x112x2_S32x16x224x224 : S32x16x224x112x2.ShapeCasts S32x16x224x224
  shapeCasts_S32x16x224x224_S32x16x56x4x56x4 : S32x16x224x224.ShapeCasts S32x16x56x4x56x4
  reducesTo_S32x16x56x4x56x4_S32x16x56x56_d3_5 : S32x16x56x4x56x4.ReducesTo [3, 5] S32x16x56x56
  bcast_S_S32x16x56x56 : S_.BroadcastsInDim S32x16x56x56 (![] : Fin 0 → Fin S32x16x56x56.rank)
  bcast_S32x16x56x56_S32x16x56x4x56_0_1_2_4 : S32x16x56x56.BroadcastsInDim S32x16x56x4x56 (![0, 1, 2, 4] : Fin 4 → Fin S32x16x56x4x56.rank)
  shapeCasts_S32x16x56x4x56_S32x16x224x56 : S32x16x56x4x56.ShapeCasts S32x16x224x56
  bcast_S32x16x224x56_S32x16x224x56x4_0_1_2_3 : S32x16x224x56.BroadcastsInDim S32x16x224x56x4 (![0, 1, 2, 3] : Fin 4 → Fin S32x16x224x56x4.rank)
  shapeCasts_S32x16x224x56x4_S32x16x224x224 : S32x16x224x56x4.ShapeCasts S32x16x224x224
  shapeCasts_S32x16x224x224_S32x16x32x7x32x7 : S32x16x224x224.ShapeCasts S32x16x32x7x32x7
  reducesTo_S32x16x32x7x32x7_S32x16x32x32_d3_5 : S32x16x32x7x32x7.ReducesTo [3, 5] S32x16x32x32
  bcast_S_S32x16x32x32 : S_.BroadcastsInDim S32x16x32x32 (![] : Fin 0 → Fin S32x16x32x32.rank)
  bcast_S32x16x32x32_S32x16x32x7x32_0_1_2_4 : S32x16x32x32.BroadcastsInDim S32x16x32x7x32 (![0, 1, 2, 4] : Fin 4 → Fin S32x16x32x7x32.rank)
  shapeCasts_S32x16x32x7x32_S32x16x224x32 : S32x16x32x7x32.ShapeCasts S32x16x224x32
  bcast_S32x16x224x32_S32x16x224x32x7_0_1_2_3 : S32x16x224x32.BroadcastsInDim S32x16x224x32x7 (![0, 1, 2, 3] : Fin 4 → Fin S32x16x224x32x7.rank)
  shapeCasts_S32x16x224x32x7_S32x16x224x224 : S32x16x224x32x7.ShapeCasts S32x16x224x224
  gather_S32x64x224x224_S16x1_S32x16x224x224_023_1_n_n_1_1_321224224_wf : GatherDims.WF S32x64x224x224 S16x1 S32x16x224x224 [0, 2, 3] [1] [] [1] [] 1 ![32, 1, 224, 224]
  scatter_S32x64x224x224_S16x1_S32x16x224x224_023_1_1_1_wf : ScatterDims.WF S32x64x224x224 S16x1 S32x16x224x224 [0, 2, 3] [1] [1] 1

variable [Facts₀]

def gather_S32x64x224x224_S16x1_S32x16x224x224_023_1_n_n_1_1_321224224 : GatherDims S32x64x224x224 S16x1 S32x16x224x224 where
  offsetDims := [0, 2, 3]
  collapsedSliceDims := [1]
  operandBatchingDims := []
  startIndicesBatchingDims := []
  startIndexMap := [1]
  indexVectorDim := 1
  sliceSizes := ![32, 1, 224, 224]
  wf := gather_S32x64x224x224_S16x1_S32x16x224x224_023_1_n_n_1_1_321224224_wf
def scatter_S32x64x224x224_S16x1_S32x16x224x224_023_1_1_1 : ScatterDims S32x64x224x224 S16x1 S32x16x224x224 where
  updateWindowDims := [0, 2, 3]
  insertedWindowDims := [1]
  scatterDimsToOperandDims := [1]
  indexVectorDim := 1
  wf := scatter_S32x64x224x224_S16x1_S32x16x224x224_023_1_1_1_wf

class Facts : Prop extends Facts₀ where

variable [Facts]
-- ==== Proof.BodyK.lean ====
/- The frame of program Kernel's one kernel: the body's four branches test the first grid coordinate
   against 0, 1, 2, 3, so at every grid point exactly one of them runs, and that one overwrites the whole output
   block with one payload of the input block. This module states what the output's staging buffer holds after
   the body at each point (`outAt`), the proof data of the pipeline, the body obligation, the run and the frame. -/
import proofs.«116518_j79972291051870_2_alg».proof.Proof.Gen.Kernel.Frame
import proofs.«116518_j79972291051870_2_alg».proof.Proof.Gen.Kernel.Skeleton
import proofs.«116518_j79972291051870_2_alg».proof.Proof.Gen.Kernel.Launch
import proofs.«116518_j79972291051870_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The branch conditions over the grid -/

/-- Branch 1 runs exactly at the points of the first row of the grid (first coordinate 0): decided point by point. -/
theorem hcond1 : ∀ t : Fin cfg0.N, k0_cond1 (grid0.coords t) = 1#1 ↔ t.val / 32 = 0 :=
  (by decide +kernel : ∀ t : Fin grid0.N, k0_cond1 (grid0.coords t) = 1#1 ↔ t.val / 32 = 0)
/-- Branch 2 runs exactly at the points of the second row. -/
theorem hcond2 : ∀ t : Fin cfg0.N, k0_cond2 (grid0.coords t) = 1#1 ↔ t.val / 32 = 1 :=
  (by decide +kernel : ∀ t : Fin grid0.N, k0_cond2 (grid0.coords t) = 1#1 ↔ t.val / 32 = 1)
/-- Branch 3 runs exactly at the points of the third row. -/
theorem hcond3 : ∀ t : Fin cfg0.N, k0_cond3 (grid0.coords t) = 1#1 ↔ t.val / 32 = 2 :=
  (by decide +kernel : ∀ t : Fin grid0.N, k0_cond3 (grid0.coords t) = 1#1 ↔ t.val / 32 = 2)
/-- Branch 4 runs exactly at the points of the fourth row. -/
theorem hcond4 : ∀ t : Fin cfg0.N, k0_cond4 (grid0.coords t) = 1#1 ↔ t.val / 32 = 3 :=
  (by decide +kernel : ∀ t : Fin grid0.N, k0_cond4 (grid0.coords t) = 1#1 ↔ t.val / 32 = 3)

/-- Neither window is idle at any point: the input never is, and at every point one of the four branches stores
    the output block. -/
theorem live0 : ∀ t : Fin cfg0.N, cfg0.idle 0 (grid0.coords t) = false :=
  (by decide +kernel : ∀ t : Fin grid0.N, idle0 0 (grid0.coords t) = false)
theorem live1 : ∀ t : Fin cfg0.N, cfg0.idle 1 (grid0.coords t) = false :=
  (by decide +kernel : ∀ t : Fin grid0.N, idle0 1 (grid0.coords t) = false)

/-! ## The kernel body on any staging memrefs, branch by branch -/

/-- The zero offsets of the whole-block rectangle, as a constant function. -/
theorem hz : (![0, 0, 0, 0] : Fin 4 → Nat) = fun _ => 0 := funext fun a => by fin_cases a <;> rfl

set_option maxHeartbeats 1000000 in
/-- THE BODY WHEN BRANCH 1 RUNS (first grid coordinate 0): the three other branches are skipped. On whole staging memrefs, the input's holding `x0` and the output's holding anything, the body runs
    to a continuation that gets the input's back unchanged and the output's holding `k0_pay2 x0`: the branch's one
    store goes through the whole-block rectangle at zero offsets, so whatever the buffer held before (the value the
    branch loads from it is not used) it reads back as the stored payload, and the payload's argument — the load of
    the input's whole block — is `x0`. -/
theorem kernelRun_A (c : Dev nD) (i : grid0.Coords) (arg2 : Memref sig .tc .vmem S1x16x224x224 .f32) (harg2 : arg2.IsWhole) (arg3 : Memref sig .tc .vmem S1x16x224x224 .f32) (harg3 : arg3.IsWhole)
    (hc1 : k0_cond1 i = 1#1) (hc2 : ¬k0_cond2 i = 1#1) (hc3 : ¬k0_cond3 i = 1#1) (hc4 : ¬k0_cond4 i = 1#1)
    (x0 : Vec F S1x16x224x224 .f32) (E : Set ℕ) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (k0_pay2 x0)) -∗ K ⟨⟩))
      ⊢ wp frame (wpE (defs₀ (F := F)) Variants.none c none) E (cc0__block_relu_kernel i arg2 harg2 arg3 harg3) K := by
  simp only [cc0__block_relu_kernel_eq_skeleton]; unfold cc0__block_relu_kernel_skel
  unfold owns
  iintro ⟨⟨%f0, %hf0, H0⟩, ⟨%d1, %f1, -, H1⟩, Hk⟩
  obtain rfl := harg2.eq_unread hf0
  sl_exec (disch := first | exact hc1 | exact hc2 | exact hc3 | exact hc4)
  sl_step
  iapply Hk
  isplitl [H0]
  · iexists _; isplitr; · ipureintro; exact harg2.read_unread _
    iexact H0
  iexists _; isplitr
  swap; · iexact H1
  ipureintro
  rw [View.read_writes_eq_canon _ _ _ (fun y => ⟨_, List.mem_singleton_self _, View.mem_set_unit_zero hz inb_S1x16x224x224_S1x16x224x224_0_0_0_0 y⟩),
    View.canon_unit_zero hz, View.readAt_eq_ld, harg2.read_unread, View.ld_unit_zero hz]

set_option maxHeartbeats 1000000 in
/-- THE BODY WHEN BRANCH 2 RUNS (first grid coordinate 1): the three other branches are skipped. On whole staging memrefs, the input's holding `x0` and the output's holding anything, the body runs
    to a continuation that gets the input's back unchanged and the output's holding `k0_pay3 x0`: the branch's one
    store goes through the whole-block rectangle at zero offsets, so whatever the buffer held before (the value the
    branch loads from it is not used) it reads back as the stored payload, and the payload's argument — the load of
    the input's whole block — is `x0`. -/
theorem kernelRun_B (c : Dev nD) (i : grid0.Coords) (arg2 : Memref sig .tc .vmem S1x16x224x224 .f32) (harg2 : arg2.IsWhole) (arg3 : Memref sig .tc .vmem S1x16x224x224 .f32) (harg3 : arg3.IsWhole)
    (hc1 : ¬k0_cond1 i = 1#1) (hc2 : k0_cond2 i = 1#1) (hc3 : ¬k0_cond3 i = 1#1) (hc4 : ¬k0_cond4 i = 1#1)
    (x0 : Vec F S1x16x224x224 .f32) (E : Set ℕ) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (k0_pay3 x0)) -∗ K ⟨⟩))
      ⊢ wp frame (wpE (defs₀ (F := F)) Variants.none c none) E (cc0__block_relu_kernel i arg2 harg2 arg3 harg3) K := by
  simp only [cc0__block_relu_kernel_eq_skeleton]; unfold cc0__block_relu_kernel_skel
  unfold owns
  iintro ⟨⟨%f0, %hf0, H0⟩, ⟨%d1, %f1, -, H1⟩, Hk⟩
  obtain rfl := harg2.eq_unread hf0
  sl_exec (disch := first | exact hc1 | exact hc2 | exact hc3 | exact hc4)
  sl_step
  iapply Hk
  isplitl [H0]
  · iexists _; isplitr; · ipureintro; exact harg2.read_unread _
    iexact H0
  iexists _; isplitr
  swap; · iexact H1
  ipureintro
  rw [View.read_writes_eq_canon _ _ _ (fun y => ⟨_, List.mem_singleton_self _, View.mem_set_unit_zero hz inb_S1x16x224x224_S1x16x224x224_0_0_0_0 y⟩),
    View.canon_unit_zero hz, View.readAt_eq_ld, harg2.read_unread, View.ld_unit_zero hz]

set_option maxHeartbeats 1000000 in
/-- THE BODY WHEN BRANCH 3 RUNS (first grid coordinate 2): the three other branches are skipped. On whole staging memrefs, the input's holding `x0` and the output's holding anything, the body runs
    to a continuation that gets the input's back unchanged and the output's holding `k0_pay4 x0`: the branch's one
    store goes through the whole-block rectangle at zero offsets, so whatever the buffer held before (the value the
    branch loads from it is not used) it reads back as the stored payload, and the payload's argument — the load of
    the input's whole block — is `x0`. -/
theorem kernelRun_C (c : Dev nD) (i : grid0.Coords) (arg2 : Memref sig .tc .vmem S1x16x224x224 .f32) (harg2 : arg2.IsWhole) (arg3 : Memref sig .tc .vmem S1x16x224x224 .f32) (harg3 : arg3.IsWhole)
    (hc1 : ¬k0_cond1 i = 1#1) (hc2 : ¬k0_cond2 i = 1#1) (hc3 : k0_cond3 i = 1#1) (hc4 : ¬k0_cond4 i = 1#1)
    (x0 : Vec F S1x16x224x224 .f32) (E : Set ℕ) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (k0_pay4 x0)) -∗ K ⟨⟩))
      ⊢ wp frame (wpE (defs₀ (F := F)) Variants.none c none) E (cc0__block_relu_kernel i arg2 harg2 arg3 harg3) K := by
  simp only [cc0__block_relu_kernel_eq_skeleton]; unfold cc0__block_relu_kernel_skel
  unfold owns
  iintro ⟨⟨%f0, %hf0, H0⟩, ⟨%d1, %f1, -, H1⟩, Hk⟩
  obtain rfl := harg2.eq_unread hf0
  sl_exec (disch := first | exact hc1 | exact hc2 | exact hc3 | exact hc4)
  sl_step
  iapply Hk
  isplitl [H0]
  · iexists _; isplitr; · ipureintro; exact harg2.read_unread _
    iexact H0
  iexists _; isplitr
  swap; · iexact H1
  ipureintro
  rw [View.read_writes_eq_canon _ _ _ (fun y => ⟨_, List.mem_singleton_self _, View.mem_set_unit_zero hz inb_S1x16x224x224_S1x16x224x224_0_0_0_0 y⟩),
    View.canon_unit_zero hz, View.readAt_eq_ld, harg2.read_unread, View.ld_unit_zero hz]

set_option maxHeartbeats 1000000 in
/-- THE BODY WHEN BRANCH 4 RUNS (first grid coordinate 3): the three other branches are skipped. On whole staging memrefs, the input's holding `x0` and the output's holding anything, the body runs
    to a continuation that gets the input's back unchanged and the output's holding `k0_pay5 x0`: the branch's one
    store goes through the whole-block rectangle at zero offsets, so whatever the buffer held before (the value the
    branch loads from it is not used) it reads back as the stored payload, and the payload's argument — the load of
    the input's whole block — is `x0`. -/
theorem kernelRun_D (c : Dev nD) (i : grid0.Coords) (arg2 : Memref sig .tc .vmem S1x16x224x224 .f32) (harg2 : arg2.IsWhole) (arg3 : Memref sig .tc .vmem S1x16x224x224 .f32) (harg3 : arg3.IsWhole)
    (hc1 : ¬k0_cond1 i = 1#1) (hc2 : ¬k0_cond2 i = 1#1) (hc3 : ¬k0_cond3 i = 1#1) (hc4 : k0_cond4 i = 1#1)
    (x0 : Vec F S1x16x224x224 .f32) (E : Set ℕ) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (k0_pay5 x0)) -∗ K ⟨⟩))
      ⊢ wp frame (wpE (defs₀ (F := F)) Variants.none c none) E (cc0__block_relu_kernel i arg2 harg2 arg3 harg3) K := by
  simp only [cc0__block_relu_kernel_eq_skeleton]; unfold cc0__block_relu_kernel_skel
  unfold owns
  iintro ⟨⟨%f0, %hf0, H0⟩, ⟨%d1, %f1, -, H1⟩, Hk⟩
  obtain rfl := harg2.eq_unread hf0
  sl_exec (disch := first | exact hc1 | exact hc2 | exact hc3 | exact hc4)
  sl_step
  iapply Hk
  isplitl [H0]
  · iexists _; isplitr; · ipureintro; exact harg2.read_unread _
    iexact H0
  iexists _; isplitr
  swap; · iexact H1
  ipureintro
  rw [View.read_writes_eq_canon _ _ _ (fun y => ⟨_, List.mem_singleton_self _, View.mem_set_unit_zero hz inb_S1x16x224x224_S1x16x224x224_0_0_0_0 y⟩),
    View.canon_unit_zero hz, View.readAt_eq_ld, harg2.read_unread, View.ld_unit_zero hz]

/-! ## What the output's staging buffer holds after the body at each point -/

/-- After the body at point `t` the output's staging buffer holds the payload of the one branch that runs there —
    the row of the grid (`t / 32`) selects it — of the input's block at `t`. -/
def outAt (c : Dev nD) (t : Fin cfg0.N) : Vec F S1x16x224x224 .f32 :=
  if t.val / 32 = 0 then k0_pay2 (iblk m c 0 t)
  else if t.val / 32 = 1 then k0_pay3 (iblk m c 0 t)
  else if t.val / 32 = 2 then k0_pay4 (iblk m c 0 t)
  else k0_pay5 (iblk m c 0 t)

theorem outAt_eq (c : Dev nD) (t : Fin cfg0.N) :
    outAt m c t = if t.val / 32 = 0 then Gen.k0_pay2 (Gen.iblk m c 0 t) else if t.val / 32 = 1 then Gen.k0_pay3 (Gen.iblk m c 0 t)
      else if t.val / 32 = 2 then Gen.k0_pay4 (Gen.iblk m c 0 t) else Gen.k0_pay5 (Gen.iblk m c 0 t) := rfl

/-- `outAt` row by row. -/
theorem outAt_A (c : Dev nD) (t : Fin cfg0.N) (h : t.val / 32 = 0) : outAt m c t = k0_pay2 (iblk m c 0 t) := by
  unfold outAt; rw [if_pos h]
theorem outAt_B (c : Dev nD) (t : Fin cfg0.N) (h : t.val / 32 = 1) : outAt m c t = k0_pay3 (iblk m c 0 t) := by
  unfold outAt; rw [if_neg (by omega), if_pos h]
theorem outAt_C (c : Dev nD) (t : Fin cfg0.N) (h : t.val / 32 = 2) : outAt m c t = k0_pay4 (iblk m c 0 t) := by
  unfold outAt; rw [if_neg (by omega), if_neg (by omega), if_pos h]
theorem outAt_D (c : Dev nD) (t : Fin cfg0.N) (h : t.val / 32 = 3) : outAt m c t = k0_pay5 (iblk m c 0 t) := by
  unfold outAt; rw [if_neg (by omega), if_neg (by omega), if_neg (by omega)]

/-! ## The pipeline's proof data -/

/-- The proof data of the one pipeline on core `c`: the arrays as the region finds them; after the body at point
    `t` the input's buffer still at its block and the output's at `outAt`; the invariant the scoped rest and the
    generator register, which the body neither reads nor writes; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outAt m c t
  Φ _ := Pipeline.ΦA spec0 c
  q _ := fullShare
  owed _ := 0

/-- The proof data's arrays are the region-entry contents (the definition projected, nothing unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = outAt m c t := by dsimp only [dats]

/-- The input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- Each window's current staging memref at point `t`, spelt as the pipeline passes it to the body, and its wholeness. -/
abbrev ms0 (t : Fin cfg0.N) : Memref sig .tc .vmem S1x16x224x224 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x16x224x224 .f32 := win0_1.stage (cfg0.slots t 1)
abbrev hs1 (t : Fin cfg0.N) : (ms1 t).IsWhole := hstage0_1 ((cfg0.slots t 1).cast nbuf0_1)

/-- What the body is called with at point `t` (the library's body obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))

/-- and what it returns: each window's buffer as the obligation states it where the configuration may call a
    window idle (here it never is: `live0`, `live1`). -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 800000 in
/-- The body at any point: the input's memref holds its block; the row of the grid says which branch runs, and that
    branch's run applies — it needs nothing of what the output's buffer held; the invariant passes through unread;
    the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [live0 t], after0_0]
  rw [show (dats m 0 c).leavesExact 1 t = owns (c : Thread nD τ) (ms1 t) fullShare ((dats m 0 c).after 1 t) from by
    unfold Dat.leavesExact; rw [live1 t], after0_1]
  have hN : t.val < 128 := lt_of_lt_of_eq t.isLt (show cfg0.N = 128 from N_0)
  by_cases h : t.val / 32 = 0
  ·
    rw [outAt_A m c t h]
    iintro ⟨HΦ, Ho, ⟨%d0, H0⟩, ⟨%d1, H1⟩⟩
    iapply (kernelRun_A c (grid0.coords t) _ _ _ _ ((hcond1 t).mpr h) (fun h' => by have := (hcond2 t).mp h'; omega) (fun h' => by have := (hcond3 t).mp h'; omega) (fun h' => by have := (hcond4 t).mp h'; omega) (iblk m c 0 t) Set.univ _)
    isplitl [H0]; · iexact H0
    isplitl [H1]; · iexists _; iexact H1
    iintro ⟨H0, H1⟩
    isplitl [HΦ]; · iexact HΦ
    isplitl [Ho]; · iexact Ho
    isplitl [H0]; · iexact H0
    iexact H1
  by_cases h : t.val / 32 = 1
  ·
    rw [outAt_B m c t h]
    iintro ⟨HΦ, Ho, ⟨%d0, H0⟩, ⟨%d1, H1⟩⟩
    iapply (kernelRun_B c (grid0.coords t) _ _ _ _ (fun h' => by have := (hcond1 t).mp h'; omega) ((hcond2 t).mpr h) (fun h' => by have := (hcond3 t).mp h'; omega) (fun h' => by have := (hcond4 t).mp h'; omega) (iblk m c 0 t) Set.univ _)
    isplitl [H0]; · iexact H0
    isplitl [H1]; · iexists _; iexact H1
    iintro ⟨H0, H1⟩
    isplitl [HΦ]; · iexact HΦ
    isplitl [Ho]; · iexact Ho
    isplitl [H0]; · iexact H0
    iexact H1
  by_cases h : t.val / 32 = 2
  ·
    rw [outAt_C m c t h]
    iintro ⟨HΦ, Ho, ⟨%d0, H0⟩, ⟨%d1, H1⟩⟩
    iapply (kernelRun_C c (grid0.coords t) _ _ _ _ (fun h' => by have := (hcond1 t).mp h'; omega) (fun h' => by have := (hcond2 t).mp h'; omega) ((hcond3 t).mpr h) (fun h' => by have := (hcond4 t).mp h'; omega) (iblk m c 0 t) Set.univ _)
    isplitl [H0]; · iexact H0
    isplitl [H1]; · iexists _; iexact H1
    iintro ⟨H0, H1⟩
    isplitl [HΦ]; · iexact HΦ
    isplitl [Ho]; · iexact Ho
    isplitl [H0]; · iexact H0
    iexact H1
  have h : t.val / 32 = 3 := by omega
  rw [outAt_D m c t h]
  iintro ⟨HΦ, Ho, ⟨%d0, H0⟩, ⟨%d1, H1⟩⟩
  iapply (kernelRun_D c (grid0.coords t) _ _ _ _ (fun h' => by have := (hcond1 t).mp h'; omega) (fun h' => by have := (hcond2 t).mp h'; omega) (fun h' => by have := (hcond3 t).mp h'; omega) ((hcond4 t).mpr h) (iblk m c 0 t) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the program's frame claim at any `F` — the argument array is left as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Hand

end
-- ==== Proof.BodyKI.lean ====
/- The frame of program KernelIdeal's one kernel: the body's four branches test the first grid coordinate
   against 0, 1, 2, 3, so at every grid point exactly one of them runs, and that one overwrites the whole output
   block with one payload of the input block. This module states what the output's staging buffer holds after
   the body at each point (`outAt`), the proof data of the pipeline, the body obligation, the run and the frame. -/
import proofs.«116518_j79972291051870_2_alg».proof.Proof.Gen.KernelIdeal.Frame
import proofs.«116518_j79972291051870_2_alg».proof.Proof.Gen.KernelIdeal.Skeleton
import proofs.«116518_j79972291051870_2_alg».proof.Proof.Gen.KernelIdeal.Launch
import proofs.«116518_j79972291051870_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the grid -/

/-- Branch 1 runs exactly at the points of the first row of the grid (first coordinate 0): decided point by point. -/
theorem hcond1 : ∀ t : Fin cfg0.N, k0_cond1 (grid0.coords t) = 1#1 ↔ t.val / 32 = 0 :=
  (by decide +kernel : ∀ t : Fin grid0.N, k0_cond1 (grid0.coords t) = 1#1 ↔ t.val / 32 = 0)
/-- Branch 2 runs exactly at the points of the second row. -/
theorem hcond2 : ∀ t : Fin cfg0.N, k0_cond2 (grid0.coords t) = 1#1 ↔ t.val / 32 = 1 :=
  (by decide +kernel : ∀ t : Fin grid0.N, k0_cond2 (grid0.coords t) = 1#1 ↔ t.val / 32 = 1)
/-- Branch 3 runs exactly at the points of the third row. -/
theorem hcond3 : ∀ t : Fin cfg0.N, k0_cond3 (grid0.coords t) = 1#1 ↔ t.val / 32 = 2 :=
  (by decide +kernel : ∀ t : Fin grid0.N, k0_cond3 (grid0.coords t) = 1#1 ↔ t.val / 32 = 2)
/-- Branch 4 runs exactly at the points of the fourth row. -/
theorem hcond4 : ∀ t : Fin cfg0.N, k0_cond4 (grid0.coords t) = 1#1 ↔ t.val / 32 = 3 :=
  (by decide +kernel : ∀ t : Fin grid0.N, k0_cond4 (grid0.coords t) = 1#1 ↔ t.val / 32 = 3)

/-- Neither window is idle at any point: the input never is, and at every point one of the four branches stores
    the output block. -/
theorem live0 : ∀ t : Fin cfg0.N, cfg0.idle 0 (grid0.coords t) = false :=
  (by decide +kernel : ∀ t : Fin grid0.N, idle0 0 (grid0.coords t) = false)
theorem live1 : ∀ t : Fin cfg0.N, cfg0.idle 1 (grid0.coords t) = false :=
  (by decide +kernel : ∀ t : Fin grid0.N, idle0 1 (grid0.coords t) = false)

/-! ## The kernel body on any staging memrefs, branch by branch -/

/-- The zero offsets of the whole-block rectangle, as a constant function. -/
theorem hz : (![0, 0, 0, 0] : Fin 4 → Nat) = fun _ => 0 := funext fun a => by fin_cases a <;> rfl

set_option maxHeartbeats 1000000 in
/-- THE BODY WHEN BRANCH 1 RUNS (first grid coordinate 0): the three other branches are skipped. On whole staging memrefs, the input's holding `x0` and the output's holding anything, the body runs
    to a continuation that gets the input's back unchanged and the output's holding `k0_pay2 x0`: the branch's one
    store goes through the whole-block rectangle at zero offsets, so whatever the buffer held before (the value the
    branch loads from it is not used) it reads back as the stored payload, and the payload's argument — the load of
    the input's whole block — is `x0`. -/
theorem kernelRun_A (c : Dev nD) (i : grid0.Coords) (arg2 : Memref sig .tc .vmem S1x16x224x224 .f32) (harg2 : arg2.IsWhole) (arg3 : Memref sig .tc .vmem S1x16x224x224 .f32) (harg3 : arg3.IsWhole)
    (hc1 : k0_cond1 i = 1#1) (hc2 : ¬k0_cond2 i = 1#1) (hc3 : ¬k0_cond3 i = 1#1) (hc4 : ¬k0_cond4 i = 1#1)
    (x0 : Vec F S1x16x224x224 .f32) (E : Set ℕ) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (k0_pay2 x0)) -∗ K ⟨⟩))
      ⊢ wp frame (wpE (defs₀ (F := F)) Variants.none c none) E (cc0__block_relu_kernel i arg2 harg2 arg3 harg3) K := by
  simp only [cc0__block_relu_kernel_eq_skeleton]; unfold cc0__block_relu_kernel_skel
  unfold owns
  iintro ⟨⟨%f0, %hf0, H0⟩, ⟨%d1, %f1, -, H1⟩, Hk⟩
  obtain rfl := harg2.eq_unread hf0
  sl_exec (disch := first | exact hc1 | exact hc2 | exact hc3 | exact hc4)
  sl_step
  iapply Hk
  isplitl [H0]
  · iexists _; isplitr; · ipureintro; exact harg2.read_unread _
    iexact H0
  iexists _; isplitr
  swap; · iexact H1
  ipureintro
  rw [View.read_writes_eq_canon _ _ _ (fun y => ⟨_, List.mem_singleton_self _, View.mem_set_unit_zero hz inb_S1x16x224x224_S1x16x224x224_0_0_0_0 y⟩),
    View.canon_unit_zero hz, View.readAt_eq_ld, harg2.read_unread, View.ld_unit_zero hz]

set_option maxHeartbeats 1000000 in
/-- THE BODY WHEN BRANCH 2 RUNS (first grid coordinate 1): the three other branches are skipped. On whole staging memrefs, the input's holding `x0` and the output's holding anything, the body runs
    to a continuation that gets the input's back unchanged and the output's holding `k0_pay3 x0`: the branch's one
    store goes through the whole-block rectangle at zero offsets, so whatever the buffer held before (the value the
    branch loads from it is not used) it reads back as the stored payload, and the payload's argument — the load of
    the input's whole block — is `x0`. -/
theorem kernelRun_B (c : Dev nD) (i : grid0.Coords) (arg2 : Memref sig .tc .vmem S1x16x224x224 .f32) (harg2 : arg2.IsWhole) (arg3 : Memref sig .tc .vmem S1x16x224x224 .f32) (harg3 : arg3.IsWhole)
    (hc1 : ¬k0_cond1 i = 1#1) (hc2 : k0_cond2 i = 1#1) (hc3 : ¬k0_cond3 i = 1#1) (hc4 : ¬k0_cond4 i = 1#1)
    (x0 : Vec F S1x16x224x224 .f32) (E : Set ℕ) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (k0_pay3 x0)) -∗ K ⟨⟩))
      ⊢ wp frame (wpE (defs₀ (F := F)) Variants.none c none) E (cc0__block_relu_kernel i arg2 harg2 arg3 harg3) K := by
  simp only [cc0__block_relu_kernel_eq_skeleton]; unfold cc0__block_relu_kernel_skel
  unfold owns
  iintro ⟨⟨%f0, %hf0, H0⟩, ⟨%d1, %f1, -, H1⟩, Hk⟩
  obtain rfl := harg2.eq_unread hf0
  sl_exec (disch := first | exact hc1 | exact hc2 | exact hc3 | exact hc4)
  sl_step
  iapply Hk
  isplitl [H0]
  · iexists _; isplitr; · ipureintro; exact harg2.read_unread _
    iexact H0
  iexists _; isplitr
  swap; · iexact H1
  ipureintro
  rw [View.read_writes_eq_canon _ _ _ (fun y => ⟨_, List.mem_singleton_self _, View.mem_set_unit_zero hz inb_S1x16x224x224_S1x16x224x224_0_0_0_0 y⟩),
    View.canon_unit_zero hz, View.readAt_eq_ld, harg2.read_unread, View.ld_unit_zero hz]

set_option maxHeartbeats 1000000 in
/-- THE BODY WHEN BRANCH 3 RUNS (first grid coordinate 2): the three other branches are skipped. On whole staging memrefs, the input's holding `x0` and the output's holding anything, the body runs
    to a continuation that gets the input's back unchanged and the output's holding `k0_pay4 x0`: the branch's one
    store goes through the whole-block rectangle at zero offsets, so whatever the buffer held before (the value the
    branch loads from it is not used) it reads back as the stored payload, and the payload's argument — the load of
    the input's whole block — is `x0`. -/
theorem kernelRun_C (c : Dev nD) (i : grid0.Coords) (arg2 : Memref sig .tc .vmem S1x16x224x224 .f32) (harg2 : arg2.IsWhole) (arg3 : Memref sig .tc .vmem S1x16x224x224 .f32) (harg3 : arg3.IsWhole)
    (hc1 : ¬k0_cond1 i = 1#1) (hc2 : ¬k0_cond2 i = 1#1) (hc3 : k0_cond3 i = 1#1) (hc4 : ¬k0_cond4 i = 1#1)
    (x0 : Vec F S1x16x224x224 .f32) (E : Set ℕ) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (k0_pay4 x0)) -∗ K ⟨⟩))
      ⊢ wp frame (wpE (defs₀ (F := F)) Variants.none c none) E (cc0__block_relu_kernel i arg2 harg2 arg3 harg3) K := by
  simp only [cc0__block_relu_kernel_eq_skeleton]; unfold cc0__block_relu_kernel_skel
  unfold owns
  iintro ⟨⟨%f0, %hf0, H0⟩, ⟨%d1, %f1, -, H1⟩, Hk⟩
  obtain rfl := harg2.eq_unread hf0
  sl_exec (disch := first | exact hc1 | exact hc2 | exact hc3 | exact hc4)
  sl_step
  iapply Hk
  isplitl [H0]
  · iexists _; isplitr; · ipureintro; exact harg2.read_unread _
    iexact H0
  iexists _; isplitr
  swap; · iexact H1
  ipureintro
  rw [View.read_writes_eq_canon _ _ _ (fun y => ⟨_, List.mem_singleton_self _, View.mem_set_unit_zero hz inb_S1x16x224x224_S1x16x224x224_0_0_0_0 y⟩),
    View.canon_unit_zero hz, View.readAt_eq_ld, harg2.read_unread, View.ld_unit_zero hz]

set_option maxHeartbeats 1000000 in
/-- THE BODY WHEN BRANCH 4 RUNS (first grid coordinate 3): the three other branches are skipped. On whole staging memrefs, the input's holding `x0` and the output's holding anything, the body runs
    to a continuation that gets the input's back unchanged and the output's holding `k0_pay5 x0`: the branch's one
    store goes through the whole-block rectangle at zero offsets, so whatever the buffer held before (the value the
    branch loads from it is not used) it reads back as the stored payload, and the payload's argument — the load of
    the input's whole block — is `x0`. -/
theorem kernelRun_D (c : Dev nD) (i : grid0.Coords) (arg2 : Memref sig .tc .vmem S1x16x224x224 .f32) (harg2 : arg2.IsWhole) (arg3 : Memref sig .tc .vmem S1x16x224x224 .f32) (harg3 : arg3.IsWhole)
    (hc1 : ¬k0_cond1 i = 1#1) (hc2 : ¬k0_cond2 i = 1#1) (hc3 : ¬k0_cond3 i = 1#1) (hc4 : k0_cond4 i = 1#1)
    (x0 : Vec F S1x16x224x224 .f32) (E : Set ℕ) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (k0_pay5 x0)) -∗ K ⟨⟩))
      ⊢ wp frame (wpE (defs₀ (F := F)) Variants.none c none) E (cc0__block_relu_kernel i arg2 harg2 arg3 harg3) K := by
  simp only [cc0__block_relu_kernel_eq_skeleton]; unfold cc0__block_relu_kernel_skel
  unfold owns
  iintro ⟨⟨%f0, %hf0, H0⟩, ⟨%d1, %f1, -, H1⟩, Hk⟩
  obtain rfl := harg2.eq_unread hf0
  sl_exec (disch := first | exact hc1 | exact hc2 | exact hc3 | exact hc4)
  sl_step
  iapply Hk
  isplitl [H0]
  · iexists _; isplitr; · ipureintro; exact harg2.read_unread _
    iexact H0
  iexists _; isplitr
  swap; · iexact H1
  ipureintro
  rw [View.read_writes_eq_canon _ _ _ (fun y => ⟨_, List.mem_singleton_self _, View.mem_set_unit_zero hz inb_S1x16x224x224_S1x16x224x224_0_0_0_0 y⟩),
    View.canon_unit_zero hz, View.readAt_eq_ld, harg2.read_unread, View.ld_unit_zero hz]

/-! ## What the output's staging buffer holds after the body at each point -/

/-- After the body at point `t` the output's staging buffer holds the payload of the one branch that runs there —
    the row of the grid (`t / 32`) selects it — of the input's block at `t`. -/
def outAt (c : Dev nD) (t : Fin cfg0.N) : Vec F S1x16x224x224 .f32 :=
  if t.val / 32 = 0 then k0_pay2 (iblk m c 0 t)
  else if t.val / 32 = 1 then k0_pay3 (iblk m c 0 t)
  else if t.val / 32 = 2 then k0_pay4 (iblk m c 0 t)
  else k0_pay5 (iblk m c 0 t)

theorem outAt_eq (c : Dev nD) (t : Fin cfg0.N) :
    outAt m c t = if t.val / 32 = 0 then Gen.k0_pay2 (Gen.iblk m c 0 t) else if t.val / 32 = 1 then Gen.k0_pay3 (Gen.iblk m c 0 t)
      else if t.val / 32 = 2 then Gen.k0_pay4 (Gen.iblk m c 0 t) else Gen.k0_pay5 (Gen.iblk m c 0 t) := rfl

/-- `outAt` row by row. -/
theorem outAt_A (c : Dev nD) (t : Fin cfg0.N) (h : t.val / 32 = 0) : outAt m c t = k0_pay2 (iblk m c 0 t) := by
  unfold outAt; rw [if_pos h]
theorem outAt_B (c : Dev nD) (t : Fin cfg0.N) (h : t.val / 32 = 1) : outAt m c t = k0_pay3 (iblk m c 0 t) := by
  unfold outAt; rw [if_neg (by omega), if_pos h]
theorem outAt_C (c : Dev nD) (t : Fin cfg0.N) (h : t.val / 32 = 2) : outAt m c t = k0_pay4 (iblk m c 0 t) := by
  unfold outAt; rw [if_neg (by omega), if_neg (by omega), if_pos h]
theorem outAt_D (c : Dev nD) (t : Fin cfg0.N) (h : t.val / 32 = 3) : outAt m c t = k0_pay5 (iblk m c 0 t) := by
  unfold outAt; rw [if_neg (by omega), if_neg (by omega), if_neg (by omega)]

/-! ## The pipeline's proof data -/

/-- The proof data of the one pipeline on core `c`: the arrays as the region finds them; after the body at point
    `t` the input's buffer still at its block and the output's at `outAt`; the invariant the scoped rest and the
    generator register, which the body neither reads nor writes; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outAt m c t
  Φ _ := Pipeline.ΦA spec0 c
  q _ := fullShare
  owed _ := 0

/-- The proof data's arrays are the region-entry contents (the definition projected, nothing unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = outAt m c t := by dsimp only [dats]

/-- The input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- Each window's current staging memref at point `t`, spelt as the pipeline passes it to the body, and its wholeness. -/
abbrev ms0 (t : Fin cfg0.N) : Memref sig .tc .vmem S1x16x224x224 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x16x224x224 .f32 := win0_1.stage (cfg0.slots t 1)
abbrev hs1 (t : Fin cfg0.N) : (ms1 t).IsWhole := hstage0_1 ((cfg0.slots t 1).cast nbuf0_1)

/-- What the body is called with at point `t` (the library's body obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))

/-- and what it returns: each window's buffer as the obligation states it where the configuration may call a
    window idle (here it never is: `live0`, `live1`). -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 800000 in
/-- The body at any point: the input's memref holds its block; the row of the grid says which branch runs, and that
    branch's run applies — it needs nothing of what the output's buffer held; the invariant passes through unread;
    the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [live0 t], after0_0]
  rw [show (dats m 0 c).leavesExact 1 t = owns (c : Thread nD τ) (ms1 t) fullShare ((dats m 0 c).after 1 t) from by
    unfold Dat.leavesExact; rw [live1 t], after0_1]
  have hN : t.val < 128 := lt_of_lt_of_eq t.isLt (show cfg0.N = 128 from N_0)
  by_cases h : t.val / 32 = 0
  ·
    rw [outAt_A m c t h]
    iintro ⟨HΦ, Ho, ⟨%d0, H0⟩, ⟨%d1, H1⟩⟩
    iapply (kernelRun_A c (grid0.coords t) _ _ _ _ ((hcond1 t).mpr h) (fun h' => by have := (hcond2 t).mp h'; omega) (fun h' => by have := (hcond3 t).mp h'; omega) (fun h' => by have := (hcond4 t).mp h'; omega) (iblk m c 0 t) Set.univ _)
    isplitl [H0]; · iexact H0
    isplitl [H1]; · iexists _; iexact H1
    iintro ⟨H0, H1⟩
    isplitl [HΦ]; · iexact HΦ
    isplitl [Ho]; · iexact Ho
    isplitl [H0]; · iexact H0
    iexact H1
  by_cases h : t.val / 32 = 1
  ·
    rw [outAt_B m c t h]
    iintro ⟨HΦ, Ho, ⟨%d0, H0⟩, ⟨%d1, H1⟩⟩
    iapply (kernelRun_B c (grid0.coords t) _ _ _ _ (fun h' => by have := (hcond1 t).mp h'; omega) ((hcond2 t).mpr h) (fun h' => by have := (hcond3 t).mp h'; omega) (fun h' => by have := (hcond4 t).mp h'; omega) (iblk m c 0 t) Set.univ _)
    isplitl [H0]; · iexact H0
    isplitl [H1]; · iexists _; iexact H1
    iintro ⟨H0, H1⟩
    isplitl [HΦ]; · iexact HΦ
    isplitl [Ho]; · iexact Ho
    isplitl [H0]; · iexact H0
    iexact H1
  by_cases h : t.val / 32 = 2
  ·
    rw [outAt_C m c t h]
    iintro ⟨HΦ, Ho, ⟨%d0, H0⟩, ⟨%d1, H1⟩⟩
    iapply (kernelRun_C c (grid0.coords t) _ _ _ _ (fun h' => by have := (hcond1 t).mp h'; omega) (fun h' => by have := (hcond2 t).mp h'; omega) ((hcond3 t).mpr h) (fun h' => by have := (hcond4 t).mp h'; omega) (iblk m c 0 t) Set.univ _)
    isplitl [H0]; · iexact H0
    isplitl [H1]; · iexists _; iexact H1
    iintro ⟨H0, H1⟩
    isplitl [HΦ]; · iexact HΦ
    isplitl [Ho]; · iexact Ho
    isplitl [H0]; · iexact H0
    iexact H1
  have h : t.val / 32 = 3 := by omega
  rw [outAt_D m c t h]
  iintro ⟨HΦ, Ho, ⟨%d0, H0⟩, ⟨%d1, H1⟩⟩
  iapply (kernelRun_D c (grid0.coords t) _ _ _ _ (fun h' => by have := (hcond1 t).mp h'; omega) (fun h' => by have := (hcond2 t).mp h'; omega) (fun h' => by have := (hcond3 t).mp h'; omega) ((hcond4 t).mpr h) (iblk m c 0 t) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the program's frame claim at any `F` — the argument array is left as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Hand

end
-- ==== Proof.Spec.lean ====
/-
  The function both programs compute, on finite inputs, as real arithmetic.

  The input is an array x of shape 32 × 64 × 224 × 224 (batch, channel, row, column).  The 64 channels fall into four
  groups of 16 by c / 16, with block sizes 1, 2, 4, 7.  For a channel with block size k the image is cut into k × k
  blocks; every element is multiplied by the GATE of the mean of the block it lies in, where the gate of a real v is
  (sgn v + 1) / 2, that is 1 where the block mean is positive, 1/2 where it is zero and 0 where it is negative.  With
  k = 1 the block is the element itself.

  Besides the specification this file holds the small arithmetic both sides need: the few f32 words the programs
  carry as real numbers, the passage of sums, quotients and signs of reals into the extended reals, and the one law
  that joins the two arrangements of the block mean — a mean over the columns of the means over the rows is the mean
  over the block — which is plain field arithmetic once everything is real.
-/
import Idealize.ShloMosaic.PureOps.Ideal
import Idealize.ShloMosaic.PureOps.Ideal.Laws
import Idealize.ShloMosaic.Lib.ValueIdx

noncomputable section

open scoped BigOperators

namespace Cert.BlockGate

open Idealize.ShloMosaic Idealize.ShloMosaic.ValueIdx

/-- The shape of the input and of the result. -/
abbrev X : Shape := ⟨4, ![32, 64, 224, 224]⟩

/-- Position `a` of the length-`k` block of a 224-long axis that contains position `h`.  (For k dividing 224 the
    reduction modulo 224 does nothing; it only makes the definition total.) -/
def cell (k : ℕ) (h : Fin 224) (a : Fin k) : Fin 224 := ⟨((h.val / k) * k + a.val) % 224, Nat.mod_lt _ (by norm_num)⟩

/-- The mean of the k × k block containing (h, w), in batch b and channel c. -/
def blockMean (k : ℕ) (xr : X.Idx → ℝ) (b : Fin 32) (c : Fin 64) (h w : Fin 224) : ℝ :=
  (∑ a : Fin k, ∑ d : Fin k, xr (ix4 b c (cell k h a) (cell k w d))) / ((k : ℝ) * (k : ℝ))

/-- The gate of a real: (sgn v + 1) / 2. -/
def gateR (v : ℝ) : ℝ := ((SignType.sign v : ℝ) + 1) * (1 / 2)

/-- The block size of a channel. -/
def blockOf (c : Fin 64) : ℕ := if c.val < 16 then 1 else if c.val < 32 then 2 else if c.val < 48 then 4 else 7

/-- THE SPECIFICATION, by coordinates: the element times the gate of its block's mean. -/
def GRc (xr : X.Idx → ℝ) (b : Fin 32) (c : Fin 64) (h w : Fin 224) : ℝ :=
  gateR (blockMean (blockOf c) xr b c h w) * xr (ix4 b c h w)

/-- The specification as an array of extended reals. -/
def G (xr : X.Idx → ℝ) : X.Idx → EReal := fun i => ((GRc xr (i 0) (i 1) (i 2) (i 3) : ℝ) : EReal)

theorem G_ix4 (xr : X.Idx → ℝ) (b : Fin 32) (c : Fin 64) (h w : Fin 224) : G xr (ix4 b c h w) = ((GRc xr b c h w : ℝ) : EReal) := rfl

/-! ## Blocks of size one -/

theorem cell_one (h : Fin 224) (a : Fin 1) : cell 1 h a = h := by
  apply Fin.ext
  have ha : a.val = 0 := by omega
  show ((h.val / 1) * 1 + a.val) % 224 = h.val
  have := h.isLt
  rw [ha, Nat.div_one, Nat.mul_one, Nat.add_zero, Nat.mod_eq_of_lt this]

/-- With block size one the block mean is the element. -/
theorem blockMean_one (xr : X.Idx → ℝ) (b : Fin 32) (c : Fin 64) (h w : Fin 224) : blockMean 1 xr b c h w = xr (ix4 b c h w) := by
  unfold blockMean
  simp only [Fin.sum_univ_one, cell_one, Nat.cast_one, mul_one, div_one]

/-! ## Positions inside a block, for the three proper block sizes -/

theorem cell_val {k : ℕ} (hk : k ∣ 224) (hk0 : 0 < k) (h : Fin 224) (a : Fin k) : (cell k h a).val = (h.val / k) * k + a.val := by
  show ((h.val / k) * k + a.val) % 224 = _
  apply Nat.mod_eq_of_lt
  obtain ⟨q, hq⟩ := hk
  have hh := h.isLt
  have ha := a.isLt
  have h1 : h.val / k < q := by
    apply Nat.div_lt_of_lt_mul
    rw [← hq]; exact hh
  calc h.val / k * k + a.val < h.val / k * k + k := by omega
    _ = (h.val / k + 1) * k := by ring
    _ ≤ q * k := Nat.mul_le_mul_right k h1
    _ = 224 := by rw [hq, Nat.mul_comm]

/-! ## The words the programs carry -/

theorem word_zero : Ideal.ofBits .f32 0x00000000#32 = ((0 : ℝ) : EReal) := by simp [Ideal.ofBits, Ideal.ieee]
theorem word_one : Ideal.ofBits .f32 0x3F800000#32 = ((1 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_four : Ideal.ofBits .f32 0x40800000#32 = ((4 : ℝ) : EReal) := by
  simp [Ideal.ofBits, Ideal.ieee, -EReal.coe_mul]; norm_num
theorem word_seven : Ideal.ofBits .f32 0x40E00000#32 = ((7 : ℝ) : EReal) := by
  simp [Ideal.ofBits, Ideal.ieee, -EReal.coe_mul]; norm_num
theorem word_sixteen : Ideal.ofBits .f32 0x41800000#32 = ((16 : ℝ) : EReal) := by
  simp [Ideal.ofBits, Ideal.ieee, -EReal.coe_mul]; norm_num
theorem word_fortynine : Ideal.ofBits .f32 0x42440000#32 = ((49 : ℝ) : EReal) := by
  simp [Ideal.ofBits, Ideal.ieee, -EReal.coe_mul]; norm_num

/-! ## Real arithmetic inside the extended reals -/

/-- A finite sum of reals, as an extended real, is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor not zero, computed in the extended reals. -/
theorem div_real (s k : ℝ) (hk : k ≠ 0) : Ideal.div (s : EReal) (k : EReal) = ((s / k : ℝ) : EReal) := by
  rw [Ideal.div_coe hk, ← EReal.coe_mul, ← div_eq_mul_one_div]

/-- The sign of a real, computed in the extended reals. -/
theorem sign_real (v : ℝ) : Ideal.sign (v : EReal) = ((SignType.sign v : ℝ) : EReal) := rfl

/-- The gate of a real, computed in the extended reals with the programs' words for 1 and 1/2. -/
theorem gate_real (v : ℝ) :
    (Ideal.sign (v : EReal) + Ideal.ofBits .f32 0x3F800000#32) * Ideal.ofBits .f32 0x3F000000#32 = ((gateR v : ℝ) : EReal) := by
  rw [sign_real, word_one, word_half, ← EReal.coe_add, ← EReal.coe_mul]; rfl

/-! ## The law: a mean of means is the mean over the block -/

/-- Summing, over the columns of a block, the row-sums divided by k, and dividing by k again, is the sum over the
    block divided by k · k. -/
theorem mean_of_means {k : ℕ} (f : Fin k → Fin k → ℝ) :
    (∑ d : Fin k, (∑ a : Fin k, f a d) / (k : ℝ)) / (k : ℝ) = (∑ a : Fin k, ∑ d : Fin k, f a d) / ((k : ℝ) * (k : ℝ)) := by
  rw [← Finset.sum_div, div_div, Finset.sum_comm]

end Cert.BlockGate

end
-- ==== Proof.KernelPay1.lean ====
/-
  The body's stored value for the channel group with block size 1, read at one element, at the ideal instance:
  every element is multiplied by the gate (sign + 1) / 2 of itself.
-/
import proofs.«116518_j79972291051870_2_alg».proof.Proof.Gen.KernelIdeal.Skeleton
import proofs.«116518_j79972291051870_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay1

open Cert.KernelIdeal Cert.KernelIdeal.Gen Idealize.ShloMosaic Idealize.ShloMosaic.ValueIdx Cert.BlockGate

/-- The gate (sign v + 1) · 1/2 of every element, the sign spelt as the kernel computes it. -/
def gateV (v : FVec Ideal S16x224x224 .f32) : FVec Ideal S16x224x224 .f32 :=
  mulf (addf (select (cmpf .ogt (absf v) (broadcast S16x224x224 (Scalar.ofBits .f32 0x00000000#32)))
        (select (cmpf .olt v (constant S16x224x224 .f32 0x00000000#32)) (constant S16x224x224 .f32 0xBF800000#32) (constant S16x224x224 .f32 0x3F800000#32)) v)
      (broadcast S16x224x224 (Scalar.ofBits .f32 0x3F800000#32)))
    (broadcast S16x224x224 (Scalar.ofBits .f32 0x3F000000#32))

/-- The stored value is the block times its own gate. -/
theorem pay_eq (v0 : Vec Ideal S1x16x224x224 .f32) :
    k0_pay2 (F := Ideal) v0 = shapeCast S1x16x224x224 (mulf (gateV (k0_pay1 v0)) (k0_pay1 v0)) shapeCasts_S16x224x224_S1x16x224x224 := rfl

/-- The block without its leading unit axis. -/
theorem pay1_apply (v0 : Vec Ideal S1x16x224x224 .f32) (c : Fin 16) (h w : Fin 224) :
    k0_pay1 (F := Ideal) v0 (ix3 c h w) = v0 (ix4 (0 : Fin 1) c h w) :=
  shapeCast_1abc_abc_apply v0 shapeCasts_S1x16x224x224_S16x224x224 c h w

/-- The gate at an element: the kernel's spelling of the sign is the sign. -/
theorem gateV_apply (v : FVec Ideal S16x224x224 .f32) (i : S16x224x224.Idx) :
    gateV v i = (Ideal.sign (v i) + Ideal.ofBits .f32 0x3F800000#32) * Ideal.ofBits .f32 0x3F000000#32 := by
  unfold gateV
  show (Scalar.select (FloatOps.cmpf .ogt (FloatOps.absf (v i)) (Scalar.ofBits .f32 0x00000000#32))
        (Scalar.select (FloatOps.cmpf .olt (v i) (Scalar.ofBits .f32 0x00000000#32)) (Scalar.ofBits .f32 0xBF800000#32)
          (Scalar.ofBits .f32 0x3F800000#32)) (v i) + Ideal.ofBits .f32 0x3F800000#32) * Ideal.ofBits .f32 0x3F000000#32 = _
  rw [Ideal.jnp_sign_eq_sign_f32]

/-- THE STORED VALUE AT AN ELEMENT, for a block of reals: the element times its own gate. -/
theorem pay_apply (xb : S1x16x224x224.Idx → ℝ) (u : Fin 1) (c : Fin 16) (h w : Fin 224) :
    k0_pay2 (F := Ideal) (fun y => ((xb y : ℝ) : EReal)) (ix4 u c h w)
      = ((gateR (xb (ix4 (0 : Fin 1) c h w)) * xb (ix4 (0 : Fin 1) c h w) : ℝ) : EReal) := by
  rw [pay_eq]
  refine (shapeCast_abc_1abc_apply _ shapeCasts_S16x224x224_S1x16x224x224 u c h w).trans ?_
  rw [mulf_apply, gateV_apply, pay1_apply, gate_real, ← EReal.coe_mul]

end Cert.KernelIdeal.Pay1

end
-- ==== Proof.KernelPay2.lean ====
/-
  The body's stored value for the channel group with block size 2, read at one element, at the ideal instance.

  The body sees its 16 × 224 × 224 block p.  It forms the means of the 2 rows of every group of 2 consecutive rows
  (a reshape that splits the row axis into (group, row-in-group), a sum over the row-in-group axis, a division by 2),
  transposes so that columns come before row groups, does the same along the column axis, and so holds, at
  (channel, column group, row group), the mean of the 2 × 2 block: the mean over its columns of the means over its
  rows.  The gate (sign + 1) / 2 of that mean is then spread back over the block — a broadcast into a new axis of
  length 2 and a reshape that merges it into the column axis, a transpose back, and the same along the row axis — and
  multiplied with the block p element by element.
-/
import proofs.«116518_j79972291051870_2_alg».proof.Proof.Gen.KernelIdeal.Skeleton
import proofs.«116518_j79972291051870_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay2

open Cert.KernelIdeal Cert.KernelIdeal.Gen Idealize.ShloMosaic Idealize.ShloMosaic.ValueIdx Cert.BlockGate

/-- The means over the 2 rows of each row group: at (channel, row group, column). -/
def rowMean (p : FVec Ideal S16x224x224 .f32) : FVec Ideal S16x112x224 .f32 :=
  divf (multiReduction .add [2] S16x112x224 (shapeCast S16x112x2x224 p shapeCasts_S16x224x224_S16x112x2x224) 0x00000000#32
      reduces_S16x112x2x224_S16x112x224 (.inl rfl) rfl)
    (broadcast S16x112x224 (Scalar.ofBits .f32 0x40000000#32))

/-- The means over the 2 columns of each column group of the row means: at (channel, column group, row group). -/
def colMean (r : FVec Ideal S16x112x224 .f32) : FVec Ideal S16x112x112 .f32 :=
  divf (multiReduction .add [2] S16x112x112
      (shapeCast S16x112x2x112 (transpose S16x224x112 [0, 2, 1] r transposes_S16x112x224_p0_2_1_S16x224x112) shapeCasts_S16x224x112_S16x112x2x112)
      0x00000000#32 reduces_S16x112x2x112_S16x112x112 (.inl rfl) rfl)
    (broadcast S16x112x112 (Scalar.ofBits .f32 0x40000000#32))

/-- The gate (sign v + 1) · 1/2 of every element, the sign spelt as the kernel computes it. -/
def gateV (v : FVec Ideal S16x112x112 .f32) : FVec Ideal S16x112x112 .f32 :=
  mulf (addf (select (cmpf .ogt (absf v) (broadcast S16x112x112 (Scalar.ofBits .f32 0x00000000#32)))
        (select (cmpf .olt v (constant S16x112x112 .f32 0x00000000#32)) (constant S16x112x112 .f32 0xBF800000#32) (constant S16x112x112 .f32 0x3F800000#32)) v)
      (broadcast S16x112x112 (Scalar.ofBits .f32 0x3F800000#32)))
    (broadcast S16x112x112 (Scalar.ofBits .f32 0x3F000000#32))

/-- A (channel, column group, row group) map spread back over the 224 × 224 image: at (channel, row, column). -/
def spread (g : FVec Ideal S16x112x112 .f32) : FVec Ideal S16x224x224 .f32 :=
  shapeCast S16x224x224
    (broadcastTo S16x112x2x224
      (shapeCast S16x112x1x224
        (shapeCast S16x112x1x224
          (transpose S16x112x224 [0, 2, 1]
            (shapeCast S16x224x112
              (broadcastTo S16x112x2x112
                (shapeCast S16x112x1x112 (shapeCast S16x112x1x112 g shapeCasts_S16x112x112_S16x112x1x112) shapeCasts_S16x112x1x112_S16x112x1x112)
                broadcasts_S16x112x1x112_S16x112x2x112)
              shapeCasts_S16x112x2x112_S16x224x112)
            transposes_S16x224x112_p0_2_1_S16x112x224)
          shapeCasts_S16x112x224_S16x112x1x224)
        shapeCasts_S16x112x1x224_S16x112x1x224)
      broadcasts_S16x112x1x224_S16x112x2x224)
    shapeCasts_S16x112x2x224_S16x224x224

/-- The stored value is the block times the spread gate of the block means. -/
theorem pay_eq (v0 : Vec Ideal S1x16x224x224 .f32) :
    k0_pay3 (F := Ideal) v0
      = shapeCast S1x16x224x224 (mulf (spread (gateV (colMean (rowMean (k0_pay1 v0))))) (k0_pay1 v0)) shapeCasts_S16x224x224_S1x16x224x224 := rfl

/-- The block without its leading unit axis. -/
theorem pay1_apply (v0 : Vec Ideal S1x16x224x224 .f32) (c : Fin 16) (h w : Fin 224) :
    k0_pay1 (F := Ideal) v0 (ix3 c h w) = v0 (ix4 (0 : Fin 1) c h w) :=
  shapeCast_1abc_abc_apply v0 shapeCasts_S1x16x224x224_S16x224x224 c h w

/-- A row mean at (channel, row group, column): the sum over the group's 2 rows, divided by 2. -/
theorem rowMean_apply (p : FVec Ideal S16x224x224 .f32) (c : Fin 16) (hp : Fin 112) (w : Fin 224) :
    rowMean p (ix3 c hp w)
      = Ideal.div (∑ a : Fin 2, p (ix3 c (⟨hp.val * 2 + a.val, by omega⟩ : Fin 224) w)) (Ideal.ofBits .f32 0x40000000#32) := by
  unfold rowMean
  refine congrArg (fun s => Ideal.div s (Ideal.ofBits .f32 0x40000000#32)) ?_
  refine (Ideal.multiReduction_add_single _ _ _ _ _ _).trans ?_
  refine Finset.sum_congr rfl fun a _ => ?_
  refine shapeCast_apply p _ _ _ ?_
  rw [Shape.rowMajor_val_three, Shape.rowMajor_val_four]
  show (c.val * 224 + (hp.val * 2 + a.val)) * 224 + w.val = ((c.val * 112 + hp.val) * 2 + a.val) * 224 + w.val
  omega

/-- A block mean at (channel, column group, row group): the sum over the group's 2 columns of the row means, divided by 2. -/
theorem colMean_apply (r : FVec Ideal S16x112x224 .f32) (c : Fin 16) (wq : Fin 112) (hp : Fin 112) :
    colMean r (ix3 c wq hp)
      = Ideal.div (∑ d : Fin 2, r (ix3 c hp (⟨wq.val * 2 + d.val, by omega⟩ : Fin 224))) (Ideal.ofBits .f32 0x40000000#32) := by
  unfold colMean
  refine congrArg (fun s => Ideal.div s (Ideal.ofBits .f32 0x40000000#32)) ?_
  refine (Ideal.multiReduction_add_single _ _ _ _ _ _).trans ?_
  refine Finset.sum_congr rfl fun (d : Fin 2) _ => ?_
  refine (shapeCast_apply _ _ _ (ix3 c (⟨wq.val * 2 + d.val, by omega⟩ : Fin 224) hp) ?_).trans ?_
  · rw [Shape.rowMajor_val_three, Shape.rowMajor_val_four]
    show (c.val * 224 + (wq.val * 2 + d.val)) * 112 + hp.val = ((c.val * 112 + wq.val) * 2 + d.val) * 112 + hp.val
    omega
  · exact transpose_ix3_021_apply r transposes_S16x112x224_p0_2_1_S16x224x112 c _ hp

/-- The gate at an element: the kernel's spelling of the sign is the sign. -/
theorem gateV_apply (v : FVec Ideal S16x112x112 .f32) (i : S16x112x112.Idx) :
    gateV v i = (Ideal.sign (v i) + Ideal.ofBits .f32 0x3F800000#32) * Ideal.ofBits .f32 0x3F000000#32 := by
  unfold gateV
  show (Scalar.select (FloatOps.cmpf .ogt (FloatOps.absf (v i)) (Scalar.ofBits .f32 0x00000000#32))
        (Scalar.select (FloatOps.cmpf .olt (v i) (Scalar.ofBits .f32 0x00000000#32)) (Scalar.ofBits .f32 0xBF800000#32)
          (Scalar.ofBits .f32 0x3F800000#32)) (v i) + Ideal.ofBits .f32 0x3F800000#32) * Ideal.ofBits .f32 0x3F000000#32 = _
  rw [Ideal.jnp_sign_eq_sign_f32]

/-- The spread map at (channel, row, column) is the map at (channel, column group, row group) of that row and column. -/
theorem spread_apply (g : FVec Ideal S16x112x112 .f32) (c : Fin 16) (h w : Fin 224) :
    spread g (ix3 c h w) = g (ix3 c (⟨w.val / 2, by omega⟩ : Fin 112) (⟨h.val / 2, by omega⟩ : Fin 112)) := by
  unfold spread
  -- the row axis: merge of (row group, row in group), a broadcast over the row in group, two casts around a unit axis
  refine (shapeCast_apply _ _ _ (ix4 c (⟨h.val / 2, by omega⟩ : Fin 112) (⟨h.val % 2, by omega⟩ : Fin 2) w) ?_).trans ?_
  · rw [Shape.rowMajor_val_four, Shape.rowMajor_val_three]
    show ((c.val * 112 + h.val / 2) * 2 + h.val % 2) * 224 + w.val = (c.val * 224 + h.val) * 224 + w.val
    omega
  refine (broadcastTo_apply _ _ _ (ix4 c (⟨h.val / 2, by omega⟩ : Fin 112) (0 : Fin 1) w) ?_).trans ?_
  · intro a
    match a with
    | ⟨0, _⟩ => rfl
    | ⟨1, _⟩ => rfl
    | ⟨2, _⟩ => rfl
    | ⟨3, _⟩ => rfl
  rw [shapeCast_self]
  refine (shapeCast_apply _ _ _ (ix3 c (⟨h.val / 2, by omega⟩ : Fin 112) w) ?_).trans ?_
  · rw [Shape.rowMajor_val_three, Shape.rowMajor_val_four]
    show (c.val * 112 + h.val / 2) * 224 + w.val = ((c.val * 112 + h.val / 2) * 1 + 0) * 224 + w.val
    omega
  refine (transpose_ix3_021_apply _ transposes_S16x224x112_p0_2_1_S16x112x224 c _ w).trans ?_
  -- the column axis, likewise
  refine (shapeCast_apply _ _ _ (ix4 c (⟨w.val / 2, by omega⟩ : Fin 112) (⟨w.val % 2, by omega⟩ : Fin 2) (⟨h.val / 2, by omega⟩ : Fin 112)) ?_).trans ?_
  · rw [Shape.rowMajor_val_four, Shape.rowMajor_val_three]
    show ((c.val * 112 + w.val / 2) * 2 + w.val % 2) * 112 + h.val / 2 = (c.val * 224 + w.val) * 112 + h.val / 2
    omega
  refine (broadcastTo_apply _ _ _ (ix4 c (⟨w.val / 2, by omega⟩ : Fin 112) (0 : Fin 1) (⟨h.val / 2, by omega⟩ : Fin 112)) ?_).trans ?_
  · intro a
    match a with
    | ⟨0, _⟩ => rfl
    | ⟨1, _⟩ => rfl
    | ⟨2, _⟩ => rfl
    | ⟨3, _⟩ => rfl
  rw [shapeCast_self]
  refine shapeCast_apply _ _ _ _ ?_
  rw [Shape.rowMajor_val_three, Shape.rowMajor_val_four]
  show (c.val * 112 + w.val / 2) * 112 + h.val / 2 = ((c.val * 112 + w.val / 2) * 1 + 0) * 112 + h.val / 2
  omega

/-- Row `a` of the row group that contains row `h`. -/
theorem cell_mk (h : Fin 224) (a : Fin 2) (pf : h.val / 2 * 2 + a.val < 224) : (⟨h.val / 2 * 2 + a.val, pf⟩ : Fin 224) = cell 2 h a :=
  Fin.ext (cell_val (by decide) (by decide) h a).symm

/-- THE STORED VALUE AT AN ELEMENT, for a block of reals: the element times the gate of the mean of its 2 × 2 block. -/
theorem pay_apply (xb : S1x16x224x224.Idx → ℝ) (u : Fin 1) (c : Fin 16) (h w : Fin 224) :
    k0_pay3 (F := Ideal) (fun y => ((xb y : ℝ) : EReal)) (ix4 u c h w)
      = ((gateR ((∑ a : Fin 2, ∑ d : Fin 2, xb (ix4 (0 : Fin 1) c (cell 2 h a) (cell 2 w d))) / (((2 : ℕ) : ℝ) * ((2 : ℕ) : ℝ)))
          * xb (ix4 (0 : Fin 1) c h w) : ℝ) : EReal) := by
  rw [pay_eq]
  refine (shapeCast_abc_1abc_apply _ shapeCasts_S16x224x224_S1x16x224x224 u c h w).trans ?_
  rw [mulf_apply, spread_apply, gateV_apply, colMean_apply]
  simp only [rowMean_apply, pay1_apply, cell_mk]
  have k_ne : ((2 : ℕ) : ℝ) ≠ 0 := by norm_num
  have hwk : Ideal.ofBits .f32 0x40000000#32 = ((((2 : ℕ) : ℝ)) : EReal) := by rw [word_two]; norm_num
  have e1 : ∀ d : Fin 2,
      Ideal.div (∑ a : Fin 2, ((xb (ix4 (0 : Fin 1) c (cell 2 h a) (cell 2 w d)) : ℝ) : EReal)) (Ideal.ofBits .f32 0x40000000#32)
        = (((∑ a : Fin 2, xb (ix4 (0 : Fin 1) c (cell 2 h a) (cell 2 w d))) / ((2 : ℕ) : ℝ) : ℝ) : EReal) := by
    intro d
    rw [← coe_sum, hwk, div_real _ _ k_ne]
  simp only [e1]
  rw [← coe_sum, hwk, div_real _ _ k_ne, gate_real, ← EReal.coe_mul, mean_of_means]

end Cert.KernelIdeal.Pay2

end
-- ==== Proof.KernelPay4.lean ====
/-
  The body's stored value for the channel group with block size 4, read at one element, at the ideal instance.

  The body sees its 16 × 224 × 224 block p.  It forms the means of the 4 rows of every group of 4 consecutive rows
  (a reshape that splits the row axis into (group, row-in-group), a sum over the row-in-group axis, a division by 4),
  transposes so that columns come before row groups, does the same along the column axis, and so holds, at
  (channel, column group, row group), the mean of the 4 × 4 block: the mean over its columns of the means over its
  rows.  The gate (sign + 1) / 2 of that mean is then spread back over the block — a broadcast into a new axis of
  length 4 and a reshape that merges it into the column axis, a transpose back, and the same along the row axis — and
  multiplied with the block p element by element.
-/
import proofs.«116518_j79972291051870_2_alg».proof.Proof.Gen.KernelIdeal.Skeleton
import proofs.«116518_j79972291051870_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay4

open Cert.KernelIdeal Cert.KernelIdeal.Gen Idealize.ShloMosaic Idealize.ShloMosaic.ValueIdx Cert.BlockGate

/-- The means over the 4 rows of each row group: at (channel, row group, column). -/
def rowMean (p : FVec Ideal S16x224x224 .f32) : FVec Ideal S16x56x224 .f32 :=
  divf (multiReduction .add [2] S16x56x224 (shapeCast S16x56x4x224 p shapeCasts_S16x224x224_S16x56x4x224) 0x00000000#32
      reduces_S16x56x4x224_S16x56x224 (.inl rfl) rfl)
    (broadcast S16x56x224 (Scalar.ofBits .f32 0x40800000#32))

/-- The means over the 4 columns of each column group of the row means: at (channel, column group, row group). -/
def colMean (r : FVec Ideal S16x56x224 .f32) : FVec Ideal S16x56x56 .f32 :=
  divf (multiReduction .add [2] S16x56x56
      (shapeCast S16x56x4x56 (transpose S16x224x56 [0, 2, 1] r transposes_S16x56x224_p0_2_1_S16x224x56) shapeCasts_S16x224x56_S16x56x4x56)
      0x00000000#32 reduces_S16x56x4x56_S16x56x56 (.inl rfl) rfl)
    (broadcast S16x56x56 (Scalar.ofBits .f32 0x40800000#32))

/-- The gate (sign v + 1) · 1/2 of every element, the sign spelt as the kernel computes it. -/
def gateV (v : FVec Ideal S16x56x56 .f32) : FVec Ideal S16x56x56 .f32 :=
  mulf (addf (select (cmpf .ogt (absf v) (broadcast S16x56x56 (Scalar.ofBits .f32 0x00000000#32)))
        (select (cmpf .olt v (constant S16x56x56 .f32 0x00000000#32)) (constant S16x56x56 .f32 0xBF800000#32) (constant S16x56x56 .f32 0x3F800000#32)) v)
      (broadcast S16x56x56 (Scalar.ofBits .f32 0x3F800000#32)))
    (broadcast S16x56x56 (Scalar.ofBits .f32 0x3F000000#32))

/-- A (channel, column group, row group) map spread back over the 224 × 224 image: at (channel, row, column). -/
def spread (g : FVec Ideal S16x56x56 .f32) : FVec Ideal S16x224x224 .f32 :=
  shapeCast S16x224x224
    (broadcastTo S16x56x4x224
      (shapeCast S16x56x1x224
        (shapeCast S16x56x1x224
          (transpose S16x56x224 [0, 2, 1]
            (shapeCast S16x224x56
              (broadcastTo S16x56x4x56
                (shapeCast S16x56x1x56 (shapeCast S16x56x1x56 g shapeCasts_S16x56x56_S16x56x1x56) shapeCasts_S16x56x1x56_S16x56x1x56)
                broadcasts_S16x56x1x56_S16x56x4x56)
              shapeCasts_S16x56x4x56_S16x224x56)
            transposes_S16x224x56_p0_2_1_S16x56x224)
          shapeCasts_S16x56x224_S16x56x1x224)
        shapeCasts_S16x56x1x224_S16x56x1x224)
      broadcasts_S16x56x1x224_S16x56x4x224)
    shapeCasts_S16x56x4x224_S16x224x224

/-- The stored value is the block times the spread gate of the block means. -/
theorem pay_eq (v0 : Vec Ideal S1x16x224x224 .f32) :
    k0_pay4 (F := Ideal) v0
      = shapeCast S1x16x224x224 (mulf (spread (gateV (colMean (rowMean (k0_pay1 v0))))) (k0_pay1 v0)) shapeCasts_S16x224x224_S1x16x224x224 := rfl

/-- The block without its leading unit axis. -/
theorem pay1_apply (v0 : Vec Ideal S1x16x224x224 .f32) (c : Fin 16) (h w : Fin 224) :
    k0_pay1 (F := Ideal) v0 (ix3 c h w) = v0 (ix4 (0 : Fin 1) c h w) :=
  shapeCast_1abc_abc_apply v0 shapeCasts_S1x16x224x224_S16x224x224 c h w

/-- A row mean at (channel, row group, column): the sum over the group's 4 rows, divided by 4. -/
theorem rowMean_apply (p : FVec Ideal S16x224x224 .f32) (c : Fin 16) (hp : Fin 56) (w : Fin 224) :
    rowMean p (ix3 c hp w)
      = Ideal.div (∑ a : Fin 4, p (ix3 c (⟨hp.val * 4 + a.val, by omega⟩ : Fin 224) w)) (Ideal.ofBits .f32 0x40800000#32) := by
  unfold rowMean
  refine congrArg (fun s => Ideal.div s (Ideal.ofBits .f32 0x40800000#32)) ?_
  refine (Ideal.multiReduction_add_single _ _ _ _ _ _).trans ?_
  refine Finset.sum_congr rfl fun a _ => ?_
  refine shapeCast_apply p _ _ _ ?_
  rw [Shape.rowMajor_val_three, Shape.rowMajor_val_four]
  show (c.val * 224 + (hp.val * 4 + a.val)) * 224 + w.val = ((c.val * 56 + hp.val) * 4 + a.val) * 224 + w.val
  omega

/-- A block mean at (channel, column group, row group): the sum over the group's 4 columns of the row means, divided by 4. -/
theorem colMean_apply (r : FVec Ideal S16x56x224 .f32) (c : Fin 16) (wq : Fin 56) (hp : Fin 56) :
    colMean r (ix3 c wq hp)
      = Ideal.div (∑ d : Fin 4, r (ix3 c hp (⟨wq.val * 4 + d.val, by omega⟩ : Fin 224))) (Ideal.ofBits .f32 0x40800000#32) := by
  unfold colMean
  refine congrArg (fun s => Ideal.div s (Ideal.ofBits .f32 0x40800000#32)) ?_
  refine (Ideal.multiReduction_add_single _ _ _ _ _ _).trans ?_
  refine Finset.sum_congr rfl fun (d : Fin 4) _ => ?_
  refine (shapeCast_apply _ _ _ (ix3 c (⟨wq.val * 4 + d.val, by omega⟩ : Fin 224) hp) ?_).trans ?_
  · rw [Shape.rowMajor_val_three, Shape.rowMajor_val_four]
    show (c.val * 224 + (wq.val * 4 + d.val)) * 56 + hp.val = ((c.val * 56 + wq.val) * 4 + d.val) * 56 + hp.val
    omega
  · exact transpose_ix3_021_apply r transposes_S16x56x224_p0_2_1_S16x224x56 c _ hp

/-- The gate at an element: the kernel's spelling of the sign is the sign. -/
theorem gateV_apply (v : FVec Ideal S16x56x56 .f32) (i : S16x56x56.Idx) :
    gateV v i = (Ideal.sign (v i) + Ideal.ofBits .f32 0x3F800000#32) * Ideal.ofBits .f32 0x3F000000#32 := by
  unfold gateV
  show (Scalar.select (FloatOps.cmpf .ogt (FloatOps.absf (v i)) (Scalar.ofBits .f32 0x00000000#32))
        (Scalar.select (FloatOps.cmpf .olt (v i) (Scalar.ofBits .f32 0x00000000#32)) (Scalar.ofBits .f32 0xBF800000#32)
          (Scalar.ofBits .f32 0x3F800000#32)) (v i) + Ideal.ofBits .f32 0x3F800000#32) * Ideal.ofBits .f32 0x3F000000#32 = _
  rw [Ideal.jnp_sign_eq_sign_f32]

/-- The spread map at (channel, row, column) is the map at (channel, column group, row group) of that row and column. -/
theorem spread_apply (g : FVec Ideal S16x56x56 .f32) (c : Fin 16) (h w : Fin 224) :
    spread g (ix3 c h w) = g (ix3 c (⟨w.val / 4, by omega⟩ : Fin 56) (⟨h.val / 4, by omega⟩ : Fin 56)) := by
  unfold spread
  -- the row axis: merge of (row group, row in group), a broadcast over the row in group, two casts around a unit axis
  refine (shapeCast_apply _ _ _ (ix4 c (⟨h.val / 4, by omega⟩ : Fin 56) (⟨h.val % 4, by omega⟩ : Fin 4) w) ?_).trans ?_
  · rw [Shape.rowMajor_val_four, Shape.rowMajor_val_three]
    show ((c.val * 56 + h.val / 4) * 4 + h.val % 4) * 224 + w.val = (c.val * 224 + h.val) * 224 + w.val
    omega
  refine (broadcastTo_apply _ _ _ (ix4 c (⟨h.val / 4, by omega⟩ : Fin 56) (0 : Fin 1) w) ?_).trans ?_
  · intro a
    match a with
    | ⟨0, _⟩ => rfl
    | ⟨1, _⟩ => rfl
    | ⟨2, _⟩ => rfl
    | ⟨3, _⟩ => rfl
  rw [shapeCast_self]
  refine (shapeCast_apply _ _ _ (ix3 c (⟨h.val / 4, by omega⟩ : Fin 56) w) ?_).trans ?_
  · rw [Shape.rowMajor_val_three, Shape.rowMajor_val_four]
    show (c.val * 56 + h.val / 4) * 224 + w.val = ((c.val * 56 + h.val / 4) * 1 + 0) * 224 + w.val
    omega
  refine (transpose_ix3_021_apply _ transposes_S16x224x56_p0_2_1_S16x56x224 c _ w).trans ?_
  -- the column axis, likewise
  refine (shapeCast_apply _ _ _ (ix4 c (⟨w.val / 4, by omega⟩ : Fin 56) (⟨w.val % 4, by omega⟩ : Fin 4) (⟨h.val / 4, by omega⟩ : Fin 56)) ?_).trans ?_
  · rw [Shape.rowMajor_val_four, Shape.rowMajor_val_three]
    show ((c.val * 56 + w.val / 4) * 4 + w.val % 4) * 56 + h.val / 4 = (c.val * 224 + w.val) * 56 + h.val / 4
    omega
  refine (broadcastTo_apply _ _ _ (ix4 c (⟨w.val / 4, by omega⟩ : Fin 56) (0 : Fin 1) (⟨h.val / 4, by omega⟩ : Fin 56)) ?_).trans ?_
  · intro a
    match a with
    | ⟨0, _⟩ => rfl
    | ⟨1, _⟩ => rfl
    | ⟨2, _⟩ => rfl
    | ⟨3, _⟩ => rfl
  rw [shapeCast_self]
  refine shapeCast_apply _ _ _ _ ?_
  rw [Shape.rowMajor_val_three, Shape.rowMajor_val_four]
  show (c.val * 56 + w.val / 4) * 56 + h.val / 4 = ((c.val * 56 + w.val / 4) * 1 + 0) * 56 + h.val / 4
  omega

/-- Row `a` of the row group that contains row `h`. -/
theorem cell_mk (h : Fin 224) (a : Fin 4) (pf : h.val / 4 * 4 + a.val < 224) : (⟨h.val / 4 * 4 + a.val, pf⟩ : Fin 224) = cell 4 h a :=
  Fin.ext (cell_val (by decide) (by decide) h a).symm

/-- THE STORED VALUE AT AN ELEMENT, for a block of reals: the element times the gate of the mean of its 4 × 4 block. -/
theorem pay_apply (xb : S1x16x224x224.Idx → ℝ) (u : Fin 1) (c : Fin 16) (h w : Fin 224) :
    k0_pay4 (F := Ideal) (fun y => ((xb y : ℝ) : EReal)) (ix4 u c h w)
      = ((gateR ((∑ a : Fin 4, ∑ d : Fin 4, xb (ix4 (0 : Fin 1) c (cell 4 h a) (cell 4 w d))) / (((4 : ℕ) : ℝ) * ((4 : ℕ) : ℝ)))
          * xb (ix4 (0 : Fin 1) c h w) : ℝ) : EReal) := by
  rw [pay_eq]
  refine (shapeCast_abc_1abc_apply _ shapeCasts_S16x224x224_S1x16x224x224 u c h w).trans ?_
  rw [mulf_apply, spread_apply, gateV_apply, colMean_apply]
  simp only [rowMean_apply, pay1_apply, cell_mk]
  have k_ne : ((4 : ℕ) : ℝ) ≠ 0 := by norm_num
  have hwk : Ideal.ofBits .f32 0x40800000#32 = ((((4 : ℕ) : ℝ)) : EReal) := by rw [word_four]; norm_num
  have e1 : ∀ d : Fin 4,
      Ideal.div (∑ a : Fin 4, ((xb (ix4 (0 : Fin 1) c (cell 4 h a) (cell 4 w d)) : ℝ) : EReal)) (Ideal.ofBits .f32 0x40800000#32)
        = (((∑ a : Fin 4, xb (ix4 (0 : Fin 1) c (cell 4 h a) (cell 4 w d))) / ((4 : ℕ) : ℝ) : ℝ) : EReal) := by
    intro d
    rw [← coe_sum, hwk, div_real _ _ k_ne]
  simp only [e1]
  rw [← coe_sum, hwk, div_real _ _ k_ne, gate_real, ← EReal.coe_mul, mean_of_means]

end Cert.KernelIdeal.Pay4

end
-- ==== Proof.KernelPay7.lean ====
/-
  The body's stored value for the channel group with block size 7, read at one element, at the ideal instance.

  The body sees its 16 × 224 × 224 block p.  It forms the means of the 7 rows of every group of 7 consecutive rows
  (a reshape that splits the row axis into (group, row-in-group), a sum over the row-in-group axis, a division by 7),
  transposes so that columns come before row groups, does the same along the column axis, and so holds, at
  (channel, column group, row group), the mean of the 7 × 7 block: the mean over its columns of the means over its
  rows.  The gate (sign + 1) / 2 of that mean is then spread back over the block — a broadcast into a new axis of
  length 7 and a reshape that merges it into the column axis, a transpose back, and the same along the row axis — and
  multiplied with the block p element by element.
-/
import proofs.«116518_j79972291051870_2_alg».proof.Proof.Gen.KernelIdeal.Skeleton
import proofs.«116518_j79972291051870_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay7

open Cert.KernelIdeal Cert.KernelIdeal.Gen Idealize.ShloMosaic Idealize.ShloMosaic.ValueIdx Cert.BlockGate

/-- The means over the 7 rows of each row group: at (channel, row group, column). -/
def rowMean (p : FVec Ideal S16x224x224 .f32) : FVec Ideal S16x32x224 .f32 :=
  divf (multiReduction .add [2] S16x32x224 (shapeCast S16x32x7x224 p shapeCasts_S16x224x224_S16x32x7x224) 0x00000000#32
      reduces_S16x32x7x224_S16x32x224 (.inl rfl) rfl)
    (broadcast S16x32x224 (Scalar.ofBits .f32 0x40E00000#32))

/-- The means over the 7 columns of each column group of the row means: at (channel, column group, row group). -/
def colMean (r : FVec Ideal S16x32x224 .f32) : FVec Ideal S16x32x32 .f32 :=
  divf (multiReduction .add [2] S16x32x32
      (shapeCast S16x32x7x32 (transpose S16x224x32 [0, 2, 1] r transposes_S16x32x224_p0_2_1_S16x224x32) shapeCasts_S16x224x32_S16x32x7x32)
      0x00000000#32 reduces_S16x32x7x32_S16x32x32 (.inl rfl) rfl)
    (broadcast S16x32x32 (Scalar.ofBits .f32 0x40E00000#32))

/-- The gate (sign v + 1) · 1/2 of every element, the sign spelt as the kernel computes it. -/
def gateV (v : FVec Ideal S16x32x32 .f32) : FVec Ideal S16x32x32 .f32 :=
  mulf (addf (select (cmpf .ogt (absf v) (broadcast S16x32x32 (Scalar.ofBits .f32 0x00000000#32)))
        (select (cmpf .olt v (constant S16x32x32 .f32 0x00000000#32)) (constant S16x32x32 .f32 0xBF800000#32) (constant S16x32x32 .f32 0x3F800000#32)) v)
      (broadcast S16x32x32 (Scalar.ofBits .f32 0x3F800000#32)))
    (broadcast S16x32x32 (Scalar.ofBits .f32 0x3F000000#32))

/-- A (channel, column group, row group) map spread back over the 224 × 224 image: at (channel, row, column). -/
def spread (g : FVec Ideal S16x32x32 .f32) : FVec Ideal S16x224x224 .f32 :=
  shapeCast S16x224x224
    (broadcastTo S16x32x7x224
      (shapeCast S16x32x1x224
        (shapeCast S16x32x1x224
          (transpose S16x32x224 [0, 2, 1]
            (shapeCast S16x224x32
              (broadcastTo S16x32x7x32
                (shapeCast S16x32x1x32 (shapeCast S16x32x1x32 g shapeCasts_S16x32x32_S16x32x1x32) shapeCasts_S16x32x1x32_S16x32x1x32)
                broadcasts_S16x32x1x32_S16x32x7x32)
              shapeCasts_S16x32x7x32_S16x224x32)
            transposes_S16x224x32_p0_2_1_S16x32x224)
          shapeCasts_S16x32x224_S16x32x1x224)
        shapeCasts_S16x32x1x224_S16x32x1x224)
      broadcasts_S16x32x1x224_S16x32x7x224)
    shapeCasts_S16x32x7x224_S16x224x224

/-- The stored value is the block times the spread gate of the block means. -/
theorem pay_eq (v0 : Vec Ideal S1x16x224x224 .f32) :
    k0_pay5 (F := Ideal) v0
      = shapeCast S1x16x224x224 (mulf (spread (gateV (colMean (rowMean (k0_pay1 v0))))) (k0_pay1 v0)) shapeCasts_S16x224x224_S1x16x224x224 := rfl

/-- The block without its leading unit axis. -/
theorem pay1_apply (v0 : Vec Ideal S1x16x224x224 .f32) (c : Fin 16) (h w : Fin 224) :
    k0_pay1 (F := Ideal) v0 (ix3 c h w) = v0 (ix4 (0 : Fin 1) c h w) :=
  shapeCast_1abc_abc_apply v0 shapeCasts_S1x16x224x224_S16x224x224 c h w

/-- A row mean at (channel, row group, column): the sum over the group's 7 rows, divided by 7. -/
theorem rowMean_apply (p : FVec Ideal S16x224x224 .f32) (c : Fin 16) (hp : Fin 32) (w : Fin 224) :
    rowMean p (ix3 c hp w)
      = Ideal.div (∑ a : Fin 7, p (ix3 c (⟨hp.val * 7 + a.val, by omega⟩ : Fin 224) w)) (Ideal.ofBits .f32 0x40E00000#32) := by
  unfold rowMean
  refine congrArg (fun s => Ideal.div s (Ideal.ofBits .f32 0x40E00000#32)) ?_
  refine (Ideal.multiReduction_add_single _ _ _ _ _ _).trans ?_
  refine Finset.sum_congr rfl fun a _ => ?_
  refine shapeCast_apply p _ _ _ ?_
  rw [Shape.rowMajor_val_three, Shape.rowMajor_val_four]
  show (c.val * 224 + (hp.val * 7 + a.val)) * 224 + w.val = ((c.val * 32 + hp.val) * 7 + a.val) * 224 + w.val
  omega

/-- A block mean at (channel, column group, row group): the sum over the group's 7 columns of the row means, divided by 7. -/
theorem colMean_apply (r : FVec Ideal S16x32x224 .f32) (c : Fin 16) (wq : Fin 32) (hp : Fin 32) :
    colMean r (ix3 c wq hp)
      = Ideal.div (∑ d : Fin 7, r (ix3 c hp (⟨wq.val * 7 + d.val, by omega⟩ : Fin 224))) (Ideal.ofBits .f32 0x40E00000#32) := by
  unfold colMean
  refine congrArg (fun s => Ideal.div s (Ideal.ofBits .f32 0x40E00000#32)) ?_
  refine (Ideal.multiReduction_add_single _ _ _ _ _ _).trans ?_
  refine Finset.sum_congr rfl fun (d : Fin 7) _ => ?_
  refine (shapeCast_apply _ _ _ (ix3 c (⟨wq.val * 7 + d.val, by omega⟩ : Fin 224) hp) ?_).trans ?_
  · rw [Shape.rowMajor_val_three, Shape.rowMajor_val_four]
    show (c.val * 224 + (wq.val * 7 + d.val)) * 32 + hp.val = ((c.val * 32 + wq.val) * 7 + d.val) * 32 + hp.val
    omega
  · exact transpose_ix3_021_apply r transposes_S16x32x224_p0_2_1_S16x224x32 c _ hp

/-- The gate at an element: the kernel's spelling of the sign is the sign. -/
theorem gateV_apply (v : FVec Ideal S16x32x32 .f32) (i : S16x32x32.Idx) :
    gateV v i = (Ideal.sign (v i) + Ideal.ofBits .f32 0x3F800000#32) * Ideal.ofBits .f32 0x3F000000#32 := by
  unfold gateV
  show (Scalar.select (FloatOps.cmpf .ogt (FloatOps.absf (v i)) (Scalar.ofBits .f32 0x00000000#32))
        (Scalar.select (FloatOps.cmpf .olt (v i) (Scalar.ofBits .f32 0x00000000#32)) (Scalar.ofBits .f32 0xBF800000#32)
          (Scalar.ofBits .f32 0x3F800000#32)) (v i) + Ideal.ofBits .f32 0x3F800000#32) * Ideal.ofBits .f32 0x3F000000#32 = _
  rw [Ideal.jnp_sign_eq_sign_f32]

/-- The spread map at (channel, row, column) is the map at (channel, column group, row group) of that row and column. -/
theorem spread_apply (g : FVec Ideal S16x32x32 .f32) (c : Fin 16) (h w : Fin 224) :
    spread g (ix3 c h w) = g (ix3 c (⟨w.val / 7, by omega⟩ : Fin 32) (⟨h.val / 7, by omega⟩ : Fin 32)) := by
  unfold spread
  -- the row axis: merge of (row group, row in group), a broadcast over the row in group, two casts around a unit axis
  refine (shapeCast_apply _ _ _ (ix4 c (⟨h.val / 7, by omega⟩ : Fin 32) (⟨h.val % 7, by omega⟩ : Fin 7) w) ?_).trans ?_
  · rw [Shape.rowMajor_val_four, Shape.rowMajor_val_three]
    show ((c.val * 32 + h.val / 7) * 7 + h.val % 7) * 224 + w.val = (c.val * 224 + h.val) * 224 + w.val
    omega
  refine (broadcastTo_apply _ _ _ (ix4 c (⟨h.val / 7, by omega⟩ : Fin 32) (0 : Fin 1) w) ?_).trans ?_
  · intro a
    match a with
    | ⟨0, _⟩ => rfl
    | ⟨1, _⟩ => rfl
    | ⟨2, _⟩ => rfl
    | ⟨3, _⟩ => rfl
  rw [shapeCast_self]
  refine (shapeCast_apply _ _ _ (ix3 c (⟨h.val / 7, by omega⟩ : Fin 32) w) ?_).trans ?_
  · rw [Shape.rowMajor_val_three, Shape.rowMajor_val_four]
    show (c.val * 32 + h.val / 7) * 224 + w.val = ((c.val * 32 + h.val / 7) * 1 + 0) * 224 + w.val
    omega
  refine (transpose_ix3_021_apply _ transposes_S16x224x32_p0_2_1_S16x32x224 c _ w).trans ?_
  -- the column axis, likewise
  refine (shapeCast_apply _ _ _ (ix4 c (⟨w.val / 7, by omega⟩ : Fin 32) (⟨w.val % 7, by omega⟩ : Fin 7) (⟨h.val / 7, by omega⟩ : Fin 32)) ?_).trans ?_
  · rw [Shape.rowMajor_val_four, Shape.rowMajor_val_three]
    show ((c.val * 32 + w.val / 7) * 7 + w.val % 7) * 32 + h.val / 7 = (c.val * 224 + w.val) * 32 + h.val / 7
    omega
  refine (broadcastTo_apply _ _ _ (ix4 c (⟨w.val / 7, by omega⟩ : Fin 32) (0 : Fin 1) (⟨h.val / 7, by omega⟩ : Fin 32)) ?_).trans ?_
  · intro a
    match a with
    | ⟨0, _⟩ => rfl
    | ⟨1, _⟩ => rfl
    | ⟨2, _⟩ => rfl
    | ⟨3, _⟩ => rfl
  rw [shapeCast_self]
  refine shapeCast_apply _ _ _ _ ?_
  rw [Shape.rowMajor_val_three, Shape.rowMajor_val_four]
  show (c.val * 32 + w.val / 7) * 32 + h.val / 7 = ((c.val * 32 + w.val / 7) * 1 + 0) * 32 + h.val / 7
  omega

/-- Row `a` of the row group that contains row `h`. -/
theorem cell_mk (h : Fin 224) (a : Fin 7) (pf : h.val / 7 * 7 + a.val < 224) : (⟨h.val / 7 * 7 + a.val, pf⟩ : Fin 224) = cell 7 h a :=
  Fin.ext (cell_val (by decide) (by decide) h a).symm

/-- THE STORED VALUE AT AN ELEMENT, for a block of reals: the element times the gate of the mean of its 7 × 7 block. -/
theorem pay_apply (xb : S1x16x224x224.Idx → ℝ) (u : Fin 1) (c : Fin 16) (h w : Fin 224) :
    k0_pay5 (F := Ideal) (fun y => ((xb y : ℝ) : EReal)) (ix4 u c h w)
      = ((gateR ((∑ a : Fin 7, ∑ d : Fin 7, xb (ix4 (0 : Fin 1) c (cell 7 h a) (cell 7 w d))) / (((7 : ℕ) : ℝ) * ((7 : ℕ) : ℝ)))
          * xb (ix4 (0 : Fin 1) c h w) : ℝ) : EReal) := by
  rw [pay_eq]
  refine (shapeCast_abc_1abc_apply _ shapeCasts_S16x224x224_S1x16x224x224 u c h w).trans ?_
  rw [mulf_apply, spread_apply, gateV_apply, colMean_apply]
  simp only [rowMean_apply, pay1_apply, cell_mk]
  have k_ne : ((7 : ℕ) : ℝ) ≠ 0 := by norm_num
  have hwk : Ideal.ofBits .f32 0x40E00000#32 = ((((7 : ℕ) : ℝ)) : EReal) := by rw [word_seven]; norm_num
  have e1 : ∀ d : Fin 7,
      Ideal.div (∑ a : Fin 7, ((xb (ix4 (0 : Fin 1) c (cell 7 h a) (cell 7 w d)) : ℝ) : EReal)) (Ideal.ofBits .f32 0x40E00000#32)
        = (((∑ a : Fin 7, xb (ix4 (0 : Fin 1) c (cell 7 h a) (cell 7 w d))) / ((7 : ℕ) : ℝ) : ℝ) : EReal) := by
    intro d
    rw [← coe_sum, hwk, div_real _ _ k_ne]
  simp only [e1]
  rw [← coe_sum, hwk, div_real _ _ k_ne, gate_real, ← EReal.coe_mul, mean_of_means]

end Cert.KernelIdeal.Pay7

end
-- ==== Proof.KernelValue.lean ====
/-
  The idealized kernel's result array, as one function of its argument.

  The grid has 4 × 32 points; point t works on batch t mod 32 and on the channel group t / 32, that is on the block
  of the argument with batch t mod 32 and channels 16 · (t / 32) … 16 · (t / 32) + 15, and writes the block of the
  result with the same position.  What it writes is the payload of its group (block size 1, 2, 4, 7 for groups
  0, 1, 2, 3) of the block it read.  Read at an element, and for a finite argument, that payload is the element
  times the gate of the mean of the element's k × k block; the block lies inside one channel of one batch, so it is
  the same block whether it is cut out of the point's block or out of the whole array.  Every element of the result
  lies in exactly one point's block, so the result array is the specification `G` everywhere.
-/
import proofs.«116518_j79972291051870_2_alg».proof.Proof.BodyKI
import proofs.«116518_j79972291051870_2_alg».proof.Proof.KernelPay1
import proofs.«116518_j79972291051870_2_alg».proof.Proof.KernelPay2
import proofs.«116518_j79972291051870_2_alg».proof.Proof.KernelPay4
import proofs.«116518_j79972291051870_2_alg».proof.Proof.KernelPay7
import proofs.«116518_j79972291051870_2_alg».proof.Proof.Spec
import Idealize.ShloMosaic.Lib.Pipeline.Value

noncomputable section

open Idealize.ShloMosaic Idealize.ShloMosaic.TcCoe Idealize.SL.Sem
open Idealize.ShloMosaic.Pipeline (Dat)
open scoped BigOperators

namespace Cert.KernelIdeal.HandValue

open Cert.KernelIdeal Cert.KernelIdeal.Gen Cert.KernelIdeal.Hand Idealize.ShloMosaic.ValueIdx Cert.BlockGate

variable (m : (ℓ : Loc nD τ sig) → Buf (Elt Ideal) ℓ) (ρ : Dev nD → PrngReg)

/-- Where the two windows' blocks sit at point `t`: batch `t mod 32`, channel group `t / 32`, the whole image. -/
theorem idx_facts : ∀ t : Fin cfg0.N,
    win0_0.index t (0 : Fin 4) = t.val % 32 ∧ win0_0.index t (1 : Fin 4) = t.val / 32 ∧ win0_0.index t (2 : Fin 4) = 0 ∧ win0_0.index t (3 : Fin 4) = 0
    ∧ win0_1.index t (0 : Fin 4) = t.val % 32 ∧ win0_1.index t (1 : Fin 4) = t.val / 32 ∧ win0_1.index t (2 : Fin 4) = 0 ∧ win0_1.index t (3 : Fin 4) = 0 :=
  (by decide +kernel : ∀ t : Fin grid0.N, _)

/-- The array index under element `y` of point `t`'s block. -/
def arrIdx (t : Fin cfg0.N) (y : S1x16x224x224.Idx) : X.Idx :=
  ix4 (⟨t.val % 32, Nat.mod_lt _ (by norm_num)⟩ : Fin 32)
    (⟨(t.val / 32) * 16 + (y 1).val, by
      have h1 : (y 1).val < 16 := (y 1).isLt
      have ht : t.val < 128 := lt_of_lt_of_eq t.isLt (show cfg0.N = 128 from N_0)
      omega⟩ : Fin 64) (y 2) (y 3)

/-- Element `y` of the input block at point `t` is the argument at the array index under it. -/
theorem iblk_apply (c : Dev nD) (t : Fin cfg0.N) (y : S1x16x224x224.Idx) :
    (iblk m c 0 t : Vec Ideal S1x16x224x224 .f32) y = (m ((c : Thread nD τ).loc main_arg0) : X.Idx → EReal) (arrIdx t y) := by
  obtain ⟨e0, e1, e2, e3, -, -, -, -⟩ := idx_facts t
  unfold iblk
  rw [View.read_apply]
  show V m c main_arg0 _ = m (c.tc.loc main_arg0) _
  unfold V
  congr 1
  funext a
  apply Fin.ext
  match a with
  | ⟨0, _⟩ =>
    show win0_0.index t (0 : Fin 4) * 1 + 1 * (y 0).val = t.val % 32
    have h0 : (y 0).val < 1 := (y 0).isLt
    omega
  | ⟨1, _⟩ =>
    show win0_0.index t (1 : Fin 4) * 16 + 1 * (y 1).val = (t.val / 32) * 16 + (y 1).val
    omega
  | ⟨2, _⟩ =>
    show win0_0.index t (2 : Fin 4) * 224 + 1 * (y 2).val = (y 2).val
    omega
  | ⟨3, _⟩ =>
    show win0_0.index t (3 : Fin 4) * 224 + 1 * (y 3).val = (y 3).val
    omega

section Finite

variable (xr : Dev nD → X.Idx → ℝ)
  (hx : ∀ c : Dev nD, (m ((c : Thread nD τ).loc main_arg0) : X.Idx → EReal) = fun i => ((xr c i : ℝ) : EReal))

/-- The input block at point `t` as a block of reals. -/
def xblk (c : Dev nD) (t : Fin cfg0.N) : S1x16x224x224.Idx → ℝ := fun y => xr c (arrIdx t y)

include hx in
theorem iblk_eq (c : Dev nD) (t : Fin cfg0.N) :
    (iblk m c 0 t : Vec Ideal S1x16x224x224 .f32) = fun y => ((xblk xr c t y : ℝ) : EReal) := by
  funext y
  rw [iblk_apply, hx c]
  rfl

/-- The array index under element (u, c', h, w) of the output block at point `t`. -/
theorem emb_out (t : Fin cfg0.N) (u : Fin 1) (c' : Fin 16) (h w : Fin 224) :
    ((cfg0.win 1).blk t).view.emb (ix4 u c' h w)
      = (ix4 (⟨t.val % 32, Nat.mod_lt _ (by norm_num)⟩ : Fin 32)
          (⟨(t.val / 32) * 16 + c'.val, by
            have ht : t.val < 128 := lt_of_lt_of_eq t.isLt (show cfg0.N = 128 from N_0)
            omega⟩ : Fin 64) h w : X.Idx) := by
  obtain ⟨-, -, -, -, e0, e1, e2, e3⟩ := idx_facts t
  funext a
  apply Fin.ext
  match a with
  | ⟨0, _⟩ =>
    show win0_1.index t (0 : Fin 4) * 1 + 1 * u.val = t.val % 32
    omega
  | ⟨1, _⟩ =>
    show win0_1.index t (1 : Fin 4) * 16 + 1 * c'.val = (t.val / 32) * 16 + c'.val
    omega
  | ⟨2, _⟩ =>
    show win0_1.index t (2 : Fin 4) * 224 + 1 * h.val = h.val
    omega
  | ⟨3, _⟩ =>
    show win0_1.index t (3 : Fin 4) * 224 + 1 * w.val = w.val
    omega

include hx in
/-- WHAT POINT `t` WRITES BACK is block `t` of the specification of the argument. -/
theorem flushed_eq (c : Dev nD) (t : Fin cfg0.N) :
    (dats m 0 c).flushed 1 t = ((cfg0.win 1).blk t).view.read (Elt Ideal) (G (xr c)) := by
  show (cfg0.win 1).cut (grid0.coords t) ((dats m 0 c).after 1 t) = _
  rw [after0_1, outAt_eq, iblk_eq m xr hx c t]
  have ht : t.val < 128 := lt_of_lt_of_eq t.isLt (show cfg0.N = 128 from N_0)
  funext j
  obtain ⟨u, c', h, w, rfl⟩ : ∃ (u : Fin 1) (c' : Fin 16) (h w : Fin 224), j = ix4 u c' h w := ⟨j 0, j 1, j 2, j 3, eq_ix4 j⟩
  show ((if t.val / 32 = 0 then _ else _ : Vec Ideal S1x16x224x224 .f32)) (ix4 u c' h w) = G (xr c) (((cfg0.win 1).blk t).view.emb (ix4 u c' h w))
  rw [emb_out t u c' h w, G_ix4]
  unfold GRc
  by_cases g0 : t.val / 32 = 0
  · rw [if_pos g0, Pay1.pay_apply]
    have hb : blockOf (⟨(t.val / 32) * 16 + c'.val, by omega⟩ : Fin 64) = 1 := by
      unfold blockOf; rw [if_pos (by show (t.val / 32) * 16 + c'.val < 16; omega)]
    rw [hb, blockMean_one]
    rfl
  rw [if_neg g0]
  by_cases g1 : t.val / 32 = 1
  · rw [if_pos g1, Pay2.pay_apply]
    have hb : blockOf (⟨(t.val / 32) * 16 + c'.val, by omega⟩ : Fin 64) = 2 := by
      unfold blockOf
      rw [if_neg (by show ¬ (t.val / 32) * 16 + c'.val < 16; omega), if_pos (by show (t.val / 32) * 16 + c'.val < 32; omega)]
    rw [hb]
    rfl
  rw [if_neg g1]
  by_cases g2 : t.val / 32 = 2
  · rw [if_pos g2, Pay4.pay_apply]
    have hb : blockOf (⟨(t.val / 32) * 16 + c'.val, by omega⟩ : Fin 64) = 4 := by
      unfold blockOf
      rw [if_neg (by show ¬ (t.val / 32) * 16 + c'.val < 16; omega), if_neg (by show ¬ (t.val / 32) * 16 + c'.val < 32; omega),
        if_pos (by show (t.val / 32) * 16 + c'.val < 48; omega)]
    rw [hb]
    rfl
  rw [if_neg g2, Pay7.pay_apply]
  have hb : blockOf (⟨(t.val / 32) * 16 + c'.val, by omega⟩ : Fin 64) = 7 := by
    unfold blockOf
    rw [if_neg (by show ¬ (t.val / 32) * 16 + c'.val < 16; omega), if_neg (by show ¬ (t.val / 32) * 16 + c'.val < 32; omega),
      if_neg (by show ¬ (t.val / 32) * 16 + c'.val < 48; omega)]
  rw [hb]
  rfl

end Finite

section Whole

variable (xr : Dev nD → X.Idx → ℝ)
  (hx : ∀ c : Dev nD, (m ((c : Thread nD τ).loc main_arg0) : X.Idx → EReal) = fun i => ((xr c i : ℝ) : EReal))

/-- An index of the result array lies in point `t`'s block iff, axis by axis, it lies in the block's range. -/
theorem mem_blk (t : Fin cfg0.N) (i : X.Idx) :
    i ∈ ((cfg0.win 1).blk t).view.set
      ↔ ∀ a : Fin 4, win0_1.index t a * S1x16x224x224.size a ≤ (i a).val ∧ (i a).val < win0_1.index t a * S1x16x224x224.size a + S1x16x224x224.size a := by
  show i ∈ ((View.whole main_v0).slice (win0_1.rect t)).set ↔ _
  rw [View.set_slice_whole, Rect.mem_set_unit]
  exact Iff.rfl

/-- Every element of the result array lies in the block of the point with its batch and its channel group. -/
theorem cover (i : X.Idx) : ∃ t : Fin cfg0.N, (cfg0.win 1).flush t = true ∧ i ∈ ((cfg0.win 1).blk t).view.set := by
  have hN : cfg0.N = 128 := N_0
  have h0 : (i 0).val < 32 := (i 0).isLt
  have h1 : (i 1).val < 64 := (i 1).isLt
  have h2 : (i 2).val < 224 := (i 2).isLt
  have h3 : (i 3).val < 224 := (i 3).isLt
  refine ⟨⟨(i 1).val / 16 * 32 + (i 0).val, by rw [hN]; omega⟩, flush0_1 _, ?_⟩
  rw [mem_blk]
  obtain ⟨-, -, -, -, e0, e1, e2, e3⟩ := idx_facts ⟨(i 1).val / 16 * 32 + (i 0).val, by rw [hN]; omega⟩
  intro a
  match a with
  | ⟨0, _⟩ =>
    show win0_1.index _ (0 : Fin 4) * 1 ≤ (i 0).val ∧ (i 0).val < win0_1.index _ (0 : Fin 4) * 1 + 1
    rw [e0]; show ((i 1).val / 16 * 32 + (i 0).val) % 32 * 1 ≤ (i 0).val ∧ (i 0).val < ((i 1).val / 16 * 32 + (i 0).val) % 32 * 1 + 1
    omega
  | ⟨1, _⟩ =>
    show win0_1.index _ (1 : Fin 4) * 16 ≤ (i 1).val ∧ (i 1).val < win0_1.index _ (1 : Fin 4) * 16 + 16
    rw [e1]; show ((i 1).val / 16 * 32 + (i 0).val) / 32 * 16 ≤ (i 1).val ∧ (i 1).val < ((i 1).val / 16 * 32 + (i 0).val) / 32 * 16 + 16
    omega
  | ⟨2, _⟩ =>
    show win0_1.index _ (2 : Fin 4) * 224 ≤ (i 2).val ∧ (i 2).val < win0_1.index _ (2 : Fin 4) * 224 + 224
    rw [e2]; omega
  | ⟨3, _⟩ =>
    show win0_1.index _ (3 : Fin 4) * 224 ≤ (i 3).val ∧ (i 3).val < win0_1.index _ (3 : Fin 4) * 224 + 224
    rw [e3]; omega

include hx in
/-- THE RESULT ARRAY after the run is the specification of the argument. -/
theorem final (c : Dev nD) : (dats m 0 c).arrAt 1 cfg0.N = G (xr c) :=
  (dats m 0 c).arrAt_eq_of_cover 1 (G (xr c)) (fun t _ => flushed_eq m xr hx c t) cover

include hx in
/-- The run, read: the result array at the specification of the argument, the argument unchanged. -/
theorem run : θ_run defs (onTc (τ := τ) (main (F := Ideal))) ⟨m, fun _ => 0, ρ⟩ fun r => ∀ c : Dev nD,
      r.2.mem ((c : Thread nD τ).loc main_v0) = G (xr c)
      ∧ r.2.mem ((c : Thread nD τ).loc main_arg0) = m ((c : Thread nD τ).loc main_arg0) :=
  (θ_run defs _ _).mono (fun r h c => ⟨((h c).1 1).trans (final m xr hx c),
      ((h c).1 0).trans (((dats m 0 c).arrAt_in 0 rfl _).trans ((A_eq m c 0).trans (V_main_arg0 m c)))⟩)
    (run_main m ρ)

end Whole

end Cert.KernelIdeal.HandValue

end
-- ==== Proof.RefTerm.lean ====
/-
  The reference as ONE pure function of its argument array.

  The reference treats the 64 channels in four groups of 16 (channels 16k … 16k+15, k = 0, 1, 2, 3) with block
  sizes 1, 2, 4, 7.  For a group it gathers the group's channels out of the argument, forms the block means
  (a reshape that splits each spatial axis into (block, position-in-block), a sum over the two in-block axes, a
  division by the block's area), turns each mean v into the gate (sign v + 1) · 1/2, repeats the gate over the
  block (two broadcasts into a new axis, each followed by a reshape that merges it away), and writes the gated map
  into the group's channels of an array that starts at zero.  The result is that array times the argument.
  For block size 1 the mean is the element itself and no reshape, sum or repeat is printed.

  The definitions below spell that composition out operation by operation, in the program's own order and with
  its own shape facts, so that the program's run ends at `refTerm` of the argument by unfolding alone.
-/
import proofs.«116518_j79972291051870_2_alg».proof.Proof.Gen.ReferenceIdeal
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The channel numbers of one group as the index operand of its gather and scatter: the group's table of 16
    channel numbers, each replaced by itself plus 64 where a (constantly false) mask says it is negative, as a
    16×1 array. -/
def chanIdx (lit : Fin 16 → BitVec 32) : (⟨S16x1, .i32⟩ : BufTy).Contents (Elt F) :=
  broadcastInDim S16x1 ![0] bcast_S16_S16x1_0
    (select (constantI S16 1 0#1 : (⟨S16, .i1⟩ : BufTy).Contents (Elt F))
      (addi (fun i => lit (S16.rowMajor i) : (⟨S16, .i32⟩ : BufTy).Contents (Elt F))
        (broadcastInDim S16 ![] bcast_S_S16 (constantI S_ 32 64#32 : (⟨S_, .i32⟩ : BufTy).Contents (Elt F)) : (⟨S16, .i32⟩ : BufTy).Contents (Elt F)))
      (fun i => lit (S16.rowMajor i) : (⟨S16, .i32⟩ : BufTy).Contents (Elt F)) : (⟨S16, .i32⟩ : BufTy).Contents (Elt F))

/-- The 16 channels of a group, gathered out of the argument. -/
def grp (lit : Fin 16 → BitVec 32) (x : (⟨S32x64x224x224, .f32⟩ : BufTy).Contents (Elt F)) : (⟨S32x16x224x224, .f32⟩ : BufTy).Contents (Elt F) :=
  Host.gather gather_S32x64x224x224_S16x1_S32x16x224x224_023_1_n_n_1_1_321224224 x (chanIdx (F := F) lit)

/-- A gated map written into a group's channels of `acc`. -/
def put (lit : Fin 16 → BitVec 32) (acc : (⟨S32x64x224x224, .f32⟩ : BufTy).Contents (Elt F)) (u : (⟨S32x16x224x224, .f32⟩ : BufTy).Contents (Elt F)) :
    (⟨S32x64x224x224, .f32⟩ : BufTy).Contents (Elt F) :=
  Host.scatter scatter_S32x64x224x224_S16x1_S32x16x224x224_023_1_1_1 (fun _ b => b) acc (chanIdx (F := F) lit) u

/-- The array the gated maps are written into: zero everywhere. -/
def zeros : (⟨S32x64x224x224, .f32⟩ : BufTy).Contents (Elt F) :=
  broadcastInDim S32x64x224x224 ![] bcast_S_S32x64x224x224 (constant S_ .f32 0x00000000#32 : (⟨S_, .f32⟩ : BufTy).Contents (Elt F))

/-- Block size 1: the gate of each element, (sign x + 1) · 1/2. -/
def gate1 (g : (⟨S32x16x224x224, .f32⟩ : BufTy).Contents (Elt F)) : (⟨S32x16x224x224, .f32⟩ : BufTy).Contents (Elt F) :=
  mulf (addf (Host.sign g) (broadcastInDim S32x16x224x224 ![] bcast_S_S32x16x224x224 (constant S_ .f32 0x3F800000#32 : (⟨S_, .f32⟩ : BufTy).Contents (Elt F))))
    (broadcastInDim S32x16x224x224 ![] bcast_S_S32x16x224x224 (constant S_ .f32 0x3F000000#32 : (⟨S_, .f32⟩ : BufTy).Contents (Elt F)))

/-- Block size 2: the 2×2 block means (sum over the two in-block axes, divided by 4). -/
def mean2 (g : (⟨S32x16x224x224, .f32⟩ : BufTy).Contents (Elt F)) : (⟨S32x16x112x112, .f32⟩ : BufTy).Contents (Elt F) :=
  Host.divf
    (Host.reduceAdd (shapeCast S32x16x112x2x112x2 g shapeCasts_S32x16x224x224_S32x16x112x2x112x2 : (⟨S32x16x112x2x112x2, .f32⟩ : BufTy).Contents (Elt F))
      (constant S_ .f32 0x00000000#32 : (⟨S_, .f32⟩ : BufTy).Contents (Elt F)) reducesTo_S32x16x112x2x112x2_S32x16x112x112_d3_5 h_S_)
    (broadcastInDim S32x16x112x112 ![] bcast_S_S32x16x112x112 (constant S_ .f32 0x40800000#32 : (⟨S_, .f32⟩ : BufTy).Contents (Elt F)))

/-- Block size 2: the gate of each block mean. -/
def gate2 (p : (⟨S32x16x112x112, .f32⟩ : BufTy).Contents (Elt F)) : (⟨S32x16x112x112, .f32⟩ : BufTy).Contents (Elt F) :=
  mulf (addf (Host.sign p) (broadcastInDim S32x16x112x112 ![] bcast_S_S32x16x112x112 (constant S_ .f32 0x3F800000#32 : (⟨S_, .f32⟩ : BufTy).Contents (Elt F))))
    (broadcastInDim S32x16x112x112 ![] bcast_S_S32x16x112x112 (constant S_ .f32 0x3F000000#32 : (⟨S_, .f32⟩ : BufTy).Contents (Elt F)))

/-- Block size 2: a 112×112 map repeated twice along each spatial axis. -/
def rep2 (h : (⟨S32x16x112x112, .f32⟩ : BufTy).Contents (Elt F)) : (⟨S32x16x224x224, .f32⟩ : BufTy).Contents (Elt F) :=
  shapeCast S32x16x224x224
    (broadcastInDim S32x16x224x112x2 ![0, 1, 2, 3] bcast_S32x16x224x112_S32x16x224x112x2_0_1_2_3
      (shapeCast S32x16x224x112
        (broadcastInDim S32x16x112x2x112 ![0, 1, 2, 4] bcast_S32x16x112x112_S32x16x112x2x112_0_1_2_4 h : (⟨S32x16x112x2x112, .f32⟩ : BufTy).Contents (Elt F))
        shapeCasts_S32x16x112x2x112_S32x16x224x112 : (⟨S32x16x224x112, .f32⟩ : BufTy).Contents (Elt F)) : (⟨S32x16x224x112x2, .f32⟩ : BufTy).Contents (Elt F))
    shapeCasts_S32x16x224x112x2_S32x16x224x224

/-- Block size 4: the 4×4 block means (divided by 16). -/
def mean4 (g : (⟨S32x16x224x224, .f32⟩ : BufTy).Contents (Elt F)) : (⟨S32x16x56x56, .f32⟩ : BufTy).Contents (Elt F) :=
  Host.divf
    (Host.reduceAdd (shapeCast S32x16x56x4x56x4 g shapeCasts_S32x16x224x224_S32x16x56x4x56x4 : (⟨S32x16x56x4x56x4, .f32⟩ : BufTy).Contents (Elt F))
      (constant S_ .f32 0x00000000#32 : (⟨S_, .f32⟩ : BufTy).Contents (Elt F)) reducesTo_S32x16x56x4x56x4_S32x16x56x56_d3_5 h_S_)
    (broadcastInDim S32x16x56x56 ![] bcast_S_S32x16x56x56 (constant S_ .f32 0x41800000#32 : (⟨S_, .f32⟩ : BufTy).Contents (Elt F)))

/-- Block size 4: the gate of each block mean. -/
def gate4 (p : (⟨S32x16x56x56, .f32⟩ : BufTy).Contents (Elt F)) : (⟨S32x16x56x56, .f32⟩ : BufTy).Contents (Elt F) :=
  mulf (addf (Host.sign p) (broadcastInDim S32x16x56x56 ![] bcast_S_S32x16x56x56 (constant S_ .f32 0x3F800000#32 : (⟨S_, .f32⟩ : BufTy).Contents (Elt F))))
    (broadcastInDim S32x16x56x56 ![] bcast_S_S32x16x56x56 (constant S_ .f32 0x3F000000#32 : (⟨S_, .f32⟩ : BufTy).Contents (Elt F)))

/-- Block size 4: a 56×56 map repeated four times along each spatial axis. -/
def rep4 (h : (⟨S32x16x56x56, .f32⟩ : BufTy).Contents (Elt F)) : (⟨S32x16x224x224, .f32⟩ : BufTy).Contents (Elt F) :=
  shapeCast S32x16x224x224
    (broadcastInDim S32x16x224x56x4 ![0, 1, 2, 3] bcast_S32x16x224x56_S32x16x224x56x4_0_1_2_3
      (shapeCast S32x16x224x56
        (broadcastInDim S32x16x56x4x56 ![0, 1, 2, 4] bcast_S32x16x56x56_S32x16x56x4x56_0_1_2_4 h : (⟨S32x16x56x4x56, .f32⟩ : BufTy).Contents (Elt F))
        shapeCasts_S32x16x56x4x56_S32x16x224x56 : (⟨S32x16x224x56, .f32⟩ : BufTy).Contents (Elt F)) : (⟨S32x16x224x56x4, .f32⟩ : BufTy).Contents (Elt F))
    shapeCasts_S32x16x224x56x4_S32x16x224x224

/-- Block size 7: the 7×7 block means (divided by 49). -/
def mean7 (g : (⟨S32x16x224x224, .f32⟩ : BufTy).Contents (Elt F)) : (⟨S32x16x32x32, .f32⟩ : BufTy).Contents (Elt F) :=
  Host.divf
    (Host.reduceAdd (shapeCast S32x16x32x7x32x7 g shapeCasts_S32x16x224x224_S32x16x32x7x32x7 : (⟨S32x16x32x7x32x7, .f32⟩ : BufTy).Contents (Elt F))
      (constant S_ .f32 0x00000000#32 : (⟨S_, .f32⟩ : BufTy).Contents (Elt F)) reducesTo_S32x16x32x7x32x7_S32x16x32x32_d3_5 h_S_)
    (broadcastInDim S32x16x32x32 ![] bcast_S_S32x16x32x32 (constant S_ .f32 0x42440000#32 : (⟨S_, .f32⟩ : BufTy).Contents (Elt F)))

/-- Block size 7: the gate of each block mean. -/
def gate7 (p : (⟨S32x16x32x32, .f32⟩ : BufTy).Contents (Elt F)) : (⟨S32x16x32x32, .f32⟩ : BufTy).Contents (Elt F) :=
  mulf (addf (Host.sign p) (broadcastInDim S32x16x32x32 ![] bcast_S_S32x16x32x32 (constant S_ .f32 0x3F800000#32 : (⟨S_, .f32⟩ : BufTy).Contents (Elt F))))
    (broadcastInDim S32x16x32x32 ![] bcast_S_S32x16x32x32 (constant S_ .f32 0x3F000000#32 : (⟨S_, .f32⟩ : BufTy).Contents (Elt F)))

/-- Block size 7: a 32×32 map repeated seven times along each spatial axis. -/
def rep7 (h : (⟨S32x16x32x32, .f32⟩ : BufTy).Contents (Elt F)) : (⟨S32x16x224x224, .f32⟩ : BufTy).Contents (Elt F) :=
  shapeCast S32x16x224x224
    (broadcastInDim S32x16x224x32x7 ![0, 1, 2, 3] bcast_S32x16x224x32_S32x16x224x32x7_0_1_2_3
      (shapeCast S32x16x224x32
        (broadcastInDim S32x16x32x7x32 ![0, 1, 2, 4] bcast_S32x16x32x32_S32x16x32x7x32_0_1_2_4 h : (⟨S32x16x32x7x32, .f32⟩ : BufTy).Contents (Elt F))
        shapeCasts_S32x16x32x7x32_S32x16x224x32 : (⟨S32x16x224x32, .f32⟩ : BufTy).Contents (Elt F)) : (⟨S32x16x224x32x7, .f32⟩ : BufTy).Contents (Elt F))
    shapeCasts_S32x16x224x32x7_S32x16x224x224

/-- The gate array: the four groups' gated maps written, in group order, into the zero array. -/
def gates (x : (⟨S32x64x224x224, .f32⟩ : BufTy).Contents (Elt F)) : (⟨S32x64x224x224, .f32⟩ : BufTy).Contents (Elt F) :=
  put lit3 (put lit2 (put lit1 (put lit0 zeros (gate1 (grp lit0 x))) (rep2 (gate2 (mean2 (grp lit1 x))))) (rep4 (gate4 (mean4 (grp lit2 x)))))
    (rep7 (gate7 (mean7 (grp lit3 x))))

/-- The reference's result: the gate array times the argument. -/
def refTerm (x : (⟨S32x64x224x224, .f32⟩ : BufTy).Contents (Elt F)) : (⟨S32x64x224x224, .f32⟩ : BufTy).Contents (Elt F) :=
  mulf (gates x) x

end Cert.ReferenceIdeal.Hand

end
-- ==== Proof.RefRunOps.lean ====
/-
  The reference program as the list of its operations.

  The program is a straight line of 121 array operations, each writing one buffer of its own from buffers written
  earlier (or from the argument).  Listing them in order, the program is the run of that list; no buffer or
  semaphore of it is scoped, and every operation touches buffers of the core only.
-/
import proofs.«116518_j79972291051870_2_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's 121 operations, in order. -/
abbrev ops : List (HloOp τ sig (Elt F)) :=
  [ StableHlo.nullary main_c (fun i => lit0 (S16.rowMajor i)),
    StableHlo.nullary main_c_0 (constantI S16 1 0#1),
    StableHlo.nullary main_c_1 (constantI S16 1 0#1),
    StableHlo.nullary main_c_2 (fun i => lit1 (S16.rowMajor i)),
    StableHlo.nullary main_c_3 (constantI S16 1 0#1),
    StableHlo.nullary main_c_4 (constantI S16 1 0#1),
    StableHlo.nullary main_c_5 (fun i => lit2 (S16.rowMajor i)),
    StableHlo.nullary main_c_6 (constantI S16 1 0#1),
    StableHlo.nullary main_c_7 (constantI S16 1 0#1),
    StableHlo.nullary main_c_8 (fun i => lit3 (S16.rowMajor i)),
    StableHlo.nullary main_c_9 (constantI S16 1 0#1),
    StableHlo.nullary main_c_10 (constantI S16 1 0#1),
    StableHlo.nullary main_cst (constant S_ .f32 0x00000000#32),
    StableHlo.unary main_cst main_v0 (broadcastInDim S32x64x224x224 ![] bcast_S_S32x64x224x224 : (⟨S_, .f32⟩ : BufTy).Contents (Elt F) → (⟨S32x64x224x224, .f32⟩ : BufTy).Contents (Elt F)),
    StableHlo.nullary main_c_11 (constantI S_ 32 64#32),
    StableHlo.unary main_c_11 main_v1 (broadcastInDim S16 ![] bcast_S_S16 : (⟨S_, .i32⟩ : BufTy).Contents (Elt F) → (⟨S16, .i32⟩ : BufTy).Contents (Elt F)),
    StableHlo.binary main_c main_v1 main_v2 (addi : (⟨S16, .i32⟩ : BufTy).Contents (Elt F) → (⟨S16, .i32⟩ : BufTy).Contents (Elt F) → (⟨S16, .i32⟩ : BufTy).Contents (Elt F)),
    StableHlo.ternary main_c_0 main_v2 main_c main_v3 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.unary main_v3 main_v4 (broadcastInDim S16x1 ![0] bcast_S16_S16x1_0 : (⟨S16, .i32⟩ : BufTy).Contents (Elt F) → (⟨S16x1, .i32⟩ : BufTy).Contents (Elt F)),
    StableHlo.binary main_arg0 main_v4 main_v5 ((fun x i => Host.gather gather_S32x64x224x224_S16x1_S32x16x224x224_023_1_n_n_1_1_321224224 x i) : (⟨S32x64x224x224, .f32⟩ : BufTy).Contents (Elt F) → (⟨S16x1, .i32⟩ : BufTy).Contents (Elt F) → (⟨S32x16x224x224, .f32⟩ : BufTy).Contents (Elt F)),
    StableHlo.unary main_v5 main_v6 (Host.sign : (⟨S32x16x224x224, .f32⟩ : BufTy).Contents (Elt F) → (⟨S32x16x224x224, .f32⟩ : BufTy).Contents (Elt F)),
    StableHlo.nullary main_cst_12 (constant S_ .f32 0x3F800000#32),
    StableHlo.unary main_cst_12 main_v7 (broadcastInDim S32x16x224x224 ![] bcast_S_S32x16x224x224 : (⟨S_, .f32⟩ : BufTy).Contents (Elt F) → (⟨S32x16x224x224, .f32⟩ : BufTy).Contents (Elt F)),
    StableHlo.binary main_v6 main_v7 main_v8 (addf : (⟨S32x16x224x224, .f32⟩ : BufTy).Contents (Elt F) → (⟨S32x16x224x224, .f32⟩ : BufTy).Contents (Elt F) → (⟨S32x16x224x224, .f32⟩ : BufTy).Contents (Elt F)),
    StableHlo.nullary main_cst_13 (constant S_ .f32 0x3F000000#32),
    StableHlo.unary main_cst_13 main_v9 (broadcastInDim S32x16x224x224 ![] bcast_S_S32x16x224x224 : (⟨S_, .f32⟩ : BufTy).Contents (Elt F) → (⟨S32x16x224x224, .f32⟩ : BufTy).Contents (Elt F)),
    StableHlo.binary main_v8 main_v9 main_v10 (mulf : (⟨S32x16x224x224, .f32⟩ : BufTy).Contents (Elt F) → (⟨S32x16x224x224, .f32⟩ : BufTy).Contents (Elt F) → (⟨S32x16x224x224, .f32⟩ : BufTy).Contents (Elt F)),
    StableHlo.nullary main_c_14 (constantI S_ 32 64#32),
    StableHlo.unary main_c_14 main_v11 (broadcastInDim S16 ![] bcast_S_S16 : (⟨S_, .i32⟩ : BufTy).Contents (Elt F) → (⟨S16, .i32⟩ : BufTy).Contents (Elt F)),
    StableHlo.binary main_c main_v11 main_v12 (addi : (⟨S16, .i32⟩ : BufTy).Contents (Elt F) → (⟨S16, .i32⟩ : BufTy).Contents (Elt F) → (⟨S16, .i32⟩ : BufTy).Contents (Elt F)),
    StableHlo.ternary main_c_1 main_v12 main_c main_v13 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.unary main_v13 main_v14 (broadcastInDim S16x1 ![0] bcast_S16_S16x1_0 : (⟨S16, .i32⟩ : BufTy).Contents (Elt F) → (⟨S16x1, .i32⟩ : BufTy).Contents (Elt F)),
    StableHlo.ternary main_v0 main_v14 main_v10 main_v15 ((fun x i u => Host.scatter scatter_S32x64x224x224_S16x1_S32x16x224x224_023_1_1_1 (fun _ b => b) x i u) : (⟨S32x64x224x224, .f32⟩ : BufTy).Contents (Elt F) → (⟨S16x1, .i32⟩ : BufTy).Contents (Elt F) → (⟨S32x16x224x224, .f32⟩ : BufTy).Contents (Elt F) → (⟨S32x64x224x224, .f32⟩ : BufTy).Contents (Elt F)),
    StableHlo.nullary main_c_15 (constantI S_ 32 64#32),
    StableHlo.unary main_c_15 main_v16 (broadcastInDim S16 ![] bcast_S_S16 : (⟨S_, .i32⟩ : BufTy).Contents (Elt F) → (⟨S16, .i32⟩ : BufTy).Contents (Elt F)),
    StableHlo.binary main_c_2 main_v16 main_v17 (addi : (⟨S16, .i32⟩ : BufTy).Contents (Elt F) → (⟨S16, .i32⟩ : BufTy).Contents (Elt F) → (⟨S16, .i32⟩ : BufTy).Contents (Elt F)),
    StableHlo.ternary main_c_3 main_v17 main_c_2 main_v18 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.unary main_v18 main_v19 (broadcastInDim S16x1 ![0] bcast_S16_S16x1_0 : (⟨S16, .i32⟩ : BufTy).Contents (Elt F) → (⟨S16x1, .i32⟩ : BufTy).Contents (Elt F)),
    StableHlo.binary main_arg0 main_v19 main_v20 ((fun x i => Host.gather gather_S32x64x224x224_S16x1_S32x16x224x224_023_1_n_n_1_1_321224224 x i) : (⟨S32x64x224x224, .f32⟩ : BufTy).Contents (Elt F) → (⟨S16x1, .i32⟩ : BufTy).Contents (Elt F) → (⟨S32x16x224x224, .f32⟩ : BufTy).Contents (Elt F)),
    StableHlo.reshape main_v20 main_v21 rfl shapeCasts_S32x16x224x224_S32x16x112x2x112x2,
    StableHlo.nullary main_cst_16 (constant S_ .f32 0x00000000#32),
    StableHlo.binary main_v21 main_cst_16 main_v22 ((fun x v => Host.reduceAdd x v reducesTo_S32x16x112x2x112x2_S32x16x112x112_d3_5 h_S_) : (⟨S32x16x112x2x112x2, .f32⟩ : BufTy).Contents (Elt F) → (⟨S_, .f32⟩ : BufTy).Contents (Elt F) → (⟨S32x16x112x112, .f32⟩ : BufTy).Contents (Elt F)),
    StableHlo.nullary main_cst_17 (constant S_ .f32 0x40800000#32),
    StableHlo.unary main_cst_17 main_v23 (broadcastInDim S32x16x112x112 ![] bcast_S_S32x16x112x112 : (⟨S_, .f32⟩ : BufTy).Contents (Elt F) → (⟨S32x16x112x112, .f32⟩ : BufTy).Contents (Elt F)),
    StableHlo.binary main_v22 main_v23 main_v24 (Host.divf : (⟨S32x16x112x112, .f32⟩ : BufTy).Contents (Elt F) → (⟨S32x16x112x112, .f32⟩ : BufTy).Contents (Elt F) → (⟨S32x16x112x112, .f32⟩ : BufTy).Contents (Elt F)),
    StableHlo.unary main_v24 main_v25 (Host.sign : (⟨S32x16x112x112, .f32⟩ : BufTy).Contents (Elt F) → (⟨S32x16x112x112, .f32⟩ : BufTy).Contents (Elt F)),
    StableHlo.nullary main_cst_18 (constant S_ .f32 0x3F800000#32),
    StableHlo.unary main_cst_18 main_v26 (broadcastInDim S32x16x112x112 ![] bcast_S_S32x16x112x112 : (⟨S_, .f32⟩ : BufTy).Contents (Elt F) → (⟨S32x16x112x112, .f32⟩ : BufTy).Contents (Elt F)),
    StableHlo.binary main_v25 main_v26 main_v27 (addf : (⟨S32x16x112x112, .f32⟩ : BufTy).Contents (Elt F) → (⟨S32x16x112x112, .f32⟩ : BufTy).Contents (Elt F) → (⟨S32x16x112x112, .f32⟩ : BufTy).Contents (Elt F)),
    StableHlo.nullary main_cst_19 (constant S_ .f32 0x3F000000#32),
    StableHlo.unary main_cst_19 main_v28 (broadcastInDim S32x16x112x112 ![] bcast_S_S32x16x112x112 : (⟨S_, .f32⟩ : BufTy).Contents (Elt F) → (⟨S32x16x112x112, .f32⟩ : BufTy).Contents (Elt F)),
    StableHlo.binary main_v27 main_v28 main_v29 (mulf : (⟨S32x16x112x112, .f32⟩ : BufTy).Contents (Elt F) → (⟨S32x16x112x112, .f32⟩ : BufTy).Contents (Elt F) → (⟨S32x16x112x112, .f32⟩ : BufTy).Contents (Elt F)),
    StableHlo.unary main_v29 main_v30 (broadcastInDim S32x16x112x2x112 ![0, 1, 2, 4] bcast_S32x16x112x112_S32x16x112x2x112_0_1_2_4 : (⟨S32x16x112x112, .f32⟩ : BufTy).Contents (Elt F) → (⟨S32x16x112x2x112, .f32⟩ : BufTy).Contents (Elt F)),
    StableHlo.reshape main_v30 main_v31 rfl shapeCasts_S32x16x112x2x112_S32x16x224x112,
    StableHlo.unary main_v31 main_v32 (broadcastInDim S32x16x224x112x2 ![0, 1, 2, 3] bcast_S32x16x224x112_S32x16x224x112x2_0_1_2_3 : (⟨S32x16x224x112, .f32⟩ : BufTy).Contents (Elt F) → (⟨S32x16x224x112x2, .f32⟩ : BufTy).Contents (Elt F)),
    StableHlo.reshape main_v32 main_v33 rfl shapeCasts_S32x16x224x112x2_S32x16x224x224,
    StableHlo.nullary main_c_20 (constantI S_ 32 64#32),
    StableHlo.unary main_c_20 main_v34 (broadcastInDim S16 ![] bcast_S_S16 : (⟨S_, .i32⟩ : BufTy).Contents (Elt F) → (⟨S16, .i32⟩ : BufTy).Contents (Elt F)),
    StableHlo.binary main_c_2 main_v34 main_v35 (addi : (⟨S16, .i32⟩ : BufTy).Contents (Elt F) → (⟨S16, .i32⟩ : BufTy).Contents (Elt F) → (⟨S16, .i32⟩ : BufTy).Contents (Elt F)),
    StableHlo.ternary main_c_4 main_v35 main_c_2 main_v36 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.unary main_v36 main_v37 (broadcastInDim S16x1 ![0] bcast_S16_S16x1_0 : (⟨S16, .i32⟩ : BufTy).Contents (Elt F) → (⟨S16x1, .i32⟩ : BufTy).Contents (Elt F)),
    StableHlo.ternary main_v15 main_v37 main_v33 main_v38 ((fun x i u => Host.scatter scatter_S32x64x224x224_S16x1_S32x16x224x224_023_1_1_1 (fun _ b => b) x i u) : (⟨S32x64x224x224, .f32⟩ : BufTy).Contents (Elt F) → (⟨S16x1, .i32⟩ : BufTy).Contents (Elt F) → (⟨S32x16x224x224, .f32⟩ : BufTy).Contents (Elt F) → (⟨S32x64x224x224, .f32⟩ : BufTy).Contents (Elt F)),
    StableHlo.nullary main_c_21 (constantI S_ 32 64#32),
    StableHlo.unary main_c_21 main_v39 (broadcastInDim S16 ![] bcast_S_S16 : (⟨S_, .i32⟩ : BufTy).Contents (Elt F) → (⟨S16, .i32⟩ : BufTy).Contents (Elt F)),
    StableHlo.binary main_c_5 main_v39 main_v40 (addi : (⟨S16, .i32⟩ : BufTy).Contents (Elt F) → (⟨S16, .i32⟩ : BufTy).Contents (Elt F) → (⟨S16, .i32⟩ : BufTy).Contents (Elt F)),
    StableHlo.ternary main_c_6 main_v40 main_c_5 main_v41 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.unary main_v41 main_v42 (broadcastInDim S16x1 ![0] bcast_S16_S16x1_0 : (⟨S16, .i32⟩ : BufTy).Contents (Elt F) → (⟨S16x1, .i32⟩ : BufTy).Contents (Elt F)),
    StableHlo.binary main_arg0 main_v42 main_v43 ((fun x i => Host.gather gather_S32x64x224x224_S16x1_S32x16x224x224_023_1_n_n_1_1_321224224 x i) : (⟨S32x64x224x224, .f32⟩ : BufTy).Contents (Elt F) → (⟨S16x1, .i32⟩ : BufTy).Contents (Elt F) → (⟨S32x16x224x224, .f32⟩ : BufTy).Contents (Elt F)),
    StableHlo.reshape main_v43 main_v44 rfl shapeCasts_S32x16x224x224_S32x16x56x4x56x4,
    StableHlo.nullary main_cst_22 (constant S_ .f32 0x00000000#32),
    StableHlo.binary main_v44 main_cst_22 main_v45 ((fun x v => Host.reduceAdd x v reducesTo_S32x16x56x4x56x4_S32x16x56x56_d3_5 h_S_) : (⟨S32x16x56x4x56x4, .f32⟩ : BufTy).Contents (Elt F) → (⟨S_, .f32⟩ : BufTy).Contents (Elt F) → (⟨S32x16x56x56, .f32⟩ : BufTy).Contents (Elt F)),
    StableHlo.nullary main_cst_23 (constant S_ .f32 0x41800000#32),
    StableHlo.unary main_cst_23 main_v46 (broadcastInDim S32x16x56x56 ![] bcast_S_S32x16x56x56 : (⟨S_, .f32⟩ : BufTy).Contents (Elt F) → (⟨S32x16x56x56, .f32⟩ : BufTy).Contents (Elt F)),
    StableHlo.binary main_v45 main_v46 main_v47 (Host.divf : (⟨S32x16x56x56, .f32⟩ : BufTy).Contents (Elt F) → (⟨S32x16x56x56, .f32⟩ : BufTy).Contents (Elt F) → (⟨S32x16x56x56, .f32⟩ : BufTy).Contents (Elt F)),
    StableHlo.unary main_v47 main_v48 (Host.sign : (⟨S32x16x56x56, .f32⟩ : BufTy).Contents (Elt F) → (⟨S32x16x56x56, .f32⟩ : BufTy).Contents (Elt F)),
    StableHlo.nullary main_cst_24 (constant S_ .f32 0x3F800000#32),
    StableHlo.unary main_cst_24 main_v49 (broadcastInDim S32x16x56x56 ![] bcast_S_S32x16x56x56 : (⟨S_, .f32⟩ : BufTy).Contents (Elt F) → (⟨S32x16x56x56, .f32⟩ : BufTy).Contents (Elt F)),
    StableHlo.binary main_v48 main_v49 main_v50 (addf : (⟨S32x16x56x56, .f32⟩ : BufTy).Contents (Elt F) → (⟨S32x16x56x56, .f32⟩ : BufTy).Contents (Elt F) → (⟨S32x16x56x56, .f32⟩ : BufTy).Contents (Elt F)),
    StableHlo.nullary main_cst_25 (constant S_ .f32 0x3F000000#32),
    StableHlo.unary main_cst_25 main_v51 (broadcastInDim S32x16x56x56 ![] bcast_S_S32x16x56x56 : (⟨S_, .f32⟩ : BufTy).Contents (Elt F) → (⟨S32x16x56x56, .f32⟩ : BufTy).Contents (Elt F)),
    StableHlo.binary main_v50 main_v51 main_v52 (mulf : (⟨S32x16x56x56, .f32⟩ : BufTy).Contents (Elt F) → (⟨S32x16x56x56, .f32⟩ : BufTy).Contents (Elt F) → (⟨S32x16x56x56, .f32⟩ : BufTy).Contents (Elt F)),
    StableHlo.unary main_v52 main_v53 (broadcastInDim S32x16x56x4x56 ![0, 1, 2, 4] bcast_S32x16x56x56_S32x16x56x4x56_0_1_2_4 : (⟨S32x16x56x56, .f32⟩ : BufTy).Contents (Elt F) → (⟨S32x16x56x4x56, .f32⟩ : BufTy).Contents (Elt F)),
    StableHlo.reshape main_v53 main_v54 rfl shapeCasts_S32x16x56x4x56_S32x16x224x56,
    StableHlo.unary main_v54 main_v55 (broadcastInDim S32x16x224x56x4 ![0, 1, 2, 3] bcast_S32x16x224x56_S32x16x224x56x4_0_1_2_3 : (⟨S32x16x224x56, .f32⟩ : BufTy).Contents (Elt F) → (⟨S32x16x224x56x4, .f32⟩ : BufTy).Contents (Elt F)),
    StableHlo.reshape main_v55 main_v56 rfl shapeCasts_S32x16x224x56x4_S32x16x224x224,
    StableHlo.nullary main_c_26 (constantI S_ 32 64#32),
    StableHlo.unary main_c_26 main_v57 (broadcastInDim S16 ![] bcast_S_S16 : (⟨S_, .i32⟩ : BufTy).Contents (Elt F) → (⟨S16, .i32⟩ : BufTy).Contents (Elt F)),
    StableHlo.binary main_c_5 main_v57 main_v58 (addi : (⟨S16, .i32⟩ : BufTy).Contents (Elt F) → (⟨S16, .i32⟩ : BufTy).Contents (Elt F) → (⟨S16, .i32⟩ : BufTy).Contents (Elt F)),
    StableHlo.ternary main_c_7 main_v58 main_c_5 main_v59 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.unary main_v59 main_v60 (broadcastInDim S16x1 ![0] bcast_S16_S16x1_0 : (⟨S16, .i32⟩ : BufTy).Contents (Elt F) → (⟨S16x1, .i32⟩ : BufTy).Contents (Elt F)),
    StableHlo.ternary main_v38 main_v60 main_v56 main_v61 ((fun x i u => Host.scatter scatter_S32x64x224x224_S16x1_S32x16x224x224_023_1_1_1 (fun _ b => b) x i u) : (⟨S32x64x224x224, .f32⟩ : BufTy).Contents (Elt F) → (⟨S16x1, .i32⟩ : BufTy).Contents (Elt F) → (⟨S32x16x224x224, .f32⟩ : BufTy).Contents (Elt F) → (⟨S32x64x224x224, .f32⟩ : BufTy).Contents (Elt F)),
    StableHlo.nullary main_c_27 (constantI S_ 32 64#32),
    StableHlo.unary main_c_27 main_v62 (broadcastInDim S16 ![] bcast_S_S16 : (⟨S_, .i32⟩ : BufTy).Contents (Elt F) → (⟨S16, .i32⟩ : BufTy).Contents (Elt F)),
    StableHlo.binary main_c_8 main_v62 main_v63 (addi : (⟨S16, .i32⟩ : BufTy).Contents (Elt F) → (⟨S16, .i32⟩ : BufTy).Contents (Elt F) → (⟨S16, .i32⟩ : BufTy).Contents (Elt F)),
    StableHlo.ternary main_c_9 main_v63 main_c_8 main_v64 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.unary main_v64 main_v65 (broadcastInDim S16x1 ![0] bcast_S16_S16x1_0 : (⟨S16, .i32⟩ : BufTy).Contents (Elt F) → (⟨S16x1, .i32⟩ : BufTy).Contents (Elt F)),
    StableHlo.binary main_arg0 main_v65 main_v66 ((fun x i => Host.gather gather_S32x64x224x224_S16x1_S32x16x224x224_023_1_n_n_1_1_321224224 x i) : (⟨S32x64x224x224, .f32⟩ : BufTy).Contents (Elt F) → (⟨S16x1, .i32⟩ : BufTy).Contents (Elt F) → (⟨S32x16x224x224, .f32⟩ : BufTy).Contents (Elt F)),
    StableHlo.reshape main_v66 main_v67 rfl shapeCasts_S32x16x224x224_S32x16x32x7x32x7,
    StableHlo.nullary main_cst_28 (constant S_ .f32 0x00000000#32),
    StableHlo.binary main_v67 main_cst_28 main_v68 ((fun x v => Host.reduceAdd x v reducesTo_S32x16x32x7x32x7_S32x16x32x32_d3_5 h_S_) : (⟨S32x16x32x7x32x7, .f32⟩ : BufTy).Contents (Elt F) → (⟨S_, .f32⟩ : BufTy).Contents (Elt F) → (⟨S32x16x32x32, .f32⟩ : BufTy).Contents (Elt F)),
    StableHlo.nullary main_cst_29 (constant S_ .f32 0x42440000#32),
    StableHlo.unary main_cst_29 main_v69 (broadcastInDim S32x16x32x32 ![] bcast_S_S32x16x32x32 : (⟨S_, .f32⟩ : BufTy).Contents (Elt F) → (⟨S32x16x32x32, .f32⟩ : BufTy).Contents (Elt F)),
    StableHlo.binary main_v68 main_v69 main_v70 (Host.divf : (⟨S32x16x32x32, .f32⟩ : BufTy).Contents (Elt F) → (⟨S32x16x32x32, .f32⟩ : BufTy).Contents (Elt F) → (⟨S32x16x32x32, .f32⟩ : BufTy).Contents (Elt F)),
    StableHlo.unary main_v70 main_v71 (Host.sign : (⟨S32x16x32x32, .f32⟩ : BufTy).Contents (Elt F) → (⟨S32x16x32x32, .f32⟩ : BufTy).Contents (Elt F)),
    StableHlo.nullary main_cst_30 (constant S_ .f32 0x3F800000#32),
    StableHlo.unary main_cst_30 main_v72 (broadcastInDim S32x16x32x32 ![] bcast_S_S32x16x32x32 : (⟨S_, .f32⟩ : BufTy).Contents (Elt F) → (⟨S32x16x32x32, .f32⟩ : BufTy).Contents (Elt F)),
    StableHlo.binary main_v71 main_v72 main_v73 (addf : (⟨S32x16x32x32, .f32⟩ : BufTy).Contents (Elt F) → (⟨S32x16x32x32, .f32⟩ : BufTy).Contents (Elt F) → (⟨S32x16x32x32, .f32⟩ : BufTy).Contents (Elt F)),
    StableHlo.nullary main_cst_31 (constant S_ .f32 0x3F000000#32),
    StableHlo.unary main_cst_31 main_v74 (broadcastInDim S32x16x32x32 ![] bcast_S_S32x16x32x32 : (⟨S_, .f32⟩ : BufTy).Contents (Elt F) → (⟨S32x16x32x32, .f32⟩ : BufTy).Contents (Elt F)),
    StableHlo.binary main_v73 main_v74 main_v75 (mulf : (⟨S32x16x32x32, .f32⟩ : BufTy).Contents (Elt F) → (⟨S32x16x32x32, .f32⟩ : BufTy).Contents (Elt F) → (⟨S32x16x32x32, .f32⟩ : BufTy).Contents (Elt F)),
    StableHlo.unary main_v75 main_v76 (broadcastInDim S32x16x32x7x32 ![0, 1, 2, 4] bcast_S32x16x32x32_S32x16x32x7x32_0_1_2_4 : (⟨S32x16x32x32, .f32⟩ : BufTy).Contents (Elt F) → (⟨S32x16x32x7x32, .f32⟩ : BufTy).Contents (Elt F)),
    StableHlo.reshape main_v76 main_v77 rfl shapeCasts_S32x16x32x7x32_S32x16x224x32,
    StableHlo.unary main_v77 main_v78 (broadcastInDim S32x16x224x32x7 ![0, 1, 2, 3] bcast_S32x16x224x32_S32x16x224x32x7_0_1_2_3 : (⟨S32x16x224x32, .f32⟩ : BufTy).Contents (Elt F) → (⟨S32x16x224x32x7, .f32⟩ : BufTy).Contents (Elt F)),
    StableHlo.reshape main_v78 main_v79 rfl shapeCasts_S32x16x224x32x7_S32x16x224x224,
    StableHlo.nullary main_c_32 (constantI S_ 32 64#32),
    StableHlo.unary main_c_32 main_v80 (broadcastInDim S16 ![] bcast_S_S16 : (⟨S_, .i32⟩ : BufTy).Contents (Elt F) → (⟨S16, .i32⟩ : BufTy).Contents (Elt F)),
    StableHlo.binary main_c_8 main_v80 main_v81 (addi : (⟨S16, .i32⟩ : BufTy).Contents (Elt F) → (⟨S16, .i32⟩ : BufTy).Contents (Elt F) → (⟨S16, .i32⟩ : BufTy).Contents (Elt F)),
    StableHlo.ternary main_c_10 main_v81 main_c_8 main_v82 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.unary main_v82 main_v83 (broadcastInDim S16x1 ![0] bcast_S16_S16x1_0 : (⟨S16, .i32⟩ : BufTy).Contents (Elt F) → (⟨S16x1, .i32⟩ : BufTy).Contents (Elt F)),
    StableHlo.ternary main_v61 main_v83 main_v79 main_v84 ((fun x i u => Host.scatter scatter_S32x64x224x224_S16x1_S32x16x224x224_023_1_1_1 (fun _ b => b) x i u) : (⟨S32x64x224x224, .f32⟩ : BufTy).Contents (Elt F) → (⟨S16x1, .i32⟩ : BufTy).Contents (Elt F) → (⟨S32x16x224x224, .f32⟩ : BufTy).Contents (Elt F) → (⟨S32x64x224x224, .f32⟩ : BufTy).Contents (Elt F)),
    StableHlo.binary main_v84 main_arg0 main_v85 (mulf : (⟨S32x64x224x224, .f32⟩ : BufTy).Contents (Elt F) → (⟨S32x64x224x224, .f32⟩ : BufTy).Contents (Elt F) → (⟨S32x64x224x224, .f32⟩ : BufTy).Contents (Elt F)) ]

set_option maxRecDepth 8192 in
set_option maxHeartbeats 4000000 in
/-- The program is the straight line of its operations. -/
theorem main_eq (c : Dev nD) : main (F := F) c = seq ops := rfl

/-- No buffer and no semaphore of the program is scoped. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches buffers of the core only. -/
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., unary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., reshape_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., reshape_bufs_sub .., unary_bufs_sub .., reshape_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., reshape_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., reshape_bufs_sub .., unary_bufs_sub .., reshape_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., reshape_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., reshape_bufs_sub .., unary_bufs_sub .., reshape_bufs_sub .., nullary_bufs_sub .., unary_bufs_sub .., binary_bufs_sub .., ternary_bufs_sub .., unary_bufs_sub .., ternary_bufs_sub .., binary_bufs_sub ..⟩

end Cert.ReferenceIdeal.Hand

end
-- ==== Proof.RefRun.lean ====
/-
  The run of the reference program, read back as one pure function of its argument.

  A straight line of array operations, run on every core from any memory, terminates, and every buffer then holds
  the fold of the operations' results over the launch contents.  Reading that fold at the result buffer, operation
  by operation from the last one back, composes the operations' functions into one term over the argument's
  contents: the four groups' gated maps written, in group order, into the zero array, times the argument.  That
  term is `refTerm` of the argument once `refTerm`'s definitions are unfolded; the argument's own buffer is written
  by no operation and keeps its contents.
-/
import proofs.«116518_j79972291051870_2_alg».proof.Proof.RefRunOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 48400000 in
/-- After the 121 operations, from any contents, the result buffer holds `refTerm` of the argument's contents. -/
theorem after_result (V : Valuation τ sig (Elt F)) :
    after ops V (Proc.devRef .tc main_v85) = refTerm (V (Proc.devRef .tc main_arg0)) := by
  after_results_simp
  rfl

set_option maxRecDepth 8192 in
set_option maxHeartbeats 48400000 in
/-- No operation writes the argument's buffer. -/
theorem after_arg (V : Valuation τ sig (Elt F)) :
    after ops V (Proc.devRef .tc main_arg0) = V (Proc.devRef .tc main_arg0) := by
  after_results_simp

set_option maxRecDepth 8192 in
set_option maxHeartbeats 48400000 in
/-- On every device, for any float values, from any memory with zero counters: every weakly fair execution of the
    program terminates with the result buffer at `refTerm` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v85).trans (after_result (launchContents m c)),
      (h c main_arg0).trans (after_arg (launchContents m c))⟩)
    (run_seq scopedRefs_eq scopedSems_eq defs main (fun _ => ops) main_eq (fun _ => ops_sub) m ρ)

end Cert.ReferenceIdeal.Hand

end
-- ==== Proof.LibGatherChan.lean ====
/-
  A gather of whole channels out of a batch of images, on the host, read at an index.

  For an array `x : [B, C, H, W]` and a column of `R` channel numbers `idx : [R, 1]`, the gather with offset axes
  0, 2, 3 (a whole `[B, 1, H, W]` slab per start index), the channel axis 1 collapsed and named by the start index map,
  and a trailing index-vector axis of extent one, has shape `[B, R, H, W]`: entry `(b, r, h, w)` is `x` at
  `(b, c, h, w)` where `c` is the `r`-th start index, read as a signed integer and clamped into `[0, C − 1]`.
  The dimension numbers are a record built from the literal lists; a printed record with the same lists is equal to
  it by `rfl`.
-/
import Idealize.ShloMosaic.Lib.ValueIdx

noncomputable section

namespace Cert.LibGatherChan

open Idealize.ShloMosaic Idealize.ShloMosaic.ValueIdx

variable {α : Type}

/-- The channel a start index names among `C` channels: its signed value clamped into `[0, C − 1]`. -/
def clampChan {w : ℕ} (C : ℕ) (hC : 0 < C) (v : BitVec w) : Fin C := ⟨min v.toInt.toNat (C - 1), by omega⟩

/-- The dimension numbers of the channel gather. -/
abbrev chanDims (B C H W R : ℕ)
    (wf : GatherDims.WF ⟨4, ![B, C, H, W]⟩ ⟨2, ![R, 1]⟩ ⟨4, ![B, R, H, W]⟩ [0, 2, 3] [1] [] [1] [] 1 ![B, 1, H, W]) :
    GatherDims ⟨4, ![B, C, H, W]⟩ ⟨2, ![R, 1]⟩ ⟨4, ![B, R, H, W]⟩ where
  offsetDims := [0, 2, 3]
  collapsedSliceDims := [1]
  operandBatchingDims := []
  startIndicesBatchingDims := []
  startIndexMap := [1]
  indexVectorDim := 1
  sliceSizes := ![B, 1, H, W]
  wf := wf

/-- Axis 0 is not the channel axis. -/
theorem zero_not_mem_one : (0 : Fin 4) ∉ ([1] : List (Fin 4)) :=
  fun h => absurd (List.mem_singleton.mp h) (by decide)
/-- Axis 2 is not the channel axis. -/
theorem two_not_mem_one : (2 : Fin 4) ∉ ([1] : List (Fin 4)) :=
  fun h => absurd (List.mem_singleton.mp h) (by decide)
/-- Axis 3 is not the channel axis. -/
theorem three_not_mem_one : (3 : Fin 4) ∉ ([1] : List (Fin 4)) :=
  fun h => absurd (List.mem_singleton.mp h) (by decide)

section Axes
variable {B C H W R w : ℕ}
  (wf : GatherDims.WF ⟨4, ![B, C, H, W]⟩ ⟨2, ![R, 1]⟩ ⟨4, ![B, R, H, W]⟩ [0, 2, 3] [1] [] [1] [] 1 ![B, 1, H, W])
  (idx : IVec ⟨2, ![R, 1]⟩ w) (b : Fin B) (r : Fin R) (h : Fin H) (v : Fin W)

/-- On the batch axis the operand coordinate is the result's: the start index map does not name the axis, and it is the
    first offset axis. -/
theorem axis0 :
    (chanDims B C H W R wf).start (ix4 b r h v) idx 0 + (chanDims B C H W R wf).batchCoord (ix4 b r h v) 0
      + (chanDims B C H W R wf).offCoord (ix4 b r h v) 0 = b.val := by
  rw [GatherDims.batchCoord_eq_zero _ _ _ List.not_mem_nil, Nat.add_zero]
  unfold GatherDims.start
  rw [dif_neg (show (0 : Fin 4) ∉ (chanDims B C H W R wf).startIndexMap from zero_not_mem_one), Nat.zero_add]
  unfold GatherDims.offCoord
  rw [dif_pos ((GatherDims.mem_sKept _ _).mpr ⟨zero_not_mem_one, List.not_mem_nil⟩)]
  rfl

/-- On the channel axis it is the clamped start index: no batching, and the axis is collapsed. -/
theorem axis1 :
    (chanDims B C H W R wf).start (ix4 b r h v) idx 1 + (chanDims B C H W R wf).batchCoord (ix4 b r h v) 1
      + (chanDims B C H W R wf).offCoord (ix4 b r h v) 1 = min (idx (ix2 r (0 : Fin 1))).toInt.toNat (C - 1) := by
  rw [GatherDims.batchCoord_eq_zero _ _ _ List.not_mem_nil, Nat.add_zero,
    GatherDims.offCoord_eq_zero _ _ _
      (fun hm => ((GatherDims.mem_sKept _ _).mp hm).1 (List.mem_singleton.mpr rfl)), Nat.add_zero]
  unfold GatherDims.start
  rw [dif_pos (show (1 : Fin 4) ∈ (chanDims B C H W R wf).startIndexMap from List.mem_singleton.mpr rfl)]
  have hsi : (chanDims B C H W R wf).siIdx (ix4 b r h v) ⟨List.idxOf (1 : Fin 4) (chanDims B C H W R wf).startIndexMap,
      List.idxOf_lt_length_iff.2 (List.mem_singleton.mpr rfl)⟩ = ix2 r (0 : Fin 1) := by
    funext a; refine Fin.ext ?_
    match a with
    | ⟨0, _⟩ => rfl
    | ⟨1, _⟩ => rfl
  rw [hsi]
  rfl

/-- On the row axis it is the result's row (the second offset axis). -/
theorem axis2 :
    (chanDims B C H W R wf).start (ix4 b r h v) idx 2 + (chanDims B C H W R wf).batchCoord (ix4 b r h v) 2
      + (chanDims B C H W R wf).offCoord (ix4 b r h v) 2 = h.val := by
  rw [GatherDims.batchCoord_eq_zero _ _ _ List.not_mem_nil, Nat.add_zero]
  unfold GatherDims.start
  rw [dif_neg (show (2 : Fin 4) ∉ (chanDims B C H W R wf).startIndexMap from two_not_mem_one), Nat.zero_add]
  unfold GatherDims.offCoord
  rw [dif_pos ((GatherDims.mem_sKept _ _).mpr ⟨two_not_mem_one, List.not_mem_nil⟩)]
  rfl

/-- On the column axis it is the result's column (the third offset axis). -/
theorem axis3 :
    (chanDims B C H W R wf).start (ix4 b r h v) idx 3 + (chanDims B C H W R wf).batchCoord (ix4 b r h v) 3
      + (chanDims B C H W R wf).offCoord (ix4 b r h v) 3 = v.val := by
  rw [GatherDims.batchCoord_eq_zero _ _ _ List.not_mem_nil, Nat.add_zero]
  unfold GatherDims.start
  rw [dif_neg (show (3 : Fin 4) ∉ (chanDims B C H W R wf).startIndexMap from three_not_mem_one), Nat.zero_add]
  unfold GatherDims.offCoord
  rw [dif_pos ((GatherDims.mem_sKept _ _).mpr ⟨three_not_mem_one, List.not_mem_nil⟩)]
  rfl

end Axes

/-- Entry `(b, r, h, w)` of the gather is the operand's entry `(b, c, h, w)`, `c` the clamped start index `idx (r, 0)`. -/
theorem gather_chan_apply {B C H W R w : ℕ} (hC : 0 < C)
    (wf : GatherDims.WF ⟨4, ![B, C, H, W]⟩ ⟨2, ![R, 1]⟩ ⟨4, ![B, R, H, W]⟩ [0, 2, 3] [1] [] [1] [] 1 ![B, 1, H, W])
    (x : (⟨4, ![B, C, H, W]⟩ : Shape).Idx → α) (idx : IVec ⟨2, ![R, 1]⟩ w) (b : Fin B) (r : Fin R) (h : Fin H) (v : Fin W) :
    Host.gather (chanDims B C H W R wf) x idx (ix4 b r h v) = x (ix4 b (clampChan C hC (idx (ix2 r (0 : Fin 1)))) h v) := by
  unfold Host.gather
  congr 1
  funext a
  refine Fin.ext ?_
  match a with
  | ⟨0, _⟩ => exact axis0 wf idx b r h v
  | ⟨1, _⟩ => exact axis1 wf idx b r h v
  | ⟨2, _⟩ => exact axis2 wf idx b r h v
  | ⟨3, _⟩ => exact axis3 wf idx b r h v

end Cert.LibGatherChan

end
-- ==== Proof.LibScatterSet.lean ====
/-
  A host scatter whose update body returns the update (an `x.at[…].set(v)`), read at ONE index of its result.

  The scatter is a left fold over the update indices in row-major order: each update whose landing index is inside
  the operand overwrites the element there. Read at a fixed result index `i'`:
  * if no update lands on `i'`, the element is the operand's;
  * if some update lands on `i'` and every update that lands there carries the same value `v`, the element is `v`
    (in particular when exactly one update lands there).
  Nothing is assumed of the dimension numbers: which update lands where is the caller's to compute.
-/
import Idealize.ShloMosaic.PureOps

namespace Idealize.ShloMosaic

variable {s si u : Shape} {α : Type} {w : Nat}

/-- One step of the fold of a "set" scatter: update number `n` overwrites the element at its landing index, if it has one. -/
def Host.scatterSetStep (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

/-- A "set" scatter is the fold of that step over the update numbers in order. -/
theorem Host.scatter_set_eq_foldl (d : ScatterDims s si u) (x : s.Idx → α) (idx : IVec si w) (upd : u.Idx → α) :
    Host.scatter d (fun _ b => b) x idx upd = (List.finRange u.numel).foldl (Host.scatterSetStep d idx upd) x := rfl

/-- A step whose update does not land on `i'` leaves the element at `i'` alone. -/
theorem Host.scatterSetStep_of_ne (d : ScatterDims s si u) (idx : IVec si w) (upd : u.Idx → α) (r : s.Idx → α)
    (n : Fin u.numel) (i' : s.Idx) (h : d.resultIdx? (u.rowMajor.symm n) idx ≠ some i') :
    Host.scatterSetStep d idx upd r n i' = r i' := by
  unfold Host.scatterSetStep
  cases hr : d.resultIdx? (u.rowMajor.symm n) idx with
  | none => rfl
  | some i => exact if_neg fun e => h (by rw [hr, e])

/-- A step whose update lands on `i'` leaves the update's value there. -/
theorem Host.scatterSetStep_of_eq (d : ScatterDims s si u) (idx : IVec si w) (upd : u.Idx → α) (r : s.Idx → α)
    (n : Fin u.numel) (i' : s.Idx) (h : d.resultIdx? (u.rowMajor.symm n) idx = some i') :
    Host.scatterSetStep d idx upd r n i' = upd (u.rowMajor.symm n) := by
  unfold Host.scatterSetStep
  rw [h]
  exact if_pos rfl

/-- Folding steps none of which lands on `i'` leaves the element at `i'` alone. -/
theorem Host.foldl_scatterSetStep_of_miss (d : ScatterDims s si u) (idx : IVec si w) (upd : u.Idx → α) (i' : s.Idx)
    (l : List (Fin u.numel)) (x : s.Idx → α) (h : ∀ n ∈ l, d.resultIdx? (u.rowMajor.symm n) idx ≠ some i') :
    l.foldl (Host.scatterSetStep d idx upd) x i' = x i' := by
  induction l generalizing x with
  | nil => rfl
  | cons a l ih =>
    rw [List.foldl_cons, ih _ fun n hn => h n (List.mem_cons_of_mem _ hn)]
    exact Host.scatterSetStep_of_ne d idx upd x a i' (h a List.mem_cons_self)

/-- Folding steps of which at least one lands on `i'`, all those that do carrying the value `v`, leaves `v` at `i'`:
    the last one to land there wrote it. -/
theorem Host.foldl_scatterSetStep_of_hit (d : ScatterDims s si u) (idx : IVec si w) (upd : u.Idx → α) (i' : s.Idx) (v : α)
    (l : List (Fin u.numel)) (x : s.Idx → α)
    (hex : ∃ n ∈ l, d.resultIdx? (u.rowMajor.symm n) idx = some i')
    (hv : ∀ n ∈ l, d.resultIdx? (u.rowMajor.symm n) idx = some i' → upd (u.rowMajor.symm n) = v) :
    l.foldl (Host.scatterSetStep d idx upd) x i' = v := by
  induction l generalizing x with
  | nil => obtain ⟨n, hn, _⟩ := hex; cases hn
  | cons a l ih =>
    rw [List.foldl_cons]
    by_cases hl : ∃ n ∈ l, d.resultIdx? (u.rowMajor.symm n) idx = some i'
    · exact ih _ hl fun n hn => hv n (List.mem_cons_of_mem _ hn)
    · have hmiss : ∀ n ∈ l, d.resultIdx? (u.rowMajor.symm n) idx ≠ some i' := fun n hn e => hl ⟨n, hn, e⟩
      have ha : d.resultIdx? (u.rowMajor.symm a) idx = some i' := by
        obtain ⟨n, hn, e⟩ := hex
        rcases List.mem_cons.1 hn with rfl | hn'
        · exact e
        · exact absurd e (hmiss n hn')
      rw [Host.foldl_scatterSetStep_of_miss d idx upd i' l _ hmiss, Host.scatterSetStep_of_eq d idx upd x a i' ha]
      exact hv a List.mem_cons_self ha

/-- A "set" scatter read at an index NO update lands on: the operand's element. -/
theorem Host.scatter_set_apply_of_miss (d : ScatterDims s si u) (x : s.Idx → α) (idx : IVec si w) (upd : u.Idx → α)
    (i' : s.Idx) (h : ∀ j : u.Idx, d.resultIdx? j idx ≠ some i') :
    Host.scatter d (fun _ b => b) x idx upd i' = x i' := by
  rw [Host.scatter_set_eq_foldl]
  exact Host.foldl_scatterSetStep_of_miss d idx upd i' _ x fun n _ => h _

/-- A "set" scatter read at an index some update lands on, every update landing there carrying `v`: it is `v`. -/
theorem Host.scatter_set_apply_of_hit (d : ScatterDims s si u) (x : s.Idx → α) (idx : IVec si w) (upd : u.Idx → α)
    (i' : s.Idx) (v : α) (hex : ∃ j : u.Idx, d.resultIdx? j idx = some i')
    (hv : ∀ j : u.Idx, d.resultIdx? j idx = some i' → upd j = v) :
    Host.scatter d (fun _ b => b) x idx upd i' = v := by
  rw [Host.scatter_set_eq_foldl]
  obtain ⟨j0, hj0⟩ := hex
  exact Host.foldl_scatterSetStep_of_hit d idx upd i' v _ x
    ⟨u.rowMajor j0, List.mem_finRange _, by rw [Equiv.symm_apply_apply]; exact hj0⟩ fun n _ e => hv _ e

/-- Update index `j` lands on `i` exactly when, on every operand axis, its start plus its window coordinate is `i`'s
    coordinate (as integers: the start is read signed). -/
theorem ScatterDims.resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hc
      have e := Option.some.inj h
      intro a
      rw [← e]
      exact (Int.toNat_of_nonneg (hc a).1).symm
    · cases h
  · intro h
    have hc : ∀ a, 0 ≤ d.start j idx a + (d.window j a : Int) ∧ d.start j idx a + (d.window j a : Int) < s.size a := fun a => by
      rw [h a]; exact ⟨Int.natCast_nonneg _, by exact_mod_cast (i a).isLt⟩
    rw [dif_pos hc]
    refine congrArg some (funext fun a => Fin.ext ?_)
    show (d.start j idx a + (d.window j a : Int)).toNat = (i a).val
    rw [h a]; exact Int.toNat_natCast _

end Idealize.ShloMosaic
-- ==== Proof.LibScatterChan.lean ====
/-
  Whole channels of a batch of images overwritten by a host scatter, read at an index.

  For an array `acc : [B, C, H, W]`, a column of `R` channel numbers `idx : [R, 1]` and updates `upd : [B, R, H, W]`,
  the scatter with update window axes 0, 2, 3, the channel axis 1 inserted and named by the scatter-dims-to-operand-dims
  map, a trailing index-vector axis of extent one, and the body "return the update" lands update `(b, r, h, w)` on
  `(b, c, h, w)` where `c` is the `r`-th scatter index read as a signed integer (an update whose index is outside
  `[0, C)` is dropped). When the `R` indices are the distinct channels `chan r`, the result at `(b, chan r, h, w)` is
  `upd (b, r, h, w)`, and at a channel that is none of them it is `acc`'s element.
-/
import Idealize.ShloMosaic.Lib.ValueIdx
import proofs.«116518_j79972291051870_2_alg».proof.Proof.LibScatterSet

noncomputable section

namespace Cert.LibScatterChan

open Idealize.ShloMosaic Idealize.ShloMosaic.ValueIdx

variable {α : Type}

/-- The dimension numbers of the channel scatter. -/
abbrev chanDims (B C H W R : ℕ)
    (wf : ScatterDims.WF ⟨4, ![B, C, H, W]⟩ ⟨2, ![R, 1]⟩ ⟨4, ![B, R, H, W]⟩ [0, 2, 3] [1] [1] 1) :
    ScatterDims ⟨4, ![B, C, H, W]⟩ ⟨2, ![R, 1]⟩ ⟨4, ![B, R, H, W]⟩ where
  updateWindowDims := [0, 2, 3]
  insertedWindowDims := [1]
  scatterDimsToOperandDims := [1]
  indexVectorDim := 1
  wf := wf

/-- Axis 0 is not the channel axis. -/
theorem zero_not_mem_one : (0 : Fin 4) ∉ ([1] : List (Fin 4)) :=
  fun h => absurd (List.mem_singleton.mp h) (by decide)
/-- Axis 2 is not the channel axis. -/
theorem two_not_mem_one : (2 : Fin 4) ∉ ([1] : List (Fin 4)) :=
  fun h => absurd (List.mem_singleton.mp h) (by decide)
/-- Axis 3 is not the channel axis. -/
theorem three_not_mem_one : (3 : Fin 4) ∉ ([1] : List (Fin 4)) :=
  fun h => absurd (List.mem_singleton.mp h) (by decide)

section Axes
variable {B C H W R w : ℕ}
  (wf : ScatterDims.WF ⟨4, ![B, C, H, W]⟩ ⟨2, ![R, 1]⟩ ⟨4, ![B, R, H, W]⟩ [0, 2, 3] [1] [1] 1)
  (idx : IVec ⟨2, ![R, 1]⟩ w) (b : Fin B) (r : Fin R) (h : Fin H) (v : Fin W)

/-- The batch axis: no start (the map does not name it), the window coordinate is the update's batch. -/
theorem axis0 : (chanDims B C H W R wf).start (ix4 b r h v) idx 0 + ((chanDims B C H W R wf).window (ix4 b r h v) 0 : Int) = (b.val : Int) := by
  unfold ScatterDims.start
  rw [dif_neg (show (0 : Fin 4) ∉ (chanDims B C H W R wf).scatterDimsToOperandDims from zero_not_mem_one), Int.zero_add]
  unfold ScatterDims.window
  rw [dif_pos (show (0 : Fin 4) ∈ (chanDims B C H W R wf).sKept from by
    simp [ScatterDims.sKept, Shape.kept, List.mem_filter, List.mem_finRange])]
  rfl

/-- The channel axis: the start is the scatter index, read signed; the axis is inserted, so no window coordinate. -/
theorem axis1 : (chanDims B C H W R wf).start (ix4 b r h v) idx 1 + ((chanDims B C H W R wf).window (ix4 b r h v) 1 : Int)
      = (idx (ix2 r (0 : Fin 1))).toInt := by
  unfold ScatterDims.window
  rw [dif_neg (show (1 : Fin 4) ∉ (chanDims B C H W R wf).sKept from by
    simp [ScatterDims.sKept, Shape.kept, List.mem_filter, List.mem_finRange])]
  unfold ScatterDims.start
  rw [dif_pos (show (1 : Fin 4) ∈ (chanDims B C H W R wf).scatterDimsToOperandDims from List.mem_singleton.mpr rfl)]
  have hsi : (chanDims B C H W R wf).siIdx (ix4 b r h v) ⟨List.idxOf (1 : Fin 4) (chanDims B C H W R wf).scatterDimsToOperandDims,
      List.idxOf_lt_length_iff.2 (List.mem_singleton.mpr rfl)⟩ = ix2 r (0 : Fin 1) := by
    funext a; refine Fin.ext ?_
    match a with
    | ⟨0, _⟩ => rfl
    | ⟨1, _⟩ => rfl
  rw [hsi]
  simp

/-- The row axis: no start, the window coordinate is the update's row. -/
theorem axis2 : (chanDims B C H W R wf).start (ix4 b r h v) idx 2 + ((chanDims B C H W R wf).window (ix4 b r h v) 2 : Int) = (h.val : Int) := by
  unfold ScatterDims.start
  rw [dif_neg (show (2 : Fin 4) ∉ (chanDims B C H W R wf).scatterDimsToOperandDims from two_not_mem_one), Int.zero_add]
  unfold ScatterDims.window
  rw [dif_pos (show (2 : Fin 4) ∈ (chanDims B C H W R wf).sKept from by
    simp [ScatterDims.sKept, Shape.kept, List.mem_filter, List.mem_finRange])]
  rfl

/-- The column axis: no start, the window coordinate is the update's column. -/
theorem axis3 : (chanDims B C H W R wf).start (ix4 b r h v) idx 3 + ((chanDims B C H W R wf).window (ix4 b r h v) 3 : Int) = (v.val : Int) := by
  unfold ScatterDims.start
  rw [dif_neg (show (3 : Fin 4) ∉ (chanDims B C H W R wf).scatterDimsToOperandDims from three_not_mem_one), Int.zero_add]
  unfold ScatterDims.window
  rw [dif_pos (show (3 : Fin 4) ∈ (chanDims B C H W R wf).sKept from by
    simp [ScatterDims.sKept, Shape.kept, List.mem_filter, List.mem_finRange])]
  rfl

/-- Update `(b, r, h, w)` lands on `(b', c, h', w')` exactly when the batch, row and column agree and the `r`-th scatter
    index, read signed, is `c`. -/
theorem lands_iff (b' : Fin B) (c : Fin C) (h' : Fin H) (v' : Fin W) :
    (chanDims B C H W R wf).resultIdx? (ix4 b r h v) idx = some (ix4 b' c h' v')
      ↔ b = b' ∧ (idx (ix2 r (0 : Fin 1))).toInt = (c.val : Int) ∧ h = h' ∧ v = v' := by
  rw [ScatterDims.resultIdx?_eq_some_iff]
  constructor
  · intro hall
    have h0 := hall 0; have h1 := hall 1; have h2 := hall 2; have h3 := hall 3
    rw [axis0] at h0; rw [axis1] at h1; rw [axis2] at h2; rw [axis3] at h3
    refine ⟨Fin.ext (by exact_mod_cast h0), h1, Fin.ext (by exact_mod_cast h2), Fin.ext (by exact_mod_cast h3)⟩
  · rintro ⟨rfl, h1, rfl, rfl⟩ a
    match a with
    | ⟨0, _⟩ => exact axis0 wf idx b r h v
    | ⟨1, _⟩ => exact (axis1 wf idx b r h v).trans h1
    | ⟨2, _⟩ => exact axis2 wf idx b r h v
    | ⟨3, _⟩ => exact axis3 wf idx b r h v

end Axes

section Apply
variable {B C H W R w : ℕ}
  (wf : ScatterDims.WF ⟨4, ![B, C, H, W]⟩ ⟨2, ![R, 1]⟩ ⟨4, ![B, R, H, W]⟩ [0, 2, 3] [1] [1] 1)
  (idx : IVec ⟨2, ![R, 1]⟩ w) (chan : Fin R → Fin C)
  (hidx : ∀ r, (idx (ix2 r (0 : Fin 1))).toInt = ((chan r).val : Int))
  (acc : (⟨4, ![B, C, H, W]⟩ : Shape).Idx → α) (upd : (⟨4, ![B, R, H, W]⟩ : Shape).Idx → α)

include hidx in
/-- At a channel the scatter indices name (once: the channels `chan r` are distinct) the result is the update. -/
theorem scatter_chan_hit (hinj : Function.Injective chan) (b : Fin B) (r : Fin R) (h : Fin H) (v : Fin W) :
    Host.scatter (chanDims B C H W R wf) (fun _ u => u) acc idx upd (ix4 b (chan r) h v) = upd (ix4 b r h v) := by
  refine Host.scatter_set_apply_of_hit _ acc idx upd _ _ ⟨ix4 b r h v, (lands_iff wf idx b r h v b (chan r) h v).2 ⟨rfl, hidx r, rfl, rfl⟩⟩ ?_
  intro j hj
  rw [eq_ix4 j] at hj
  obtain ⟨h0, h1, h2, h3⟩ := (lands_iff wf idx _ _ _ _ b (chan r) h v).1 hj
  have h1' : (((chan (j 1)).val : ℕ) : Int) = ((chan r).val : Int) := (hidx (j 1)).symm.trans h1
  have hr : (j 1 : Fin R) = r := hinj (Fin.ext (by exact_mod_cast h1'))
  have e : j = ix4 b r h v := by
    funext a
    match a with
    | ⟨0, _⟩ => exact h0
    | ⟨1, _⟩ => exact hr
    | ⟨2, _⟩ => exact h2
    | ⟨3, _⟩ => exact h3
  exact congrArg upd e

include hidx in
/-- At a channel none of the scatter indices names the result is the operand. -/
theorem scatter_chan_miss (b : Fin B) (c : Fin C) (hc : ∀ r, chan r ≠ c) (h : Fin H) (v : Fin W) :
    Host.scatter (chanDims B C H W R wf) (fun _ u => u) acc idx upd (ix4 b c h v) = acc (ix4 b c h v) := by
  refine Host.scatter_set_apply_of_miss _ acc idx upd _ ?_
  intro j hj
  rw [eq_ix4 j] at hj
  obtain ⟨_, h1, _, _⟩ := (lands_iff wf idx _ _ _ _ b c h v).1 hj
  have h1' : (((chan (j 1)).val : ℕ) : Int) = (c.val : Int) := (hidx (j 1)).symm.trans h1
  exact hc (j 1) (Fin.ext (by exact_mod_cast h1'))

end Apply

end Cert.LibScatterChan

end
-- ==== Proof.RefVChan.lean ====
/-
  The reference's channel gather and channel write, read at an index.

  A group's table lists 16 consecutive channel numbers `o, o + 1, …, o + 15`. The index operand built from it is the
  table itself (the mask that would add 64 to a negative entry is constantly false), so gathering the group out of
  the argument reads channel `o + j` at position `j`, and writing a map into the group's channels puts position `j` of the
  map at channel `o + j` and leaves every channel outside `[o, o + 16)` as it was: the 16 channel numbers are distinct
  and in range, so no clamping and no collision occurs.
-/
import proofs.«116518_j79972291051870_2_alg».proof.Proof.RefTerm
import proofs.«116518_j79972291051870_2_alg».proof.Proof.LibGatherChan
import proofs.«116518_j79972291051870_2_alg».proof.Proof.LibScatterChan
import Idealize.ShloMosaic.Lib.Pipeline.Value

noncomputable section

namespace Cert.ReferenceIdeal.RefValue

open Cert.ReferenceIdeal Cert.ReferenceIdeal.Gen Cert.ReferenceIdeal.Hand Idealize.ShloMosaic Idealize.ShloMosaic.ValueIdx

variable {F : FTy → Type} [FloatOps F]

/-- Channel `o + j`, for a group that starts at channel `o`. -/
def chanAt (o : ℕ) (ho : o + 16 ≤ 64) (j : Fin 16) : Fin 64 := ⟨o + j.val, by have := j.isLt; omega⟩

/-- The 16 channels of a group are distinct. -/
theorem chanAt_injective (o : ℕ) (ho : o + 16 ≤ 64) : Function.Injective (chanAt o ho) := by
  intro i j hij
  have : o + i.val = o + j.val := congrArg Fin.val hij
  exact Fin.ext (by omega)

/-- The four tables: entry `j` of table `g`, read as a signed integer, is `16 g + j`. -/
theorem lit0_val (j : Fin 16) : (lit0 j).toInt = ((chanAt 0 (by norm_num) j).val : Int) := by
  revert j; decide
/-- The second table starts at channel 16 … -/
theorem lit1_val (j : Fin 16) : (lit1 j).toInt = ((chanAt 16 (by norm_num) j).val : Int) := by
  revert j; decide
/-- … the third at channel 32 … -/
theorem lit2_val (j : Fin 16) : (lit2 j).toInt = ((chanAt 32 (by norm_num) j).val : Int) := by
  revert j; decide
/-- … and the fourth at channel 48. -/
theorem lit3_val (j : Fin 16) : (lit3 j).toInt = ((chanAt 48 (by norm_num) j).val : Int) := by
  revert j; decide

/-- The index operand at row `j` is the table's entry `j`: the select on the constantly false mask returns the table. -/
theorem chanIdx_apply (lit : Fin 16 → BitVec 32) (j : Fin 16) : chanIdx (F := F) lit (ix2 j (0 : Fin 1)) = lit j := by
  unfold chanIdx
  refine (broadcastInDim_apply _ _ _ _ (ix1 j) ?_).trans ?_
  · intro a
    match a with
    | ⟨0, _⟩ => rfl
  · rw [select_apply]
    show Scalar.select 0#1 _ _ = _
    rw [select_zero]
    show lit (S16.rowMajor (ix1 j)) = lit j
    exact congrArg lit (Fin.ext (Shape.rowMajor_val_one (ix1 j)))

/-- The gathered group at `(b, j, h, w)` is the argument at channel `o + j`. -/
theorem grp_apply (lit : Fin 16 → BitVec 32) (o : ℕ) (ho : o + 16 ≤ 64)
    (hlit : ∀ j, (lit j).toInt = ((chanAt o ho j).val : Int))
    (x : (⟨S32x64x224x224, .f32⟩ : BufTy).Contents (Elt F)) (b : Fin 32) (j : Fin 16) (h w : Fin 224) :
    grp lit x (ix4 b j h w) = x (ix4 b (chanAt o ho j) h w) := by
  unfold grp
  refine (LibGatherChan.gather_chan_apply (B := 32) (C := 64) (H := 224) (W := 224) (R := 16) (by norm_num)
    gather_S32x64x224x224_S16x1_S32x16x224x224_023_1_n_n_1_1_321224224_wf x (chanIdx (F := F) lit) b j h w).trans ?_
  refine congrArg (fun c => x (ix4 b c h w)) (Fin.ext ?_)
  show min (chanIdx (F := F) lit (ix2 j (0 : Fin 1))).toInt.toNat (64 - 1) = o + j.val
  rw [chanIdx_apply, hlit j]
  have := j.isLt
  show min ((o + j.val : ℕ) : Int).toNat (64 - 1) = o + j.val
  rw [Int.toNat_natCast]; omega

/-- A map written into a group's channels, read at channel `o + j` of the group: position `j` of the map. -/
theorem put_apply_hit (lit : Fin 16 → BitVec 32) (o : ℕ) (ho : o + 16 ≤ 64)
    (hlit : ∀ j, (lit j).toInt = ((chanAt o ho j).val : Int))
    (acc : (⟨S32x64x224x224, .f32⟩ : BufTy).Contents (Elt F)) (u : (⟨S32x16x224x224, .f32⟩ : BufTy).Contents (Elt F))
    (b : Fin 32) (j : Fin 16) (h w : Fin 224) :
    put lit acc u (ix4 b (chanAt o ho j) h w) = u (ix4 b j h w) := by
  unfold put
  exact LibScatterChan.scatter_chan_hit (B := 32) (C := 64) (H := 224) (W := 224) (R := 16)
    scatter_S32x64x224x224_S16x1_S32x16x224x224_023_1_1_1_wf (chanIdx (F := F) lit) (chanAt o ho)
    (fun r => (congrArg BitVec.toInt (chanIdx_apply (F := F) lit r)).trans (hlit r)) acc u (chanAt_injective o ho) b j h w

/-- … and read at a channel outside the group: the array written into. -/
theorem put_apply_miss (lit : Fin 16 → BitVec 32) (o : ℕ) (ho : o + 16 ≤ 64)
    (hlit : ∀ j, (lit j).toInt = ((chanAt o ho j).val : Int))
    (acc : (⟨S32x64x224x224, .f32⟩ : BufTy).Contents (Elt F)) (u : (⟨S32x16x224x224, .f32⟩ : BufTy).Contents (Elt F))
    (b : Fin 32) (c : Fin 64) (hc : c.val < o ∨ o + 16 ≤ c.val) (h w : Fin 224) :
    put lit acc u (ix4 b c h w) = acc (ix4 b c h w) := by
  unfold put
  refine LibScatterChan.scatter_chan_miss (B := 32) (C := 64) (H := 224) (W := 224) (R := 16)
    scatter_S32x64x224x224_S16x1_S32x16x224x224_023_1_1_1_wf (chanIdx (F := F) lit) (chanAt o ho)
    (fun r => (congrArg BitVec.toInt (chanIdx_apply (F := F) lit r)).trans (hlit r)) acc u b c ?_ h w
  intro r hr
  have hv : o + r.val = c.val := congrArg Fin.val hr
  have := r.isLt
  omega

end Cert.ReferenceIdeal.RefValue

end
-- ==== Proof.RefVGroup1.lean ====
/-
  The reference's gate map of the first group (block size one), and the block positions shared by the other groups.

  With block size one the gate is taken of each element: at `(b, j, h, w)` of the group the map holds the gate of the
  argument's element in channel `o + j`, which is the gate of that element's one-element block mean.
  For a proper block size `k` the element at position `a` of block `h / k` is the one the specification calls
  `cell k h a`.
-/
import proofs.«116518_j79972291051870_2_alg».proof.Proof.RefVChan
import proofs.«116518_j79972291051870_2_alg».proof.Proof.Spec

noncomputable section

namespace Cert.ReferenceIdeal.RefValue

open Cert.ReferenceIdeal Cert.ReferenceIdeal.Gen Cert.ReferenceIdeal.Hand Idealize.ShloMosaic Idealize.ShloMosaic.ValueIdx
open Cert.BlockGate

/-- Position `a` of the block of length `k` that contains `h`, as the specification names it. -/
theorem cell_eq {k : ℕ} (hk : k ∣ 224) (hk0 : 0 < k) (h : Fin 224) (a : Fin k) (p : (h.val / k) * k + a.val < 224) :
    (⟨(h.val / k) * k + a.val, p⟩ : Fin 224) = cell k h a := Fin.ext (cell_val hk hk0 h a).symm

/-- The first group's gate map on a finite argument: the gate of the element, that is of its one-element block mean. -/
theorem group1_apply (lit : Fin 16 → BitVec 32) (o : ℕ) (ho : o + 16 ≤ 64)
    (hlit : ∀ j, (lit j).toInt = ((chanAt o ho j).val : Int))
    (xr : X.Idx → ℝ) (b : Fin 32) (j : Fin 16) (h w : Fin 224) :
    gate1 (F := Ideal) (grp lit (fun i => ((xr i : ℝ) : EReal))) (ix4 b j h w)
      = ((gateR (blockMean 1 xr b (chanAt o ho j) h w) : ℝ) : EReal) := by
  rw [blockMean_one]
  show (Ideal.sign (grp (F := Ideal) lit (fun i => ((xr i : ℝ) : EReal)) (ix4 b j h w)) + Ideal.ofBits .f32 0x3F800000#32)
      * Ideal.ofBits .f32 0x3F000000#32 = _
  rw [grp_apply lit o ho hlit]
  exact gate_real _

end Cert.ReferenceIdeal.RefValue

end
-- ==== Proof.LibBlockLayout.lean ====
/-
  Cutting an image into K × K blocks and repeating a map over the blocks, as reshapes and broadcasts read at an index.

  An array `[B, C, H, W]` with `H = M·K` and `W = N·K` reshaped to `[B, C, M, K, N, K]` holds at `(b, c, m, i, n, j)` the
  element `(b, c, m·K + i, n·K + j)`: row `m·K + i` is position `i` of block row `m`. In the other direction a map
  `g : [B, C, M, N]` (one value per block) is repeated over the blocks by a broadcast into a new axis of extent `K` after
  the block-row axis, a reshape merging the two into the `H` rows, a broadcast into a new last axis of extent `K` and a
  reshape merging it into the `W` columns; the result holds at `(b, c, h, w)` the value `g (b, c, h / K, w / K)`.
  All by comparing row-major positions, which the reshapes preserve.
-/
import Idealize.ShloMosaic.Lib.Pipeline.Value
import Idealize.ShloMosaic.Lib.ValueIdx
import Idealize.ShloMosaic.Lib.ValueIdxRank6

noncomputable section

namespace Cert.LibBlockLayout

open Idealize.ShloMosaic Idealize.ShloMosaic.ValueIdx

variable {α : Type}

/-- Position `i` of block `m` lies inside `M` blocks of length `K`. -/
theorem split_lt {M K m i : ℕ} (hm : m < M) (hi : i < K) : m * K + i < M * K := by
  calc m * K + i < m * K + K := by omega
    _ = (m + 1) * K := by ring
    _ ≤ M * K := Nat.mul_le_mul_right K hm

/-- The block a position lies in is one of the `M` blocks. -/
theorem div_lt {M K h : ℕ} (hh : h < M * K) : h / K < M :=
  Nat.div_lt_of_lt_mul (by rwa [Nat.mul_comm] at hh)

/-- A coordinate on an axis that is broadcast unless it has extent one: on a unit axis it is `0` anyway. -/
theorem bcast_coord {n : ℕ} (a : Fin n) (v : ℕ) (hv : v = a.val) : a.val = if n = 1 then 0 else v := by
  split
  · rename_i h; have := a.isLt; omega
  · exact hv.symm

/-- Both spatial axes split into (block, position in block): the reshape `[B, C, H, W] → [B, C, M, K, N, K]`. -/
theorem shapeCast_split {B C H W M N K : ℕ} (hH : H = M * K) (hW : W = N * K)
    (x : (⟨4, ![B, C, H, W]⟩ : Shape).Idx → α) (hc : (⟨4, ![B, C, H, W]⟩ : Shape).ShapeCasts ⟨6, ![B, C, M, K, N, K]⟩)
    (b : Fin B) (c : Fin C) (m : Fin M) (i : Fin K) (n : Fin N) (j : Fin K) :
    shapeCast ⟨6, ![B, C, M, K, N, K]⟩ x hc (ix6 b c m i n j)
      = x (ix4 b c ⟨m.val * K + i.val, hH ▸ split_lt m.isLt i.isLt⟩ ⟨n.val * K + j.val, hW ▸ split_lt n.isLt j.isLt⟩) := by
  refine shapeCast_apply x hc _ _ ?_
  rw [Shape.rowMajor_val_four, Shape.rowMajor_val_six]
  show ((b.val * C + c.val) * H + (m.val * K + i.val)) * W + (n.val * K + j.val)
    = ((((b.val * C + c.val) * M + m.val) * K + i.val) * N + n.val) * K + j.val
  rw [hH, hW]; ring

/-- The last two axes merged: the reshape `[B, C, H, N, K] → [B, C, H, W]`, column `w` being position `w % K` of block `w / K`. -/
theorem shapeCast_merge_last {B C H W N K : ℕ} (hK : 0 < K) (hW : W = N * K)
    (x : (⟨5, ![B, C, H, N, K]⟩ : Shape).Idx → α) (hc : (⟨5, ![B, C, H, N, K]⟩ : Shape).ShapeCasts ⟨4, ![B, C, H, W]⟩)
    (b : Fin B) (c : Fin C) (h : Fin H) (v : Fin W) :
    shapeCast ⟨4, ![B, C, H, W]⟩ x hc (ix4 b c h v)
      = x (ix5 b c h ⟨v.val / K, div_lt (hW ▸ v.isLt)⟩ ⟨v.val % K, Nat.mod_lt _ hK⟩) := by
  refine shapeCast_apply x hc _ _ ?_
  rw [Shape.rowMajor_val_five, Shape.rowMajor_val_four]
  show (((b.val * C + c.val) * H + h.val) * N + v.val / K) * K + v.val % K = ((b.val * C + c.val) * H + h.val) * W + v.val
  have e := Nat.div_add_mod v.val K
  subst hW
  generalize ((b.val * C + c.val) * H + h.val) = Y
  calc (Y * N + v.val / K) * K + v.val % K = Y * (N * K) + (K * (v.val / K) + v.val % K) := by ring
    _ = Y * (N * K) + v.val := by rw [e]

/-- Axes 2 and 3 merged: the reshape `[B, C, M, K, N] → [B, C, H, N]`, row `h` being position `h % K` of block `h / K`. -/
theorem shapeCast_merge_mid {B C H M N K : ℕ} (hK : 0 < K) (hH : H = M * K)
    (x : (⟨5, ![B, C, M, K, N]⟩ : Shape).Idx → α) (hc : (⟨5, ![B, C, M, K, N]⟩ : Shape).ShapeCasts ⟨4, ![B, C, H, N]⟩)
    (b : Fin B) (c : Fin C) (h : Fin H) (n : Fin N) :
    shapeCast ⟨4, ![B, C, H, N]⟩ x hc (ix4 b c h n)
      = x (ix5 b c ⟨h.val / K, div_lt (hH ▸ h.isLt)⟩ ⟨h.val % K, Nat.mod_lt _ hK⟩ n) := by
  refine shapeCast_apply x hc _ _ ?_
  rw [Shape.rowMajor_val_five, Shape.rowMajor_val_four]
  show (((b.val * C + c.val) * M + h.val / K) * K + h.val % K) * N + n.val = ((b.val * C + c.val) * H + h.val) * N + n.val
  have e := Nat.div_add_mod h.val K
  subst hH
  generalize (b.val * C + c.val) = Y
  calc ((Y * M + h.val / K) * K + h.val % K) * N + n.val = (Y * (M * K) + (K * (h.val / K) + h.val % K)) * N + n.val := by ring
    _ = (Y * (M * K) + h.val) * N + n.val := by rw [e]

/-- A map per block broadcast into a new axis after the block-row axis (result axes 0, 1, 2, 4 are the operand's). -/
theorem broadcast_skip3 {B C M K N : ℕ} (g : (⟨4, ![B, C, M, N]⟩ : Shape).Idx → α)
    (hb : (⟨4, ![B, C, M, N]⟩ : Shape).BroadcastsInDim ⟨5, ![B, C, M, K, N]⟩ (![0, 1, 2, 4] : Fin 4 → Fin 5))
    (b : Fin B) (c : Fin C) (m : Fin M) (i : Fin K) (n : Fin N) :
    broadcastInDim ⟨5, ![B, C, M, K, N]⟩ (![0, 1, 2, 4] : Fin 4 → Fin 5) hb g (ix5 b c m i n) = g (ix4 b c m n) := by
  refine broadcastInDim_apply _ hb g _ _ ?_
  intro a
  match a with
  | ⟨0, _⟩ => exact bcast_coord b _ rfl
  | ⟨1, _⟩ => exact bcast_coord c _ rfl
  | ⟨2, _⟩ => exact bcast_coord m _ rfl
  | ⟨3, _⟩ => exact bcast_coord n _ rfl

/-- An array broadcast into a new last axis (result axes 0, 1, 2, 3 are the operand's). -/
theorem broadcast_last {B C H N K : ℕ} (g : (⟨4, ![B, C, H, N]⟩ : Shape).Idx → α)
    (hb : (⟨4, ![B, C, H, N]⟩ : Shape).BroadcastsInDim ⟨5, ![B, C, H, N, K]⟩ (![0, 1, 2, 3] : Fin 4 → Fin 5))
    (b : Fin B) (c : Fin C) (h : Fin H) (n : Fin N) (i : Fin K) :
    broadcastInDim ⟨5, ![B, C, H, N, K]⟩ (![0, 1, 2, 3] : Fin 4 → Fin 5) hb g (ix5 b c h n i) = g (ix4 b c h n) := by
  refine broadcastInDim_apply _ hb g _ _ ?_
  intro a
  match a with
  | ⟨0, _⟩ => exact bcast_coord b _ rfl
  | ⟨1, _⟩ => exact bcast_coord c _ rfl
  | ⟨2, _⟩ => exact bcast_coord h _ rfl
  | ⟨3, _⟩ => exact bcast_coord n _ rfl

/-- A map per block repeated over the K × K blocks: at `(b, c, h, w)` it is the map at block `(h / K, w / K)`. -/
theorem repeat_apply {B C H W M N K : ℕ} (hK : 0 < K) (hH : H = M * K) (hW : W = N * K)
    (g : (⟨4, ![B, C, M, N]⟩ : Shape).Idx → α)
    (hb1 : (⟨4, ![B, C, M, N]⟩ : Shape).BroadcastsInDim ⟨5, ![B, C, M, K, N]⟩ (![0, 1, 2, 4] : Fin 4 → Fin 5))
    (hc1 : (⟨5, ![B, C, M, K, N]⟩ : Shape).ShapeCasts ⟨4, ![B, C, H, N]⟩)
    (hb2 : (⟨4, ![B, C, H, N]⟩ : Shape).BroadcastsInDim ⟨5, ![B, C, H, N, K]⟩ (![0, 1, 2, 3] : Fin 4 → Fin 5))
    (hc2 : (⟨5, ![B, C, H, N, K]⟩ : Shape).ShapeCasts ⟨4, ![B, C, H, W]⟩)
    (b : Fin B) (c : Fin C) (h : Fin H) (v : Fin W) :
    shapeCast ⟨4, ![B, C, H, W]⟩
        (broadcastInDim ⟨5, ![B, C, H, N, K]⟩ (![0, 1, 2, 3] : Fin 4 → Fin 5) hb2
          (shapeCast ⟨4, ![B, C, H, N]⟩ (broadcastInDim ⟨5, ![B, C, M, K, N]⟩ (![0, 1, 2, 4] : Fin 4 → Fin 5) hb1 g) hc1)) hc2
        (ix4 b c h v)
      = g (ix4 b c ⟨h.val / K, div_lt (hH ▸ h.isLt)⟩ ⟨v.val / K, div_lt (hW ▸ v.isLt)⟩) := by
  rw [shapeCast_merge_last hK hW, broadcast_last, shapeCast_merge_mid hK hH, broadcast_skip3]

end Cert.LibBlockLayout

end
-- ==== Proof.LibReduce35.lean ====
/-
  A sum over axes 3 and 5 of a rank-6 array, as the host computes it, read at an index.

  The host's add-reduce of an array `x` of shape [a, b, c, k, d, l] over axes 3 and 5 holds, at the result index
  (p, q, m, n), the initial value plus the sum of `x` over every source index whose coordinates on the four kept axes
  are (p, q, m, n). Those source indices are exactly the (p, q, m, i, n, j) with i < k and j < l, each once, so the sum
  is the iterated sum over i and then j. Addition on the extended reals is commutative and associative, so no
  finiteness is asked.
-/
import Idealize.ShloMosaic.PureOps.Ideal.Laws
import Idealize.ShloMosaic.Lib.ValueIdx
import Idealize.ShloMosaic.Lib.ValueIdxRank6

noncomputable section

namespace Cert.LibReduce35

open Idealize.ShloMosaic Idealize.ShloMosaic.ValueIdx

variable {a b c k d l : Nat}

/-- The result's axes 0, 1, 2, 3 are the source's axes 0, 1, 2, 4: the kept axes, in order, whatever the extents are.
    Result axis 0 is source axis 0 … -/
theorem drop_val0 (h : (⟨6, ![a, b, c, k, d, l]⟩ : Shape).ReducesTo [3, 5] ⟨4, ![a, b, c, d]⟩)
    (i : (⟨6, ![a, b, c, k, d, l]⟩ : Shape).Idx) : (h.drop i ⟨0, by show 0 < 4; omega⟩).val = (i 0).val := rfl
/-- … result axis 1 is source axis 1 … -/
theorem drop_val1 (h : (⟨6, ![a, b, c, k, d, l]⟩ : Shape).ReducesTo [3, 5] ⟨4, ![a, b, c, d]⟩)
    (i : (⟨6, ![a, b, c, k, d, l]⟩ : Shape).Idx) : (h.drop i ⟨1, by show 1 < 4; omega⟩).val = (i 1).val := rfl
/-- … result axis 2 is source axis 2 … -/
theorem drop_val2 (h : (⟨6, ![a, b, c, k, d, l]⟩ : Shape).ReducesTo [3, 5] ⟨4, ![a, b, c, d]⟩)
    (i : (⟨6, ![a, b, c, k, d, l]⟩ : Shape).Idx) : (h.drop i ⟨2, by show 2 < 4; omega⟩).val = (i 2).val := rfl
/-- … and result axis 3 is source axis 4. -/
theorem drop_val3 (h : (⟨6, ![a, b, c, k, d, l]⟩ : Shape).ReducesTo [3, 5] ⟨4, ![a, b, c, d]⟩)
    (i : (⟨6, ![a, b, c, k, d, l]⟩ : Shape).Idx) : (h.drop i ⟨3, by show 3 < 4; omega⟩).val = (i 4).val := rfl

/-- Dropping axes 3 and 5 of (p, q, m, i, n, j) leaves (p, q, m, n). -/
theorem drop_ix6 (h : (⟨6, ![a, b, c, k, d, l]⟩ : Shape).ReducesTo [3, 5] ⟨4, ![a, b, c, d]⟩)
    (p : Fin a) (q : Fin b) (m : Fin c) (i : Fin k) (n : Fin d) (j : Fin l) : h.drop (ix6 p q m i n j) = ix4 p q m n := by
  funext e
  apply Fin.ext
  match e with
  | ⟨0, _⟩ => exact drop_val0 h (ix6 p q m i n j)
  | ⟨1, _⟩ => exact drop_val1 h (ix6 p q m i n j)
  | ⟨2, _⟩ => exact drop_val2 h (ix6 p q m i n j)
  | ⟨3, _⟩ => exact drop_val3 h (ix6 p q m i n j)

/-- A source index that drops to (p, q, m, n) is (p, q, m, ·, n, ·) with its own coordinates on axes 3 and 5. -/
theorem eq_ix6_of_drop (h : (⟨6, ![a, b, c, k, d, l]⟩ : Shape).ReducesTo [3, 5] ⟨4, ![a, b, c, d]⟩)
    (p : Fin a) (q : Fin b) (m : Fin c) (n : Fin d) (i : (⟨6, ![a, b, c, k, d, l]⟩ : Shape).Idx) (hd : h.drop i = ix4 p q m n) :
    ix6 p q m (i 3 : Fin k) n (i 5 : Fin l) = i := by
  have h0 : (i 0).val = p.val := (drop_val0 h i).symm.trans (by rw [hd])
  have h1 : (i 1).val = q.val := (drop_val1 h i).symm.trans (by rw [hd])
  have h2 : (i 2).val = m.val := (drop_val2 h i).symm.trans (by rw [hd])
  have h4 : (i 4).val = n.val := (drop_val3 h i).symm.trans (by rw [hd])
  funext e
  apply Fin.ext
  match e with
  | ⟨0, _⟩ => exact h0.symm
  | ⟨1, _⟩ => exact h1.symm
  | ⟨2, _⟩ => exact h2.symm
  | ⟨3, _⟩ => rfl
  | ⟨4, _⟩ => exact h4.symm
  | ⟨5, _⟩ => rfl

/-- The host's sum over axes 3 and 5, at (p, q, m, n): the initial value plus the iterated sum over both. -/
theorem hostReduceAdd_35 (h : (⟨6, ![a, b, c, k, d, l]⟩ : Shape).ReducesTo [3, 5] ⟨4, ![a, b, c, d]⟩)
    (x : (⟨6, ![a, b, c, k, d, l]⟩ : Shape).Idx → EReal) (init : EReal) (p : Fin a) (q : Fin b) (m : Fin c) (n : Fin d) :
    Ideal.hostReduceAdd h x init (ix4 p q m n) = init + ∑ i : Fin k, ∑ j : Fin l, x (ix6 p q m i n j) := by
  unfold Ideal.hostReduceAdd
  congr 1
  rw [← Fintype.sum_prod_type' (f := fun (i : Fin k) (j : Fin l) => x (ix6 p q m i n j))]
  refine Finset.sum_nbij' (fun i => ((i 3 : Fin k), (i 5 : Fin l))) (fun ij => ix6 p q m ij.1 n ij.2) ?_ ?_ ?_ ?_ ?_
  · intro i _; exact Finset.mem_univ _
  · intro ij _; exact Finset.mem_filter.2 ⟨Finset.mem_univ _, drop_ix6 h p q m ij.1 n ij.2⟩
  · intro i hi; exact eq_ix6_of_drop h p q m n i (Finset.mem_filter.1 hi).2
  · intro ij _; rfl
  · intro i hi; exact congrArg x (eq_ix6_of_drop h p q m n i (Finset.mem_filter.1 hi).2).symm

end Cert.LibReduce35

end
-- ==== Proof.LibBlockMean.lean ====
/-
  The host's K × K block means of a batch of images, at the ideal instance, read at an index; and the gate of a map.

  The block means are computed as: reshape `[B, C, H, W]` (with `H = M·K`, `W = N·K`) to `[B, C, M, K, N, K]`, add-reduce
  over the two in-block axes 3 and 5 from an initial word, divide by a constant word. At the ideal instance the result
  at `(b, c, m, n)` is the initial value plus the double sum of the elements `(b, c, m·K + i, n·K + j)`, `i, j < K`,
  divided (the ideal instance's division) by the constant. The gate of a map `p`, `(sign p + one) · half` with two
  constant words, is that expression of the element at every index.
-/
import Idealize.ShloMosaic.PureOps.Ideal
import Idealize.ShloMosaic.PureOps.Ideal.Laws
import proofs.«116518_j79972291051870_2_alg».proof.Proof.LibReduce35
import proofs.«116518_j79972291051870_2_alg».proof.Proof.LibBlockLayout

noncomputable section

open scoped BigOperators

namespace Cert.LibBlockMean

open Idealize.ShloMosaic Idealize.ShloMosaic.ValueIdx

/-- The block means at `(b, c, m, n)`: the initial value plus the sum over the block, divided by the constant. -/
theorem mean_apply {B C H W M N K : ℕ} (hH : H = M * K) (hW : W = N * K)
    (g : FVec Ideal ⟨4, ![B, C, H, W]⟩ .f32)
    (hc : (⟨4, ![B, C, H, W]⟩ : Shape).ShapeCasts ⟨6, ![B, C, M, K, N, K]⟩)
    (hr : (⟨6, ![B, C, M, K, N, K]⟩ : Shape).ReducesTo [3, 5] ⟨4, ![B, C, M, N]⟩)
    (hS : 0 < (⟨0, ![]⟩ : Shape).numel)
    (hb : (⟨0, ![]⟩ : Shape).BroadcastsInDim ⟨4, ![B, C, M, N]⟩ (![] : Fin 0 → Fin 4))
    (wz wk : BitVec 32) (b : Fin B) (c : Fin C) (m : Fin M) (n : Fin N) :
    Host.divf (F := Ideal)
        (Host.reduceAdd (F := Ideal) (shapeCast ⟨6, ![B, C, M, K, N, K]⟩ g hc : FVec Ideal ⟨6, ![B, C, M, K, N, K]⟩ .f32)
          (constant (F := Ideal) ⟨0, ![]⟩ .f32 wz) hr hS)
        (broadcastInDim ⟨4, ![B, C, M, N]⟩ (![] : Fin 0 → Fin 4) hb (constant (F := Ideal) ⟨0, ![]⟩ .f32 wk)) (ix4 b c m n)
      = Ideal.div (Ideal.ofBits .f32 wz + ∑ i : Fin K, ∑ j : Fin K,
            g (ix4 b c ⟨m.val * K + i.val, hH ▸ LibBlockLayout.split_lt m.isLt i.isLt⟩
              ⟨n.val * K + j.val, hW ▸ LibBlockLayout.split_lt n.isLt j.isLt⟩))
          (Ideal.ofBits .f32 wk) := by
  show Ideal.div (Ideal.hostReduceAdd hr (shapeCast ⟨6, ![B, C, M, K, N, K]⟩ g hc) (Ideal.ofBits .f32 wz) (ix4 b c m n))
      (Ideal.ofBits .f32 wk) = _
  rw [LibReduce35.hostReduceAdd_35]
  simp only [LibBlockLayout.shapeCast_split hH hW]

/-- The gate of a map at an index: the sign of the element plus the first word, times the second. -/
theorem gate_apply {s : Shape} (p : FVec Ideal s .f32)
    (hb : (⟨0, ![]⟩ : Shape).BroadcastsInDim s (![] : Fin 0 → Fin s.rank)) (w1 wh : BitVec 32) (i : s.Idx) :
    mulf (addf (Host.sign p) (broadcastInDim s (![] : Fin 0 → Fin s.rank) hb (constant (F := Ideal) ⟨0, ![]⟩ .f32 w1)))
        (broadcastInDim s (![] : Fin 0 → Fin s.rank) hb (constant (F := Ideal) ⟨0, ![]⟩ .f32 wh)) i
      = (Ideal.sign (p i) + Ideal.ofBits .f32 w1) * Ideal.ofBits .f32 wh := rfl

end Cert.LibBlockMean

end
-- ==== Proof.RefVGroup2.lean ====
/-
  The reference's gate map of the group with block size 2, on a finite argument, read at an index.

  The 2 × 2 block means of the gathered group are real: the sum of the four elements of the block over 4. The gate of
  the mean, repeated over the block, is at `(b, j, h, w)` the gate of the mean of the block containing `(h, w)` in
  channel `o + j` of the argument.
-/
import proofs.«116518_j79972291051870_2_alg».proof.Proof.RefVGroup1
import proofs.«116518_j79972291051870_2_alg».proof.Proof.LibBlockLayout
import proofs.«116518_j79972291051870_2_alg».proof.Proof.LibBlockMean

noncomputable section

open scoped BigOperators

namespace Cert.ReferenceIdeal.RefValue

open Cert.ReferenceIdeal Cert.ReferenceIdeal.Gen Cert.ReferenceIdeal.Hand Idealize.ShloMosaic Idealize.ShloMosaic.ValueIdx
open Cert.BlockGate

/-- The 2 × 2 block means of a gathered group of a finite argument: the block's sum over 4, a real. -/
theorem mean2_real (lit : Fin 16 → BitVec 32) (o : ℕ) (ho : o + 16 ≤ 64)
    (hlit : ∀ j, (lit j).toInt = ((chanAt o ho j).val : Int))
    (xr : X.Idx → ℝ) (b : Fin 32) (j : Fin 16) (m n : Fin 112) :
    mean2 (F := Ideal) (grp lit (fun i => ((xr i : ℝ) : EReal))) (ix4 b j m n)
      = (((∑ i : Fin 2, ∑ d : Fin 2, xr (ix4 b (chanAt o ho j)
            ⟨m.val * 2 + i.val, LibBlockLayout.split_lt (M := 112) m.isLt i.isLt⟩
            ⟨n.val * 2 + d.val, LibBlockLayout.split_lt (M := 112) n.isLt d.isLt⟩)) / 4 : ℝ) : EReal) := by
  unfold mean2
  refine (LibBlockMean.mean_apply (B := 32) (C := 16) (H := 224) (W := 224) (M := 112) (N := 112) (K := 2)
    (by norm_num) (by norm_num) _ shapeCasts_S32x16x224x224_S32x16x112x2x112x2
    reducesTo_S32x16x112x2x112x2_S32x16x112x112_d3_5 h_S_ bcast_S_S32x16x112x112 _ _ b j m n).trans ?_
  simp only [grp_apply lit o ho hlit]
  rw [word_zero, word_four]
  simp only [← coe_sum]
  rw [← EReal.coe_add, zero_add, div_real _ _ (by norm_num)]

/-- The gate map of the group at `(b, j, h, w)`: the gate of the mean of the 2 × 2 block containing `(h, w)`. -/
theorem group2_apply (lit : Fin 16 → BitVec 32) (o : ℕ) (ho : o + 16 ≤ 64)
    (hlit : ∀ j, (lit j).toInt = ((chanAt o ho j).val : Int))
    (xr : X.Idx → ℝ) (b : Fin 32) (j : Fin 16) (h w : Fin 224) :
    rep2 (F := Ideal) (gate2 (mean2 (grp lit (fun i => ((xr i : ℝ) : EReal))))) (ix4 b j h w)
      = ((gateR (blockMean 2 xr b (chanAt o ho j) h w) : ℝ) : EReal) := by
  unfold rep2
  refine (LibBlockLayout.repeat_apply (B := 32) (C := 16) (H := 224) (W := 224) (M := 112) (N := 112) (K := 2)
    (by norm_num) (by norm_num) (by norm_num) _ bcast_S32x16x112x112_S32x16x112x2x112_0_1_2_4
    shapeCasts_S32x16x112x2x112_S32x16x224x112 bcast_S32x16x224x112_S32x16x224x112x2_0_1_2_3
    shapeCasts_S32x16x224x112x2_S32x16x224x224 b j h w).trans ?_
  show (Ideal.sign (mean2 (F := Ideal) _ _) + Ideal.ofBits .f32 0x3F800000#32) * Ideal.ofBits .f32 0x3F000000#32 = _
  rw [mean2_real lit o ho hlit, gate_real]
  refine congrArg (fun v : ℝ => ((gateR v : ℝ) : EReal)) ?_
  unfold blockMean
  simp only [cell_eq (by norm_num : 2 ∣ 224) (by norm_num : 0 < 2)]
  norm_num

end Cert.ReferenceIdeal.RefValue

end
-- ==== Proof.RefVGroup4.lean ====
/-
  The reference's gate map of the group with block size 4, on a finite argument, read at an index.

  The 4 × 4 block means of the gathered group are real: the sum of the sixteen elements of the block over 16. The gate of
  the mean, repeated over the block, is at `(b, j, h, w)` the gate of the mean of the block containing `(h, w)` in
  channel `o + j` of the argument.
-/
import proofs.«116518_j79972291051870_2_alg».proof.Proof.RefVGroup1
import proofs.«116518_j79972291051870_2_alg».proof.Proof.LibBlockLayout
import proofs.«116518_j79972291051870_2_alg».proof.Proof.LibBlockMean

noncomputable section

open scoped BigOperators

namespace Cert.ReferenceIdeal.RefValue

open Cert.ReferenceIdeal Cert.ReferenceIdeal.Gen Cert.ReferenceIdeal.Hand Idealize.ShloMosaic Idealize.ShloMosaic.ValueIdx
open Cert.BlockGate

/-- The 4 × 4 block means of a gathered group of a finite argument: the block's sum over 16, a real. -/
theorem mean4_real (lit : Fin 16 → BitVec 32) (o : ℕ) (ho : o + 16 ≤ 64)
    (hlit : ∀ j, (lit j).toInt = ((chanAt o ho j).val : Int))
    (xr : X.Idx → ℝ) (b : Fin 32) (j : Fin 16) (m n : Fin 56) :
    mean4 (F := Ideal) (grp lit (fun i => ((xr i : ℝ) : EReal))) (ix4 b j m n)
      = (((∑ i : Fin 4, ∑ d : Fin 4, xr (ix4 b (chanAt o ho j)
            ⟨m.val * 4 + i.val, LibBlockLayout.split_lt (M := 56) m.isLt i.isLt⟩
            ⟨n.val * 4 + d.val, LibBlockLayout.split_lt (M := 56) n.isLt d.isLt⟩)) / 16 : ℝ) : EReal) := by
  unfold mean4
  refine (LibBlockMean.mean_apply (B := 32) (C := 16) (H := 224) (W := 224) (M := 56) (N := 56) (K := 4)
    (by norm_num) (by norm_num) _ shapeCasts_S32x16x224x224_S32x16x56x4x56x4
    reducesTo_S32x16x56x4x56x4_S32x16x56x56_d3_5 h_S_ bcast_S_S32x16x56x56 _ _ b j m n).trans ?_
  simp only [grp_apply lit o ho hlit]
  rw [word_zero, word_sixteen]
  simp only [← coe_sum]
  rw [← EReal.coe_add, zero_add, div_real _ _ (by norm_num)]

/-- The gate map of the group at `(b, j, h, w)`: the gate of the mean of the 4 × 4 block containing `(h, w)`. -/
theorem group4_apply (lit : Fin 16 → BitVec 32) (o : ℕ) (ho : o + 16 ≤ 64)
    (hlit : ∀ j, (lit j).toInt = ((chanAt o ho j).val : Int))
    (xr : X.Idx → ℝ) (b : Fin 32) (j : Fin 16) (h w : Fin 224) :
    rep4 (F := Ideal) (gate4 (mean4 (grp lit (fun i => ((xr i : ℝ) : EReal))))) (ix4 b j h w)
      = ((gateR (blockMean 4 xr b (chanAt o ho j) h w) : ℝ) : EReal) := by
  unfold rep4
  refine (LibBlockLayout.repeat_apply (B := 32) (C := 16) (H := 224) (W := 224) (M := 56) (N := 56) (K := 4)
    (by norm_num) (by norm_num) (by norm_num) _ bcast_S32x16x56x56_S32x16x56x4x56_0_1_2_4
    shapeCasts_S32x16x56x4x56_S32x16x224x56 bcast_S32x16x224x56_S32x16x224x56x4_0_1_2_3
    shapeCasts_S32x16x224x56x4_S32x16x224x224 b j h w).trans ?_
  show (Ideal.sign (mean4 (F := Ideal) _ _) + Ideal.ofBits .f32 0x3F800000#32) * Ideal.ofBits .f32 0x3F000000#32 = _
  rw [mean4_real lit o ho hlit, gate_real]
  refine congrArg (fun v : ℝ => ((gateR v : ℝ) : EReal)) ?_
  unfold blockMean
  simp only [cell_eq (by norm_num : 4 ∣ 224) (by norm_num : 0 < 4)]
  norm_num

end Cert.ReferenceIdeal.RefValue

end
-- ==== Proof.RefVGroup7.lean ====
/-
  The reference's gate map of the group with block size 7, on a finite argument, read at an index.

  The 7 × 7 block means of the gathered group are real: the sum of the forty-nine elements of the block over 49. The gate of
  the mean, repeated over the block, is at `(b, j, h, w)` the gate of the mean of the block containing `(h, w)` in
  channel `o + j` of the argument.
-/
import proofs.«116518_j79972291051870_2_alg».proof.Proof.RefVGroup1
import proofs.«116518_j79972291051870_2_alg».proof.Proof.LibBlockLayout
import proofs.«116518_j79972291051870_2_alg».proof.Proof.LibBlockMean

noncomputable section

open scoped BigOperators

namespace Cert.ReferenceIdeal.RefValue

open Cert.ReferenceIdeal Cert.ReferenceIdeal.Gen Cert.ReferenceIdeal.Hand Idealize.ShloMosaic Idealize.ShloMosaic.ValueIdx
open Cert.BlockGate

/-- The 7 × 7 block means of a gathered group of a finite argument: the block's sum over 49, a real. -/
theorem mean7_real (lit : Fin 16 → BitVec 32) (o : ℕ) (ho : o + 16 ≤ 64)
    (hlit : ∀ j, (lit j).toInt = ((chanAt o ho j).val : Int))
    (xr : X.Idx → ℝ) (b : Fin 32) (j : Fin 16) (m n : Fin 32) :
    mean7 (F := Ideal) (grp lit (fun i => ((xr i : ℝ) : EReal))) (ix4 b j m n)
      = (((∑ i : Fin 7, ∑ d : Fin 7, xr (ix4 b (chanAt o ho j)
            ⟨m.val * 7 + i.val, LibBlockLayout.split_lt (M := 32) m.isLt i.isLt⟩
            ⟨n.val * 7 + d.val, LibBlockLayout.split_lt (M := 32) n.isLt d.isLt⟩)) / 49 : ℝ) : EReal) := by
  unfold mean7
  refine (LibBlockMean.mean_apply (B := 32) (C := 16) (H := 224) (W := 224) (M := 32) (N := 32) (K := 7)
    (by norm_num) (by norm_num) _ shapeCasts_S32x16x224x224_S32x16x32x7x32x7
    reducesTo_S32x16x32x7x32x7_S32x16x32x32_d3_5 h_S_ bcast_S_S32x16x32x32 _ _ b j m n).trans ?_
  simp only [grp_apply lit o ho hlit]
  rw [word_zero, word_fortynine]
  simp only [← coe_sum]
  rw [← EReal.coe_add, zero_add, div_real _ _ (by norm_num)]

/-- The gate map of the group at `(b, j, h, w)`: the gate of the mean of the 7 × 7 block containing `(h, w)`. -/
theorem group7_apply (lit : Fin 16 → BitVec 32) (o : ℕ) (ho : o + 16 ≤ 64)
    (hlit : ∀ j, (lit j).toInt = ((chanAt o ho j).val : Int))
    (xr : X.Idx → ℝ) (b : Fin 32) (j : Fin 16) (h w : Fin 224) :
    rep7 (F := Ideal) (gate7 (mean7 (grp lit (fun i => ((xr i : ℝ) : EReal))))) (ix4 b j h w)
      = ((gateR (blockMean 7 xr b (chanAt o ho j) h w) : ℝ) : EReal) := by
  unfold rep7
  refine (LibBlockLayout.repeat_apply (B := 32) (C := 16) (H := 224) (W := 224) (M := 32) (N := 32) (K := 7)
    (by norm_num) (by norm_num) (by norm_num) _ bcast_S32x16x32x32_S32x16x32x7x32_0_1_2_4
    shapeCasts_S32x16x32x7x32_S32x16x224x32 bcast_S32x16x224x32_S32x16x224x32x7_0_1_2_3
    shapeCasts_S32x16x224x32x7_S32x16x224x224 b j h w).trans ?_
  show (Ideal.sign (mean7 (F := Ideal) _ _) + Ideal.ofBits .f32 0x3F800000#32) * Ideal.ofBits .f32 0x3F000000#32 = _
  rw [mean7_real lit o ho hlit, gate_real]
  refine congrArg (fun v : ℝ => ((gateR v : ℝ) : EReal)) ?_
  unfold blockMean
  simp only [cell_eq (by norm_num : 7 ∣ 224) (by norm_num : 0 < 7)]
  norm_num

end Cert.ReferenceIdeal.RefValue

end
-- ==== Proof.RefValue.lean ====
/-
  The value of the reference, index by index, when floats are the extended reals and the argument is finite.

  The gate array is built by four channel writes into the zero array, one per group of 16 channels, in group order.
  A channel `c` of group `g` is written by the `g`-th write and by no later one (the later tables hold other channels),
  so the gate array holds there the `g`-th gate map: the gate of the mean of the block of size 1, 2, 4 or 7 that
  contains the element. The result is the gate array times the argument, a product of two reals.
-/
import proofs.«116518_j79972291051870_2_alg».proof.Proof.RefTerm
import proofs.«116518_j79972291051870_2_alg».proof.Proof.Spec
import proofs.«116518_j79972291051870_2_alg».proof.Proof.RefVChan
import proofs.«116518_j79972291051870_2_alg».proof.Proof.RefVGroup1
import proofs.«116518_j79972291051870_2_alg».proof.Proof.RefVGroup2
import proofs.«116518_j79972291051870_2_alg».proof.Proof.RefVGroup4
import proofs.«116518_j79972291051870_2_alg».proof.Proof.RefVGroup7

noncomputable section

namespace Cert.ReferenceIdeal.RefValue

open Cert.ReferenceIdeal Cert.ReferenceIdeal.Gen Cert.ReferenceIdeal.Hand Idealize.ShloMosaic Idealize.ShloMosaic.ValueIdx
open Cert.BlockGate

/-- The block size of a channel, group by group: 1 for channels 0–15 … -/
theorem blockOf_1 (c : Fin 64) (h : c.val < 16) : blockOf c = 1 := by
  unfold blockOf; rw [if_pos h]
/-- … 2 for channels 16–31 … -/
theorem blockOf_2 (c : Fin 64) (h1 : 16 ≤ c.val) (h2 : c.val < 32) : blockOf c = 2 := by
  unfold blockOf; rw [if_neg (by omega), if_pos h2]
/-- … 4 for channels 32–47 … -/
theorem blockOf_4 (c : Fin 64) (h1 : 32 ≤ c.val) (h2 : c.val < 48) : blockOf c = 4 := by
  unfold blockOf; rw [if_neg (by omega), if_neg (by omega), if_pos h2]
/-- … and 7 for channels 48–63. -/
theorem blockOf_7 (c : Fin 64) (h1 : 48 ≤ c.val) : blockOf c = 7 := by
  unfold blockOf; rw [if_neg (by omega), if_neg (by omega), if_neg (by omega)]

/-- The gate array on a finite argument: at every element the gate of the mean of its block. -/
theorem gates_apply (xr : X.Idx → ℝ) (b : Fin 32) (c : Fin 64) (h w : Fin 224) :
    gates (F := Ideal) (fun i => ((xr i : ℝ) : EReal)) (ix4 b c h w)
      = ((gateR (blockMean (blockOf c) xr b c h w) : ℝ) : EReal) := by
  have hc := c.isLt
  unfold gates
  by_cases h0 : c.val < 16
  · -- group 0: written by the first write, left alone by the other three
    obtain ⟨j, hj⟩ : ∃ j : Fin 16, c = chanAt 0 (by norm_num) j :=
      ⟨⟨c.val, h0⟩, Fin.ext (by show c.val = 0 + c.val; omega)⟩
    rw [blockOf_1 c h0,
      put_apply_miss lit3 48 (by norm_num) lit3_val _ _ b c (Or.inl (by omega)) h w,
      put_apply_miss lit2 32 (by norm_num) lit2_val _ _ b c (Or.inl (by omega)) h w,
      put_apply_miss lit1 16 (by norm_num) lit1_val _ _ b c (Or.inl (by omega)) h w]
    subst hj
    exact (put_apply_hit lit0 0 (by norm_num) lit0_val _ _ b j h w).trans
      (group1_apply lit0 0 (by norm_num) lit0_val xr b j h w)
  by_cases h1 : c.val < 32
  · -- group 1: written by the second write, left alone by the last two
    obtain ⟨j, hj⟩ : ∃ j : Fin 16, c = chanAt 16 (by norm_num) j :=
      ⟨⟨c.val - 16, by omega⟩, Fin.ext (by show c.val = 16 + (c.val - 16); omega)⟩
    rw [blockOf_2 c (by omega) h1,
      put_apply_miss lit3 48 (by norm_num) lit3_val _ _ b c (Or.inl (by omega)) h w,
      put_apply_miss lit2 32 (by norm_num) lit2_val _ _ b c (Or.inl (by omega)) h w]
    subst hj
    exact (put_apply_hit lit1 16 (by norm_num) lit1_val _ _ b j h w).trans
      (group2_apply lit1 16 (by norm_num) lit1_val xr b j h w)
  by_cases h2 : c.val < 48
  · -- group 2: written by the third write, left alone by the last
    obtain ⟨j, hj⟩ : ∃ j : Fin 16, c = chanAt 32 (by norm_num) j :=
      ⟨⟨c.val - 32, by omega⟩, Fin.ext (by show c.val = 32 + (c.val - 32); omega)⟩
    rw [blockOf_4 c (by omega) h2,
      put_apply_miss lit3 48 (by norm_num) lit3_val _ _ b c (Or.inl (by omega)) h w]
    subst hj
    exact (put_apply_hit lit2 32 (by norm_num) lit2_val _ _ b j h w).trans
      (group4_apply lit2 32 (by norm_num) lit2_val xr b j h w)
  · -- group 3: written by the last write
    obtain ⟨j, hj⟩ : ∃ j : Fin 16, c = chanAt 48 (by norm_num) j :=
      ⟨⟨c.val - 48, by omega⟩, Fin.ext (by show c.val = 48 + (c.val - 48); omega)⟩
    rw [blockOf_7 c (by omega)]
    subst hj
    exact (put_apply_hit lit3 48 (by norm_num) lit3_val _ _ b j h w).trans
      (group7_apply lit3 48 (by norm_num) lit3_val xr b j h w)

/-- THE VALUE OF THE REFERENCE on a finite argument: the specification, element by element. -/
theorem refTerm_apply (xr : Cert.BlockGate.X.Idx → ℝ) (b : Fin 32) (c : Fin 64) (h w : Fin 224) :
    Cert.ReferenceIdeal.Hand.refTerm (F := Ideal) (fun i => ((xr i : ℝ) : EReal)) (ix4 b c h w)
      = ((Cert.BlockGate.GRc xr b c h w : ℝ) : EReal) := by
  unfold refTerm GRc
  refine (mulf_apply _ _ _).trans ?_
  rw [gates_apply]
  exact (EReal.coe_mul _ _).symm

end Cert.ReferenceIdeal.RefValue

end
-- ==== Proof.Finite.lean ====
/-
  From the precondition to real numbers.

  The precondition says that the conjunction, over every element x of the argument, of |x| < +∞ is true.  An
  extended real whose absolute value max x (−x) lies below +∞ is neither +∞ nor −∞, so it is a real number.  Hence
  under the precondition the argument array is the image of an array of reals.
-/
import proofs.«116518_j79972291051870_2_alg».proof.Defs
import proofs.«116518_j79972291051870_2_alg».proof.Proof.Gen.Pre_finite_inputs
import proofs.«116518_j79972291051870_2_alg».proof.Proof.Spec
import Idealize.ShloMosaic.Lib.ReduceAll
import Idealize.ShloMosaic.Lib.ValueIdx

noncomputable section

namespace Cert.BlockGate

open Idealize.ShloMosaic

instance : Subsingleton Cert.Pre_finite_inputs.S_.Idx := ⟨fun a b => funext fun d => d.elim0⟩

/-- The word the precondition compares against is +∞. -/
theorem word_inf : Ideal.ofBits .f32 0x7F800000#32 = (⊤ : EReal) := by simp [Ideal.ofBits, Ideal.ieee]

/-- An extended real whose absolute value is below +∞ is a real. -/
theorem real_of_abs_lt_top (x : EReal) (h : max x (-x) < ⊤) : ∃ r : ℝ, x = (r : EReal) := by
  induction x using EReal.rec with
  | bot => simp at h
  | top => simp at h
  | coe r => exact ⟨r, rfl⟩

/-- Under the printed predicate every element of the array is a real. -/
theorem real_of_finite (x : FVec Ideal Cert.Pre_finite_inputs.S32x64x224x224 .f32)
    (h : Cert.Pre_finite_inputs.fn (F := Ideal) x = fun _ => 1#1) (i : Cert.Pre_finite_inputs.S32x64x224x224.Idx) :
    ∃ r : ℝ, x i = (r : EReal) := by
  have e := congrFun h ValueIdx.ix0
  dsimp only [Cert.Pre_finite_inputs.fn] at e
  have hi := Host.reduce_andi_all _ _ _ _ _ e i
  have hlt : max (x i) (-(x i)) < Ideal.ofBits .f32 0x7F800000#32 := by
    by_contra hn
    have : (BitVec.ofBool (decide (max (x i) (-(x i)) < Ideal.ofBits .f32 0x7F800000#32))) = 1#1 := hi
    rw [decide_eq_false hn] at this
    exact absurd this (by decide)
  rw [word_inf] at hlt
  exact real_of_abs_lt_top (x i) hlt

/-- Under the precondition the idealized kernel's argument is, on every device, an array of reals. -/
theorem exists_real_of_pre (m : (ℓ : Loc Cert.KernelIdeal.nD Cert.KernelIdeal.τ Cert.KernelIdeal.sig) → Buf (Elt Ideal) ℓ)
    (h : Cert.Pre_KernelIdeal m) :
    ∃ xr : Dev Cert.KernelIdeal.nD → X.Idx → ℝ, ∀ c : Dev Cert.KernelIdeal.nD,
      (m ((c.tc : Thread Cert.KernelIdeal.nD Cert.KernelIdeal.τ).loc Cert.KernelIdeal.main_arg0) : X.Idx → EReal) = fun i => ((xr c i : ℝ) : EReal) := by
  refine ⟨fun c i => Classical.choose (real_of_finite _ (h c) i), fun c => funext fun i => ?_⟩
  exact Classical.choose_spec (real_of_finite _ (h c) i)

end Cert.BlockGate

end
-- ==== Proof.lean ====
/-
  The certificate's five claims.

  Both programs compute, on a finite 32 × 64 × 224 × 224 array x, the array x · gate(block mean): the 64 channels
  fall into four groups of 16 with block sizes 1, 2, 4, 7, every image is cut into k × k blocks, and every element
  is multiplied by (sgn v + 1) / 2 of the mean v of its block (`Cert.BlockGate.G`, Proof/Spec.lean).

  The kernel takes one (batch, channel group) block per grid point and one of four bodies by the group.  It forms
  the block means as means over the columns of means over the rows (two reshapes, two sums, two divisions by k, a
  transpose between them) and spreads the gate back by broadcasts, reshapes and a transpose; read at an element that
  is the element times the gate of (Σ_columns (Σ_rows x) / k) / k (Proof/KernelPay1, 2, 4, 7), every element of the
  result is written by exactly one grid point, and so the result array is `G` (Proof/KernelValue.lean).
  The reference gathers each group's channels, sums every block over both of its axes at once and divides by k · k,
  takes the gate, repeats it over the block and scatters it into the group's channels of a zero array, which it
  multiplies with x; read at an element that is the element times the gate of (Σ_block x) / (k · k)
  (Proof/RefRun.lean for the run, Proof/RefValue.lean for the value).
  The two arrangements of the mean agree because, the input being finite, every sum and quotient is one of real
  numbers, where (Σ_d (Σ_a f a d) / k) / k = (Σ_a Σ_d f a d) / (k · k) is field arithmetic (Spec.lean,
  `mean_of_means`); on infinite inputs the two sides could differ, so the precondition is used here
  (Proof/Finite.lean turns it into "the argument is an array of reals").

  The three frames: each kernel program's body is run, at every grid point, in the case its channel group selects,
  and stores one whole block (Proof/BodyK.lean at the bit level, Proof/BodyKI.lean at the ideal level); the
  reference's frame is its run with the result forgotten.  The idealization's ledger has four entries, the sign read
  off the value instead of the sign bit at the four shapes where the kernel takes a sign: each is the rule's own
  statement.
-/
import proofs.«116518_j79972291051870_2_alg».proof.Defs
import proofs.«116518_j79972291051870_2_alg».proof.Proof.Gen.Kernel
import proofs.«116518_j79972291051870_2_alg».proof.Proof.Gen.KernelIdeal
import proofs.«116518_j79972291051870_2_alg».proof.Proof.Gen.ReferenceIdeal
import proofs.«116518_j79972291051870_2_alg».proof.Proof.Gen.Pre_finite_inputs
import proofs.«116518_j79972291051870_2_alg».proof.Proof.BodyK
import proofs.«116518_j79972291051870_2_alg».proof.Proof.BodyKI
import proofs.«116518_j79972291051870_2_alg».proof.Proof.KernelValue
import proofs.«116518_j79972291051870_2_alg».proof.Proof.RefRun
import proofs.«116518_j79972291051870_2_alg».proof.Proof.RefValue
import proofs.«116518_j79972291051870_2_alg».proof.Proof.Finite

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Hand.run (F := Ideal) m ρ)

/-- The ledger's four entries: the sign rule's statement at each shape where the kernel takes a sign. -/
theorem preserves : Cert.preserves_Kernel_KernelIdeal :=
  ⟨IdealRules.sign_bit.statement Cert.KernelIdeal.S16x224x224 .f32, IdealRules.sign_bit.statement Cert.KernelIdeal.S16x112x112 .f32,
    IdealRules.sign_bit.statement Cert.KernelIdeal.S16x56x56 .f32, IdealRules.sign_bit.statement Cert.KernelIdeal.S16x32x32 .f32⟩

/-- On a finite argument the kernel's result array and the reference's are both the specification of it. -/
theorem algebraic : Cert.algebraic_KernelIdeal_ReferenceIdeal := by
  intro m ρ m' ρ' hpre hagree
  obtain ⟨xr, hx⟩ := Cert.BlockGate.exists_real_of_pre m hpre
  refine ⟨fun c => Cert.BlockGate.G (xr c), Cert.KernelIdeal.HandValue.run m ρ xr hx, ?_⟩
  refine (θ_run Cert.ReferenceIdeal.defs _ _).mono (fun _ h c => ⟨(h c).1.trans ?_, (h c).2⟩)
    (Cert.ReferenceIdeal.Hand.run (F := Ideal) m' ρ')
  rw [hagree c, hx c]
  funext i
  obtain ⟨b, ch, y, z, rfl⟩ : ∃ (b : Fin 32) (ch : Fin 64) (y z : Fin 224), i = ix4 b ch y z := ⟨i 0, i 1, i 2, i 3, eq_ix4 i⟩
  exact Cert.ReferenceIdeal.RefValue.refTerm_apply (xr c) b ch y z

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
